-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S128x128 : Shape := ⟨2, ![128, 128]⟩
abbrev S128x1 : Shape := ⟨2, ![128, 1]⟩
abbrev S2x131072 : Shape := ⟨2, ![2, 131072]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_arg4 : FVec F S128x1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  main_v23

def fn {F : FTy → Type} [FloatOps F] (main_arg0 : FVec F S8192x128 .f32) (main_arg1 : FVec F S128x128 .f32) (main_arg2 : FVec F S128x128 .f32) (main_arg3 : FVec F S128x128 .f32) (main_arg4 : FVec F S128x1 .f32) (main_arg5 : IVec S2x131072 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S8192x128 : Shape := ⟨2, ![8192, 128]⟩
abbrev S128x128 : Shape := ⟨2, ![128, 128]⟩
abbrev S128x1 : Shape := ⟨2, ![128, 1]⟩
abbrev S2x131072 : Shape := ⟨2, ![2, 131072]⟩
abbrev S_ : Shape := ⟨0, ![]⟩
abbrev S8192x1 : Shape := ⟨2, ![8192, 1]⟩
abbrev S1x131072 : Shape := ⟨2, ![1, 131072]⟩
abbrev S131072 : Shape := ⟨1, ![131072]⟩
abbrev S131072x1 : Shape := ⟨2, ![131072, 1]⟩
abbrev S8192x8192 : Shape := ⟨2, ![8192, 8192]⟩
abbrev S131072x2 : Shape := ⟨2, ![131072, 2]⟩
abbrev S1024x1024 : Shape := ⟨2, ![1024, 1024]⟩

abbrev nBuf : Space → Nat
  | .hbm => 82
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x1, .f32⟩
  | .hbm, ⟨5, _⟩ => ⟨S2x131072, .i32⟩
  | .hbm, ⟨6, _⟩ => ⟨S8192x128, .f32⟩
  | .hbm, ⟨7, _⟩ => ⟨S_, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S_, .f32⟩
  | .hbm, ⟨16, _⟩ => ⟨S8192x128, .f32⟩
  | .hbm, ⟨17, _⟩ => ⟨S8192x128, .f32⟩
  | .hbm, ⟨18, _⟩ => ⟨S8192x1, .f32⟩
  | .hbm, ⟨19, _⟩ => ⟨S1x131072, .i32⟩
  | .hbm, ⟨20, _⟩ => ⟨S131072, .i32⟩
  | .hbm, ⟨21, _⟩ => ⟨S1x131072, .i32⟩
  | .hbm, ⟨22, _⟩ => ⟨S131072, .i32⟩
  | .hbm, ⟨23, _⟩ => ⟨S_, .i32⟩
  | .hbm, ⟨24, _⟩ => ⟨S131072, .i32⟩
  | .hbm, ⟨25, _⟩ => ⟨S131072, .i1⟩
  | .hbm, ⟨26, _⟩ => ⟨S_, .i32⟩
  | .hbm, ⟨27, _⟩ => ⟨S131072, .i32⟩
  | .hbm, ⟨28, _⟩ => ⟨S131072, .i32⟩
  | .hbm, ⟨29, _⟩ => ⟨S131072, .i32⟩
  | .hbm, ⟨30, _⟩ => ⟨S131072x1, .i32⟩
  | .hbm, ⟨31, _⟩ => ⟨S131072x1, .f32⟩
  | .hbm, ⟨32, _⟩ => ⟨S_, .f32⟩
  | .hbm, ⟨33, _⟩ => ⟨S_, .f32⟩
  | .hbm, ⟨34, _⟩ => ⟨S131072x1, .f32⟩
  | .hbm, ⟨35, _⟩ => ⟨S131072x1, .f32⟩
  | .hbm, ⟨36, _⟩ => ⟨S_, .f32⟩
  | .hbm, ⟨37, _⟩ => ⟨S8192x1, .f32⟩
  | .hbm, ⟨38, _⟩ => ⟨S131072x1, .i32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x8192, .f32⟩
  | .hbm, ⟨43, _⟩ => ⟨S_, .i32⟩
  | .hbm, ⟨44, _⟩ => ⟨S131072, .i32⟩
  | .hbm, ⟨45, _⟩ => ⟨S131072, .i1⟩
  | .hbm, ⟨46, _⟩ => ⟨S_, .i32⟩
  | .hbm, ⟨47, _⟩ => ⟨S131072, .i32⟩
  | .hbm, ⟨48, _⟩ => ⟨S131072, .i32⟩
  | .hbm, ⟨49, _⟩ => ⟨S131072, .i32⟩
  | .hbm, ⟨50, _⟩ => ⟨S_, .i32⟩
  | .hbm, ⟨51, _⟩ => ⟨S131072, .i32⟩
  | .hbm, ⟨52, _⟩ => ⟨S131072, .i1⟩
  | .hbm, ⟨53, _⟩ => ⟨S_, .i32⟩
  | .hbm, ⟨54, _⟩ => ⟨S131072, .i32⟩
  | .hbm, ⟨55, _⟩ => ⟨S131072, .i32⟩
  | .hbm, ⟨56, _⟩ => ⟨S131072, .i32⟩
  | .hbm, ⟨57, _⟩ => ⟨S131072x1, .i32⟩
  | .hbm, ⟨58, _⟩ => ⟨S131072x1, .i32⟩
  | .hbm, ⟨59, _⟩ => ⟨S131072x2, .i32⟩
  | .hbm, ⟨60, _⟩ => ⟨S_, .f32⟩
  | .hbm, ⟨61, _⟩ => ⟨S131072, .f32⟩
  | .hbm, ⟨62, _⟩ => ⟨S8192x8192, .f32⟩
  | .hbm, ⟨63, _⟩ => ⟨S8192x8192, .bf16⟩
  | .hbm, ⟨64, _⟩ => ⟨S8192x8192, .bf16⟩
  | .hbm, ⟨65, _⟩ => ⟨S8192x8192, .f32⟩
  | .hbm, ⟨66, _⟩ => ⟨S8192x1, .f32⟩
  | .hbm, ⟨67, _⟩ => ⟨S_, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S8192x1, .f32⟩
  | .hbm, ⟨72, _⟩ => ⟨S8192x1, .f32⟩
  | .hbm, ⟨73, _⟩ => ⟨S8192x8192, .bf16⟩
  | .hbm, ⟨74, _⟩ => ⟨S8192x8192, .f32⟩
  | .hbm, ⟨75, _⟩ => ⟨S8192x1, .f32⟩
  | .hbm, ⟨76, _⟩ => ⟨S_, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S8192x1, .f32⟩
  | .hbm, ⟨81, _⟩ => ⟨S8192x1, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_call1_cst : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_call2_cst : Ref sig .tc := ⟨.hbm, 15, rfl⟩
abbrev main_call2_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_c_3 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 8, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  bcast_S_S8192x128 : S_.BroadcastsInDim S8192x128 (![] : Fin 0 → Fin S8192x128.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S_S8192x1 : S_.BroadcastsInDim S8192x1 (![] : Fin 0 → Fin S8192x1.rank)
  bcast_S_S8192x8192 : S_.BroadcastsInDim S8192x8192 (![] : Fin 0 → Fin S8192x8192.rank)
  concatenates_S131072x1_S131072x1_S131072x2_d1 : Shape.Concatenates [S131072x1, S131072x1] S131072x2 1
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  natLt_1_32 : 1 < 32
  packedbf16_S1024x1024_S1024x1024_0_0 : (Rect.unit (s := S1024x1024) ![0, 0] S1024x1024.size inb_S1024x1024_S1024x1024_0_0).PackedRows (EltTy.packing .bf16)
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  gather_S8192x1_S131072x1_S131072x1_1_0_n_n_0_1_11_wf : GatherDims.WF S8192x1 S131072x1 S131072x1 [1] [0] [] [0] [] 1 ![1, 1]
  scatter_S8192x1_S131072x1_S131072x1_1_0_0_1_wf : ScatterDims.WF S8192x1 S131072x1 S131072x1 [1] [0] [0] 1
  scatter_S8192x8192_S131072x2_S131072_n_01_01_1_wf : ScatterDims.WF S8192x8192 S131072x2 S131072 [] [0, 1] [0, 1] 1
  dot_S1024x1024_S1024x1024_S1024x1024_1_0_0_1_n_n_wf : DotDims.WF S1024x1024 S1024x1024 S1024x1024 [1] [0] [0] [1] [] []
  dot_S8192x8192_S8192x1_S8192x1_1_0_0_1_n_n_wf : DotDims.WF S8192x8192 S8192x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .bf16 = 32 ∨ (Rect.block (s := S8192x8192) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .bf16 = 32 ∨ (Rect.block (s := S8192x8192) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .bf16 = 32 ∨ (Rect.block (s := S8192x8192) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .bf16 = 32 ∨ (Rect.block (s := S8192x8192) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x8192.size a
  hwx1_1 : ∀ i : grid1.Coords, EltTy.bits .bf16 = 32 ∨ (Rect.block (s := S8192x8192) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .bf16 = 32 ∨ (Rect.block (s := S8192x8192) S1024x1024.size (cc1_transform_2 i) (hinb1_2 i)).WholeWords (EltTy.packing .bf16)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def gather_S8192x1_S131072x1_S131072x1_1_0_n_n_0_1_11 : GatherDims S8192x1 S131072x1 S131072x1 where
  offsetDims := [1]
  collapsedSliceDims := [0]
  operandBatchingDims := []
  startIndicesBatchingDims := []
  startIndexMap := [0]
  indexVectorDim := 1
  sliceSizes := ![1, 1]
  wf := gather_S8192x1_S131072x1_S131072x1_1_0_n_n_0_1_11_wf
def scatter_S8192x1_S131072x1_S131072x1_1_0_0_1 : ScatterDims S8192x1 S131072x1 S131072x1 where
  updateWindowDims := [1]
  insertedWindowDims := [0]
  scatterDimsToOperandDims := [0]
  indexVectorDim := 1
  wf := scatter_S8192x1_S131072x1_S131072x1_1_0_0_1_wf
def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S8192x8192_S8192x1_S8192x1_1_0_0_1_n_n : DotDims S8192x8192 S8192x1 S8192x1 where
  lhsContracting := [1]
  rhsContracting := [0]
  lhsNonContracting := [0]
  rhsNonContracting := [1]
  lhsBatch := []
  rhsBatch := []
  wf := dot_S8192x8192_S8192x1_S8192x1_1_0_0_1_n_n_wf

abbrev win0_0 : Pipeline.Window sig grid0 :=
  Pipeline.Window.ofSpec (Memref.whole main_v41) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v42) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S128x128 : Shape := ⟨2, ![128, 128]⟩
abbrev S128x1 : Shape := ⟨2, ![128, 1]⟩
abbrev S2x131072 : Shape := ⟨2, ![2, 131072]⟩
abbrev S_ : Shape := ⟨0, ![]⟩
abbrev S8192x1 : Shape := ⟨2, ![8192, 1]⟩
abbrev S1x131072 : Shape := ⟨2, ![1, 131072]⟩
abbrev S131072 : Shape := ⟨1, ![131072]⟩
abbrev S131072x1 : Shape := ⟨2, ![131072, 1]⟩
abbrev S8192x8192 : Shape := ⟨2, ![8192, 8192]⟩
abbrev S131072x2 : Shape := ⟨2, ![131072, 2]⟩

abbrev nBuf : Space → Nat
  | .hbm => 87
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x1, .f32⟩
  | .hbm, ⟨5, _⟩ => ⟨S2x131072, .i32⟩
  | .hbm, ⟨6, _⟩ => ⟨S8192x128, .f32⟩
  | .hbm, ⟨7, _⟩ => ⟨S_, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S_, .f32⟩
  | .hbm, ⟨16, _⟩ => ⟨S8192x128, .f32⟩
  | .hbm, ⟨17, _⟩ => ⟨S8192x128, .f32⟩
  | .hbm, ⟨18, _⟩ => ⟨S8192x1, .f32⟩
  | .hbm, ⟨19, _⟩ => ⟨S1x131072, .i32⟩
  | .hbm, ⟨20, _⟩ => ⟨S131072, .i32⟩
  | .hbm, ⟨21, _⟩ => ⟨S1x131072, .i32⟩
  | .hbm, ⟨22, _⟩ => ⟨S131072, .i32⟩
  | .hbm, ⟨23, _⟩ => ⟨S_, .i32⟩
  | .hbm, ⟨24, _⟩ => ⟨S131072, .i32⟩
  | .hbm, ⟨25, _⟩ => ⟨S131072, .i1⟩
  | .hbm, ⟨26, _⟩ => ⟨S_, .i32⟩
  | .hbm, ⟨27, _⟩ => ⟨S131072, .i32⟩
  | .hbm, ⟨28, _⟩ => ⟨S131072, .i32⟩
  | .hbm, ⟨29, _⟩ => ⟨S131072, .i32⟩
  | .hbm, ⟨30, _⟩ => ⟨S131072x1, .i32⟩
  | .hbm, ⟨31, _⟩ => ⟨S131072x1, .f32⟩
  | .hbm, ⟨32, _⟩ => ⟨S_, .f32⟩
  | .hbm, ⟨33, _⟩ => ⟨S_, .f32⟩
  | .hbm, ⟨34, _⟩ => ⟨S131072x1, .f32⟩
  | .hbm, ⟨35, _⟩ => ⟨S131072x1, .f32⟩
  | .hbm, ⟨36, _⟩ => ⟨S_, .f32⟩
  | .hbm, ⟨37, _⟩ => ⟨S8192x1, .f32⟩
  | .hbm, ⟨38, _⟩ => ⟨S131072x1, .i32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x8192, .f32⟩
  | .hbm, ⟨43, _⟩ => ⟨S_, .i32⟩
  | .hbm, ⟨44, _⟩ => ⟨S131072, .i32⟩
  | .hbm, ⟨45, _⟩ => ⟨S131072, .i1⟩
  | .hbm, ⟨46, _⟩ => ⟨S_, .i32⟩
  | .hbm, ⟨47, _⟩ => ⟨S131072, .i32⟩
  | .hbm, ⟨48, _⟩ => ⟨S131072, .i32⟩
  | .hbm, ⟨49, _⟩ => ⟨S131072, .i32⟩
  | .hbm, ⟨50, _⟩ => ⟨S_, .i32⟩
  | .hbm, ⟨51, _⟩ => ⟨S131072, .i32⟩
  | .hbm, ⟨52, _⟩ => ⟨S131072, .i1⟩
  | .hbm, ⟨53, _⟩ => ⟨S_, .i32⟩
  | .hbm, ⟨54, _⟩ => ⟨S131072, .i32⟩
  | .hbm, ⟨55, _⟩ => ⟨S131072, .i32⟩
  | .hbm, ⟨56, _⟩ => ⟨S131072, .i32⟩
  | .hbm, ⟨57, _⟩ => ⟨S131072x1, .i32⟩
  | .hbm, ⟨58, _⟩ => ⟨S131072x1, .i32⟩
  | .hbm, ⟨59, _⟩ => ⟨S131072x2, .i32⟩
  | .hbm, ⟨60, _⟩ => ⟨S_, .f32⟩
  | .hbm, ⟨61, _⟩ => ⟨S131072, .f32⟩
  | .hbm, ⟨62, _⟩ => ⟨S8192x8192, .f32⟩
  | .hbm, ⟨63, _⟩ => ⟨S8192x8192, .f32⟩
  | .hbm, ⟨64, _⟩ => ⟨S_, .f32⟩
  | .hbm, ⟨65, _⟩ => ⟨S8192x8192, .f32⟩
  | .hbm, ⟨66, _⟩ => ⟨S8192x8192, .i1⟩
  | .hbm, ⟨67, _⟩ => ⟨S8192x8192, .f32⟩
  | .hbm, ⟨68, _⟩ => ⟨S_, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S8192x1, .f32⟩
  | .hbm, ⟨73, _⟩ => ⟨S8192x1, .f32⟩
  | .hbm, ⟨74, _⟩ => ⟨S8192x1, .f32⟩
  | .hbm, ⟨75, _⟩ => ⟨S8192x8192, .f32⟩
  | .hbm, ⟨76, _⟩ => ⟨S_, .f32⟩
  | .hbm, ⟨77, _⟩ => ⟨S8192x8192, .f32⟩
  | .hbm, ⟨78, _⟩ => ⟨S8192x8192, .i1⟩
  | .hbm, ⟨79, _⟩ => ⟨S8192x8192, .f32⟩
  | .hbm, ⟨80, _⟩ => ⟨S_, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S8192x1, .f32⟩
  | .hbm, ⟨85, _⟩ => ⟨S8192x1, .f32⟩
  | .hbm, ⟨86, _⟩ => ⟨S8192x1, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_call1_cst : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_call2_cst : Ref sig .tc := ⟨.hbm, 15, rfl⟩
abbrev main_call2_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_c_3 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]

class Facts₀ : Prop where
  bcast_S_S8192x128 : S_.BroadcastsInDim S8192x128 (![] : Fin 0 → Fin S8192x128.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S_S8192x1 : S_.BroadcastsInDim S8192x1 (![] : Fin 0 → Fin S8192x1.rank)
  bcast_S_S8192x8192 : S_.BroadcastsInDim S8192x8192 (![] : Fin 0 → Fin S8192x8192.rank)
  concatenates_S131072x1_S131072x1_S131072x2_d1 : Shape.Concatenates [S131072x1, S131072x1] S131072x2 1
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  gather_S8192x1_S131072x1_S131072x1_1_0_n_n_0_1_11_wf : GatherDims.WF S8192x1 S131072x1 S131072x1 [1] [0] [] [0] [] 1 ![1, 1]
  scatter_S8192x1_S131072x1_S131072x1_1_0_0_1_wf : ScatterDims.WF S8192x1 S131072x1 S131072x1 [1] [0] [0] 1
  scatter_S8192x8192_S131072x2_S131072_n_01_01_1_wf : ScatterDims.WF S8192x8192 S131072x2 S131072 [] [0, 1] [0, 1] 1
  dot_S8192x8192_S8192x8192_S8192x8192_1_0_0_1_n_n_wf : DotDims.WF S8192x8192 S8192x8192 S8192x8192 [1] [0] [0] [1] [] []
  dot_S8192x8192_S8192x1_S8192x1_1_0_0_1_n_n_wf : DotDims.WF S8192x8192 S8192x1 S8192x1 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def gather_S8192x1_S131072x1_S131072x1_1_0_n_n_0_1_11 : GatherDims S8192x1 S131072x1 S131072x1 where
  offsetDims := [1]
  collapsedSliceDims := [0]
  operandBatchingDims := []
  startIndicesBatchingDims := []
  startIndexMap := [0]
  indexVectorDim := 1
  sliceSizes := ![1, 1]
  wf := gather_S8192x1_S131072x1_S131072x1_1_0_n_n_0_1_11_wf
def scatter_S8192x1_S131072x1_S131072x1_1_0_0_1 : ScatterDims S8192x1 S131072x1 S131072x1 where
  updateWindowDims := [1]
  insertedWindowDims := [0]
  scatterDimsToOperandDims := [0]
  indexVectorDim := 1
  wf := scatter_S8192x1_S131072x1_S131072x1_1_0_0_1_wf
def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S8192x8192_S8192x8192_S8192x8192_1_0_0_1_n_n : DotDims S8192x8192 S8192x8192 S8192x8192 where
  lhsContracting := [1]
  rhsContracting := [0]
  lhsNonContracting := [0]
  rhsNonContracting := [1]
  lhsBatch := []
  rhsBatch := []
  wf := dot_S8192x8192_S8192x8192_S8192x8192_1_0_0_1_n_n_wf
def dot_S8192x8192_S8192x1_S8192x1_1_0_0_1_n_n : DotDims S8192x8192 S8192x1 S8192x1 where
  lhsContracting := [1]
  rhsContracting := [0]
  lhsNonContracting := [0]
  rhsNonContracting := [1]
  lhsBatch := []
  rhsBatch := []
  wf := dot_S8192x8192_S8192x1_S8192x1_1_0_0_1_n_n_wf

class Facts : Prop extends Facts₀ where

variable [Facts]
-- ==== Proof.KernelConds0.lean ====
import proofs.«156333_j37684043055138_1_alg».proof.Proof.Gen.Kernel.Launch
import proofs.«156333_j37684043055138_1_alg».proof.Proof.Gen.Kernel.Skeleton
import proofs.«156333_j37684043055138_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0: the branch conditions over the grid, and where the output window is idle

The grid is 8 × 8 × 8; the last coordinate counts the tiles of the contracted axis.  The accumulator is reset at
tile 0 and the output block is stored at tile 7. -/

/-- The first conditional's condition, from the grid coordinates: the tile counter is 0. -/
abbrev cond0_0 (i : grid0.Coords) : Prop := (Scalar.cmpi .ne (Scalar.extui (Scalar.cmpi .eq (BitVec.ofNat 32 (i 2).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional's condition: the tile counter is 7. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from tile 7 the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At tile 7 it is live. -/
theorem liveAt0_2 : ∀ t : Fin cfg0.N, cond0_1 (grid0.coords t) → cfg0.idle 2 (grid0.coords t) = false := by decide +kernel

/-- The windows' current staging memrefs at a point, as the pipeline passes them, and their wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S1024x1024 .f32 := Memref.whole cc0_scratch0
/-- Views through which the output block's and the accumulator's contents are stated. -/
abbrev VO0 : View sig .tc .vmem S1024x1024 .bf16 := (Memref.whole cc0_stg2_0 : Memref sig .tc .vmem S1024x1024 .bf16).view
abbrev VS0 : View sig .tc .vmem S1024x1024 .f32 := scM0.view

end Cert.Kernel.Gen

end
-- ==== Proof.KernelRunA0.lean ====
import proofs.«156333_j37684043055138_1_alg».proof.Proof.KernelConds0
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Tile 0: the accumulator, at anything, is overwritten with zeros, loaded again, the product of the two input blocks is
    added and the sum stored back; the output block's buffer is handed back untouched.  The pieces the accumulator ends
    with are found by running the body. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 x1 : Vec F S1024x1024 .bf16) :
    { LS : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__bool_matmul_kernel i arg3 harg3 arg4 harg4 arg5 harg5 arg6 harg6) K } := by
  refine ⟨?_, fun xi E K => ?run⟩
  case run =>
    simp only [cc0__bool_matmul_kernel_eq_skeleton]; unfold cc0__bool_matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Gen

end
-- ==== Proof.KernelRunB0.lean ====
import proofs.«156333_j37684043055138_1_alg».proof.Proof.KernelConds0
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle tile (neither 0 nor 7): the accumulator's contents `xs` are loaded, the product of the two input blocks is
    added, and the sum is stored back; the output block's buffer is handed back untouched.  The pieces the accumulator
    ends with are found by running the body. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 x1 : Vec F S1024x1024 .bf16) (xs : Vec F S1024x1024 .f32) :
    { LS : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__bool_matmul_kernel i arg3 harg3 arg4 harg4 arg5 harg5 arg6 harg6) K } := by
  refine ⟨?_, fun xi E K => ?run⟩
  case run =>
    simp only [cc0__bool_matmul_kernel_eq_skeleton]; unfold cc0__bool_matmul_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Gen

end
-- ==== Proof.KernelRunC0.lean ====
import proofs.«156333_j37684043055138_1_alg».proof.Proof.KernelConds0
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Tile 7: the accumulator's contents `xs` are loaded, the product of the two input blocks is added and the sum stored
    back; then the accumulator is loaded once more and its positivity, as a 0/1 value, is stored into the output block's
    buffer.  The pieces the output block and the accumulator end with are found by running the body. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 x1 : Vec F S1024x1024 .bf16) (xs : Vec F S1024x1024 .f32) :
    Σ' (L2 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc0__bool_matmul_kernel i arg3 harg3 arg4 harg4 arg5 harg5 arg6 harg6) K } := by
  refine ⟨?_, ?_, fun E K => ?run⟩
  case run =>
    simp only [cc0__bool_matmul_kernel_eq_skeleton]; unfold cc0__bool_matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.Kernel.Gen

end
-- ==== Proof.KernelDat0.lean ====
import proofs.«156333_j37684043055138_1_alg».proof.Proof.KernelRunA0
import proofs.«156333_j37684043055138_1_alg».proof.Proof.KernelRunB0
import proofs.«156333_j37684043055138_1_alg».proof.Proof.KernelRunC0
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what the accumulator and the output block hold point by point, the proof data, the body obligation

Stated at a parameter `V`: the TensorCore's buffer contents when the region is entered. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point (it is fetched, or its index has not
    moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- Tile 0's pieces cover the accumulator. -/
theorem scover0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 x1 : Vec F S1024x1024 .bf16) (y : S1024x1024.Idx) :
    ∃ pc ∈ (kernelRun0_A c i arg3 harg3 arg4 harg4 arg5 harg5 arg6 harg6 hc0 hc1 x0 x1).1, y ∈ pc.1.set :=
  View.cover_of_tiledL (kernelRun0_A c i arg3 harg3 arg4 harg4 arg5 harg5 arg6 harg6 hc0 hc1 x0 x1).1 S1024x1024.size (by sl_kernel_rfl) y
/-- What tile 0 leaves in the accumulator. -/
def sout0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 x1 : Vec F S1024x1024 .bf16) : Vec F S1024x1024 .f32 :=
  VS0.read (Elt F) (VS0.writes (Elt F) VS0.junk (kernelRun0_A c i arg3 harg3 arg4 harg4 arg5 harg5 arg6 harg6 hc0 hc1 x0 x1).1)

/-- A middle tile's pieces cover the accumulator. -/
theorem scover0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 x1 : Vec F S1024x1024 .bf16) (xs : Vec F S1024x1024 .f32) (y : S1024x1024.Idx) :
    ∃ pc ∈ (kernelRun0_B c i arg3 harg3 arg4 harg4 arg5 harg5 arg6 harg6 hc0 hc1 x0 x1 xs).1, y ∈ pc.1.set :=
  View.cover_of_tiledL (kernelRun0_B c i arg3 harg3 arg4 harg4 arg5 harg5 arg6 harg6 hc0 hc1 x0 x1 xs).1 S1024x1024.size (by sl_kernel_rfl) y
/-- What a middle tile leaves in the accumulator. -/
def sout0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 x1 : Vec F S1024x1024 .bf16) (xs : Vec F S1024x1024 .f32) : Vec F S1024x1024 .f32 :=
  VS0.read (Elt F) (VS0.writes (Elt F) VS0.junk (kernelRun0_B c i arg3 harg3 arg4 harg4 arg5 harg5 arg6 harg6 hc0 hc1 x0 x1 xs).1)

/-- Tile 7's pieces cover the output block, -/
theorem cover0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 x1 : Vec F S1024x1024 .bf16) (xs : Vec F S1024x1024 .f32) (y : S1024x1024.Idx) :
    ∃ pc ∈ (kernelRun0_C c i arg3 harg3 arg4 harg4 arg5 harg5 arg6 harg6 hc0 hc1 x0 x1 xs).1, y ∈ pc.1.set :=
  View.cover_of_tiledL (kernelRun0_C c i arg3 harg3 arg4 harg4 arg5 harg5 arg6 harg6 hc0 hc1 x0 x1 xs).1 S1024x1024.size (by sl_kernel_rfl) y
/-- what it leaves there, -/
def out0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 x1 : Vec F S1024x1024 .bf16) (xs : Vec F S1024x1024 .f32) : Vec F S1024x1024 .bf16 :=
  VO0.read (Elt F) (VO0.writes (Elt F) VO0.junk (kernelRun0_C c i arg3 harg3 arg4 harg4 arg5 harg5 arg6 harg6 hc0 hc1 x0 x1 xs).1)
/-- and its pieces cover the accumulator, -/
theorem scover0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 x1 : Vec F S1024x1024 .bf16) (xs : Vec F S1024x1024 .f32) (y : S1024x1024.Idx) :
    ∃ pc ∈ (kernelRun0_C c i arg3 harg3 arg4 harg4 arg5 harg5 arg6 harg6 hc0 hc1 x0 x1 xs).2.1, y ∈ pc.1.set :=
  View.cover_of_tiledL (kernelRun0_C c i arg3 harg3 arg4 harg4 arg5 harg5 arg6 harg6 hc0 hc1 x0 x1 xs).2.1 S1024x1024.size (by sl_kernel_rfl) y
/-- where it leaves this. -/
def sout0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 x1 : Vec F S1024x1024 .bf16) (xs : Vec F S1024x1024 .f32) : Vec F S1024x1024 .f32 :=
  VS0.read (Elt F) (VS0.writes (Elt F) VS0.junk (kernelRun0_C c i arg3 harg3 arg4 harg4 arg5 harg5 arg6 harg6 hc0 hc1 x0 x1 xs).2.1)

/-- Contents nothing consults: the output block's buffer at the points that do not store it. -/
def idleOut0 : Vec F S1024x1024 .bf16 := VO0.read (Elt F) VO0.junk

/-! ## The accumulation -/

/-- What the output block's staging buffer and the accumulator hold after the body at position `n`: at tile 0 the
    accumulator is started afresh from the point's two input blocks; at a later tile it is what the point before left,
    plus the product of this point's blocks; at tile 7 the output block is the positivity of that. -/
def outsAt0 (c : Dev nD) : (n : ℕ) → n < cfg0.N → Vec F S1024x1024 .bf16 × Vec F S1024x1024 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (idleOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (idleOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at a point of tile 0. -/
theorem outsAt0_A (c : Dev nD) (t : Fin cfg0.N) (h0 : t.val % 8 = 0) (h1 : ¬t.val % 8 = 7) :
    outsAt0 V c t.val t.isLt = (idleOut0, sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of a middle tile: over what the point before left. -/
theorem outsAt0_B (c : Dev nD) (t : Fin cfg0.N) (h0 : ¬t.val % 8 = 0) (h1 : ¬t.val % 8 = 7) :
    outsAt0 V c t.val t.isLt = (idleOut0, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of tile 7: over what the point before left. -/
theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The core's scoped buffers that are neither a staging buffer of this call nor its accumulator, at some contents
    each: carried unopened. -/
abbrev rest0 (c : Dev nD) : sProp 𝕄 :=
  Pipeline.scopedRestBut (Ix := Unit) (Name := ℕ) (U := UR sig nD τ) (Lvl := ℕ) (Val := Elt F) spec0 c [cc0_scratch0]

/-- What the launch hands the region, with the accumulator singled out: it at some contents, the other scoped
    buffers, the generator register. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA
  rw [Pipeline.scopedRest_split_of_list (win := spec0) (c := c) [cc0_scratch0] (by decide) (by decide)]
  simp only [scM0, owns_whole, bigSepL_singleton]; try rfl

/-- The region invariant before position `n`: before the first point what the launch hands over; afterwards the
    accumulator at what the point before left in it, the other scoped buffers and the generator register. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 c) ∗ (∃ r, prngReg c r)) := by
  cases n with
  | zero => exact absurd rfl hz
  | succ n => rfl

/-! ## The proof data -/

/-- The proof data of this pipeline on core `c`: the arrays as the region finds them; after the body each input's
    buffer at its block and the output's at `outsAt0`; the invariant `PhiS0`; nothing owed; the shares `q`. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q := q
  owed _ := 0

variable (q : Fin cfg0.W → PosShare TreeShare)

theorem A_eq0 (c : Dev nD) (w : Fin cfg0.W) : (dat0 V q c).A w = V c (Pipeline.arrRef spec0 w) := by
  dsimp only [dat0]
theorem PhiS0_castSucc (c : Dev nD) (t : Fin cfg0.N) :
    (dat0 V q c).Φ t.castSucc = PhiS0 V c t.val (Nat.le_of_lt t.isLt) := by
  dsimp only [dat0]; simp only [Fin.coe_castSucc]
theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = (outsAt0 V c t.val t.isLt).1 := by dsimp only [dat0]
theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d

/-! ## The body obligation -/

def bodyPre0 (c : Dev nD) (t : Fin cfg0.N) : sProp 𝕄 :=
  iprop((dat0 V q c).Φ t.castSucc ∗ (dat0 V q c).owesAt () t.castSucc
    ∗ (∃ d, owns (c : Thread nD τ) (ms0_0 t) fullShare ((dat0 V q c).before 0 t d))
    ∗ (∃ d, owns (c : Thread nD τ) (ms0_1 t) fullShare ((dat0 V q c).before 1 t d))
    ∗ (∃ d, owns (c : Thread nD τ) (ms0_2 t) fullShare ((dat0 V q c).before 2 t d)))

def bodyPost0 (c : Dev nD) (t : Fin cfg0.N) : sProp 𝕄 :=
  iprop((dat0 V q c).Φ t.succ ∗ (dat0 V q c).owesAt () t.succ
    ∗ (dat0 V q c).leavesExact 0 t
    ∗ (dat0 V q c).leavesExact 1 t
    ∗ (dat0 V q c).leavesExact 2 t)

set_option maxHeartbeats 4800000 in
/-- The body at any point: the inputs' buffers hold their blocks; the tile counter says which case the point is in;
    the invariant hands the body the accumulator at what the point before left (at anything before the first point)
    and takes it back at this point's contents; at tile 7 the output block's buffer is left at the positivity of the
    accumulator, elsewhere it is handed back untouched; the core owes nothing throughout. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1]
  rw [show (dat0 V q c).owesAt () t.succ = (dat0 V q c).owesAt () t.castSucc from rfl]
  rw [show (dat0 V q c).Φ t.succ = PhiS0 V c (t.val + 1) t.isLt from rfl, PhiS0_succ]
  have hN : t.val < 512 := lt_of_lt_of_eq t.isLt (show cfg0.N = 512 from N_0)
  rw [show (dat0 V q c).leavesExact 0 t = owns (c : Thread nD τ) (ms0_0 t) fullShare ((dat0 V q c).after 0 t) from by
    unfold Dat.leavesExact; rw [liveAt0_0 t], after0_0]
  rw [show (dat0 V q c).leavesExact 1 t = owns (c : Thread nD τ) (ms0_1 t) fullShare ((dat0 V q c).after 1 t) from by
    unfold Dat.leavesExact; rw [liveAt0_1 t], after0_1]
  by_cases h0 : t.val % 8 = 0
  · have h1 : ¬t.val % 8 = 7 := by omega
    rw [Dat.leavesExact_idle (dat0 V q c) 2 t (idleAt0_2 t (fun h => h1 ((hcond0_1 t).mp h))) (noFlush0_2 t (fun h => h1 ((hcond0_1 t).mp h)))]
    rw [outsAt0_A V c t h0 h1]
    unfold sout0_A; (try dsimp only)
    by_cases hz : t.val = 0
    · rw [PhiS0_castSucc V q c t, PhiS0_zero V c _ _ hz, PhiA0_eq]
      iintro ⟨⟨⟨HS, Hr⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (scover0_A c _ _ _ _ _ _ _ _ _ _ _ _ _)
          iexact Hr
        iexact Hg
      isplitl [Ho]; · iexact Ho
      isplitl [H0]; · iexact H0
      isplitl [H1]; · iexact H1
      iexists _; iexact H2
    · rw [PhiS0_castSucc V q c t, PhiS0_pos V c _ _ hz]
      iintro ⟨⟨⟨HS, Hr⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (scover0_A c _ _ _ _ _ _ _ _ _ _ _ _ _)
          iexact Hr
        iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dat0 V q c).leavesExact 2 t = owns (c : Thread nD τ) (ms0_2 t) fullShare ((dat0 V q c).after 2 t) from by
        unfold Dat.leavesExact; rw [liveAt0_2 t ((hcond0_1 t).mpr h1)], after0_2]
      rw [outsAt0_C V c t h0 h1]
      unfold out0_C sout0_C; (try dsimp only)
      rw [PhiS0_castSucc V q c t, PhiS0_pos V c _ _ hz]
      iintro ⟨⟨⟨HS, Hr⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS Hr]
        · isplitl [HS]
          · unfold owns; iexists _; isplitr
            swap; · iexact HS
            ipureintro; exact View.read_writes_of_cover _ _ _ _ _ (scover0_C c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V q c) 2 t (idleAt0_2 t (fun h => h1 ((hcond0_1 t).mp h))) (noFlush0_2 t (fun h => h1 ((hcond0_1 t).mp h)))]
      rw [outsAt0_B V c t h0 h1]
      unfold sout0_B; (try dsimp only)
      rw [PhiS0_castSucc V q c t, PhiS0_pos V c _ _ hz]
      iintro ⟨⟨⟨HS, Hr⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (scover0_B c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V q c) (defs₀ (F := F)) Variants.none () Set.univ := fun t => by
  rw [bigSep_W0, bigSep_W0]
  exact sound_body0 V q c t

/-- What the launch hands the region is the invariant before the first point. -/
theorem hin0 (c : Dev nD) : Pipeline.ΦA spec0 c ⊢ (dat0 V q c).Φ 0 := by
  rw [show (dat0 V q c).Φ 0 = PhiS0 V c 0 (Nat.zero_le _) from rfl, PhiS0_zero V c 0 _ rfl]
  try exact Idealize.SL.BI.Entails.refl _

/-- After the last point the invariant gives that back: the accumulator's named contents are forgotten. -/
theorem hout0 (c : Dev nD) : (dat0 V q c).Φ (Fin.last cfg0.N) ⊢ Pipeline.ΦA spec0 c := by
  rw [show (dat0 V q c).Φ (Fin.last cfg0.N) = PhiS0 V c (Fin.last cfg0.N).val (Nat.le_of_lt_succ (Fin.last cfg0.N).isLt) from rfl,
    PhiS0_pos V c _ _ (by rw [Fin.val_last]; have : cfg0.N = 512 := N_0; omega), PhiA0_eq]
  iintro ⟨⟨HS, Hr⟩, Hg⟩
  isplitl [HS Hr]
  · isplitl [HS]
    · iexists _; iexact HS
    iexact Hr
  iexact Hg

end Cert.Kernel.Gen

end
-- ==== Proof.KernelConds1.lean ====
import proofs.«156333_j37684043055138_1_alg».proof.Proof.Gen.Kernel.Launch
import proofs.«156333_j37684043055138_1_alg».proof.Proof.Gen.Kernel.Skeleton
import proofs.«156333_j37684043055138_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 1: the branch conditions over the grid, and where the output window is idle

The grid is 8 × 8 × 8; the last coordinate counts the tiles of the contracted axis.  The accumulator is reset at
tile 0 and the output block is stored at tile 7. -/

/-- The first conditional's condition, from the grid coordinates: the tile counter is 0. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition: the tile counter is 7. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from tile 7 the output window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At tile 7 it is live. -/
theorem liveAt1_2 : ∀ t : Fin cfg1.N, cond1_1 (grid1.coords t) → cfg1.idle 2 (grid1.coords t) = false := by decide +kernel

/-- The windows' current staging memrefs at a point, as the pipeline passes them, and their wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S1024x1024 .f32 := Memref.whole cc1_scratch0
/-- Views through which the output block's and the accumulator's contents are stated. -/
abbrev VO1 : View sig .tc .vmem S1024x1024 .bf16 := (Memref.whole cc1_stg2_0 : Memref sig .tc .vmem S1024x1024 .bf16).view
abbrev VS1 : View sig .tc .vmem S1024x1024 .f32 := scM1.view

end Cert.Kernel.Gen

end
-- ==== Proof.KernelRunA1.lean ====
import proofs.«156333_j37684043055138_1_alg».proof.Proof.KernelConds1
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Tile 0: the accumulator, at anything, is overwritten with zeros, loaded again, the product of the two input blocks is
    added and the sum stored back; the output block's buffer is handed back untouched.  The pieces the accumulator ends
    with are found by running the body. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 x1 : Vec F S1024x1024 .bf16) :
    { LS : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__bool_matmul_kernel i arg3 harg3 arg4 harg4 arg5 harg5 arg6 harg6) K } := by
  refine ⟨?_, fun xi E K => ?run⟩
  case run =>
    simp only [cc1__bool_matmul_kernel_eq_skeleton]; unfold cc1__bool_matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Gen

end
-- ==== Proof.KernelRunB1.lean ====
import proofs.«156333_j37684043055138_1_alg».proof.Proof.KernelConds1
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle tile (neither 0 nor 7): the accumulator's contents `xs` are loaded, the product of the two input blocks is
    added, and the sum is stored back; the output block's buffer is handed back untouched.  The pieces the accumulator
    ends with are found by running the body. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : ¬cond1_1 i)
    (x0 x1 : Vec F S1024x1024 .bf16) (xs : Vec F S1024x1024 .f32) :
    { LS : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__bool_matmul_kernel i arg3 harg3 arg4 harg4 arg5 harg5 arg6 harg6) K } := by
  refine ⟨?_, fun xi E K => ?run⟩
  case run =>
    simp only [cc1__bool_matmul_kernel_eq_skeleton]; unfold cc1__bool_matmul_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Gen

end
-- ==== Proof.KernelRunC1.lean ====
import proofs.«156333_j37684043055138_1_alg».proof.Proof.KernelConds1
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Tile 7: the accumulator's contents `xs` are loaded, the product of the two input blocks is added and the sum stored
    back; then the accumulator is loaded once more and its positivity, as a 0/1 value, is stored into the output block's
    buffer.  The pieces the output block and the accumulator end with are found by running the body. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 x1 : Vec F S1024x1024 .bf16) (xs : Vec F S1024x1024 .f32) :
    Σ' (L2 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc1__bool_matmul_kernel i arg3 harg3 arg4 harg4 arg5 harg5 arg6 harg6) K } := by
  refine ⟨?_, ?_, fun E K => ?run⟩
  case run =>
    simp only [cc1__bool_matmul_kernel_eq_skeleton]; unfold cc1__bool_matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.Kernel.Gen

end
-- ==== Proof.KernelDat1.lean ====
import proofs.«156333_j37684043055138_1_alg».proof.Proof.KernelRunA1
import proofs.«156333_j37684043055138_1_alg».proof.Proof.KernelRunB1
import proofs.«156333_j37684043055138_1_alg».proof.Proof.KernelRunC1
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: what the accumulator and the output block hold point by point, the proof data, the body obligation

Stated at a parameter `V`: the TensorCore's buffer contents when the region is entered. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point (it is fetched, or its index has not
    moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Tile 0's pieces cover the accumulator. -/
theorem scover1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 x1 : Vec F S1024x1024 .bf16) (y : S1024x1024.Idx) :
    ∃ pc ∈ (kernelRun1_A c i arg3 harg3 arg4 harg4 arg5 harg5 arg6 harg6 hc0 hc1 x0 x1).1, y ∈ pc.1.set :=
  View.cover_of_tiledL (kernelRun1_A c i arg3 harg3 arg4 harg4 arg5 harg5 arg6 harg6 hc0 hc1 x0 x1).1 S1024x1024.size (by sl_kernel_rfl) y
/-- What tile 0 leaves in the accumulator. -/
def sout1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 x1 : Vec F S1024x1024 .bf16) : Vec F S1024x1024 .f32 :=
  VS1.read (Elt F) (VS1.writes (Elt F) VS1.junk (kernelRun1_A c i arg3 harg3 arg4 harg4 arg5 harg5 arg6 harg6 hc0 hc1 x0 x1).1)

/-- A middle tile's pieces cover the accumulator. -/
theorem scover1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : ¬cond1_1 i)
    (x0 x1 : Vec F S1024x1024 .bf16) (xs : Vec F S1024x1024 .f32) (y : S1024x1024.Idx) :
    ∃ pc ∈ (kernelRun1_B c i arg3 harg3 arg4 harg4 arg5 harg5 arg6 harg6 hc0 hc1 x0 x1 xs).1, y ∈ pc.1.set :=
  View.cover_of_tiledL (kernelRun1_B c i arg3 harg3 arg4 harg4 arg5 harg5 arg6 harg6 hc0 hc1 x0 x1 xs).1 S1024x1024.size (by sl_kernel_rfl) y
/-- What a middle tile leaves in the accumulator. -/
def sout1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : ¬cond1_1 i)
    (x0 x1 : Vec F S1024x1024 .bf16) (xs : Vec F S1024x1024 .f32) : Vec F S1024x1024 .f32 :=
  VS1.read (Elt F) (VS1.writes (Elt F) VS1.junk (kernelRun1_B c i arg3 harg3 arg4 harg4 arg5 harg5 arg6 harg6 hc0 hc1 x0 x1 xs).1)

/-- Tile 7's pieces cover the output block, -/
theorem cover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 x1 : Vec F S1024x1024 .bf16) (xs : Vec F S1024x1024 .f32) (y : S1024x1024.Idx) :
    ∃ pc ∈ (kernelRun1_C c i arg3 harg3 arg4 harg4 arg5 harg5 arg6 harg6 hc0 hc1 x0 x1 xs).1, y ∈ pc.1.set :=
  View.cover_of_tiledL (kernelRun1_C c i arg3 harg3 arg4 harg4 arg5 harg5 arg6 harg6 hc0 hc1 x0 x1 xs).1 S1024x1024.size (by sl_kernel_rfl) y
/-- what it leaves there, -/
def out1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 x1 : Vec F S1024x1024 .bf16) (xs : Vec F S1024x1024 .f32) : Vec F S1024x1024 .bf16 :=
  VO1.read (Elt F) (VO1.writes (Elt F) VO1.junk (kernelRun1_C c i arg3 harg3 arg4 harg4 arg5 harg5 arg6 harg6 hc0 hc1 x0 x1 xs).1)
/-- and its pieces cover the accumulator, -/
theorem scover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 x1 : Vec F S1024x1024 .bf16) (xs : Vec F S1024x1024 .f32) (y : S1024x1024.Idx) :
    ∃ pc ∈ (kernelRun1_C c i arg3 harg3 arg4 harg4 arg5 harg5 arg6 harg6 hc0 hc1 x0 x1 xs).2.1, y ∈ pc.1.set :=
  View.cover_of_tiledL (kernelRun1_C c i arg3 harg3 arg4 harg4 arg5 harg5 arg6 harg6 hc0 hc1 x0 x1 xs).2.1 S1024x1024.size (by sl_kernel_rfl) y
/-- where it leaves this. -/
def sout1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 x1 : Vec F S1024x1024 .bf16) (xs : Vec F S1024x1024 .f32) : Vec F S1024x1024 .f32 :=
  VS1.read (Elt F) (VS1.writes (Elt F) VS1.junk (kernelRun1_C c i arg3 harg3 arg4 harg4 arg5 harg5 arg6 harg6 hc0 hc1 x0 x1 xs).2.1)

/-- Contents nothing consults: the output block's buffer at the points that do not store it. -/
def idleOut1 : Vec F S1024x1024 .bf16 := VO1.read (Elt F) VO1.junk

/-! ## The accumulation -/

/-- What the output block's staging buffer and the accumulator hold after the body at position `n`: at tile 0 the
    accumulator is started afresh from the point's two input blocks; at a later tile it is what the point before left,
    plus the product of this point's blocks; at tile 7 the output block is the positivity of that. -/
def outsAt1 (c : Dev nD) : (n : ℕ) → n < cfg1.N → Vec F S1024x1024 .bf16 × Vec F S1024x1024 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (idleOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point of tile 0. -/
theorem outsAt1_A (c : Dev nD) (t : Fin cfg1.N) (h0 : t.val % 8 = 0) (h1 : ¬t.val % 8 = 7) :
    outsAt1 V c t.val t.isLt = (idleOut1, sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of a middle tile: over what the point before left. -/
theorem outsAt1_B (c : Dev nD) (t : Fin cfg1.N) (h0 : ¬t.val % 8 = 0) (h1 : ¬t.val % 8 = 7) :
    outsAt1 V c t.val t.isLt = (idleOut1, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of tile 7: over what the point before left. -/
theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The core's scoped buffers that are neither a staging buffer of this call nor its accumulator, at some contents
    each: carried unopened. -/
abbrev rest1 (c : Dev nD) : sProp 𝕄 :=
  Pipeline.scopedRestBut (Ix := Unit) (Name := ℕ) (U := UR sig nD τ) (Lvl := ℕ) (Val := Elt F) spec1 c [cc1_scratch0]

/-- What the launch hands the region, with the accumulator singled out: it at some contents, the other scoped
    buffers, the generator register. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA
  rw [Pipeline.scopedRest_split_of_list (win := spec1) (c := c) [cc1_scratch0] (by decide) (by decide)]
  simp only [scM1, owns_whole, bigSepL_singleton]; try rfl

/-- The region invariant before position `n`: before the first point what the launch hands over; afterwards the
    accumulator at what the point before left in it, the other scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 c) ∗ (∃ r, prngReg c r)) := by
  cases n with
  | zero => exact absurd rfl hz
  | succ n => rfl

/-! ## The proof data -/

/-- The proof data of this pipeline on core `c`: the arrays as the region finds them; after the body each input's
    buffer at its block and the output's at `outsAt1`; the invariant `PhiS1`; nothing owed; the shares `q`. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q := q
  owed _ := 0

variable (q : Fin cfg1.W → PosShare TreeShare)

theorem A_eq1 (c : Dev nD) (w : Fin cfg1.W) : (dat1 V q c).A w = V c (Pipeline.arrRef spec1 w) := by
  dsimp only [dat1]
theorem PhiS1_castSucc (c : Dev nD) (t : Fin cfg1.N) :
    (dat1 V q c).Φ t.castSucc = PhiS1 V c t.val (Nat.le_of_lt t.isLt) := by
  dsimp only [dat1]; simp only [Fin.coe_castSucc]
theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = (outsAt1 V c t.val t.isLt).1 := by dsimp only [dat1]
theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d

/-! ## The body obligation -/

def bodyPre1 (c : Dev nD) (t : Fin cfg1.N) : sProp 𝕄 :=
  iprop((dat1 V q c).Φ t.castSucc ∗ (dat1 V q c).owesAt () t.castSucc
    ∗ (∃ d, owns (c : Thread nD τ) (ms1_0 t) fullShare ((dat1 V q c).before 0 t d))
    ∗ (∃ d, owns (c : Thread nD τ) (ms1_1 t) fullShare ((dat1 V q c).before 1 t d))
    ∗ (∃ d, owns (c : Thread nD τ) (ms1_2 t) fullShare ((dat1 V q c).before 2 t d)))

def bodyPost1 (c : Dev nD) (t : Fin cfg1.N) : sProp 𝕄 :=
  iprop((dat1 V q c).Φ t.succ ∗ (dat1 V q c).owesAt () t.succ
    ∗ (dat1 V q c).leavesExact 0 t
    ∗ (dat1 V q c).leavesExact 1 t
    ∗ (dat1 V q c).leavesExact 2 t)

set_option maxHeartbeats 4800000 in
/-- The body at any point: the inputs' buffers hold their blocks; the tile counter says which case the point is in;
    the invariant hands the body the accumulator at what the point before left (at anything before the first point)
    and takes it back at this point's contents; at tile 7 the output block's buffer is left at the positivity of the
    accumulator, elsewhere it is handed back untouched; the core owes nothing throughout. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1]
  rw [show (dat1 V q c).owesAt () t.succ = (dat1 V q c).owesAt () t.castSucc from rfl]
  rw [show (dat1 V q c).Φ t.succ = PhiS1 V c (t.val + 1) t.isLt from rfl, PhiS1_succ]
  have hN : t.val < 512 := lt_of_lt_of_eq t.isLt (show cfg1.N = 512 from N_1)
  rw [show (dat1 V q c).leavesExact 0 t = owns (c : Thread nD τ) (ms1_0 t) fullShare ((dat1 V q c).after 0 t) from by
    unfold Dat.leavesExact; rw [liveAt1_0 t], after1_0]
  rw [show (dat1 V q c).leavesExact 1 t = owns (c : Thread nD τ) (ms1_1 t) fullShare ((dat1 V q c).after 1 t) from by
    unfold Dat.leavesExact; rw [liveAt1_1 t], after1_1]
  by_cases h0 : t.val % 8 = 0
  · have h1 : ¬t.val % 8 = 7 := by omega
    rw [Dat.leavesExact_idle (dat1 V q c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V q c t, PhiS1_zero V c _ _ hz, PhiA1_eq]
      iintro ⟨⟨⟨HS, Hr⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (scover1_A c _ _ _ _ _ _ _ _ _ _ _ _ _)
          iexact Hr
        iexact Hg
      isplitl [Ho]; · iexact Ho
      isplitl [H0]; · iexact H0
      isplitl [H1]; · iexact H1
      iexists _; iexact H2
    · rw [PhiS1_castSucc V q c t, PhiS1_pos V c _ _ hz]
      iintro ⟨⟨⟨HS, Hr⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (scover1_A c _ _ _ _ _ _ _ _ _ _ _ _ _)
          iexact Hr
        iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dat1 V q c).leavesExact 2 t = owns (c : Thread nD τ) (ms1_2 t) fullShare ((dat1 V q c).after 2 t) from by
        unfold Dat.leavesExact; rw [liveAt1_2 t ((hcond1_1 t).mpr h1)], after1_2]
      rw [outsAt1_C V c t h0 h1]
      unfold out1_C sout1_C; (try dsimp only)
      rw [PhiS1_castSucc V q c t, PhiS1_pos V c _ _ hz]
      iintro ⟨⟨⟨HS, Hr⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS Hr]
        · isplitl [HS]
          · unfold owns; iexists _; isplitr
            swap; · iexact HS
            ipureintro; exact View.read_writes_of_cover _ _ _ _ _ (scover1_C c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V q c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V q c t, PhiS1_pos V c _ _ hz]
      iintro ⟨⟨⟨HS, Hr⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (scover1_B c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V q c) (defs₀ (F := F)) Variants.none () Set.univ := fun t => by
  rw [bigSep_W1, bigSep_W1]
  exact sound_body1 V q c t

/-- What the launch hands the region is the invariant before the first point. -/
theorem hin1 (c : Dev nD) : Pipeline.ΦA spec1 c ⊢ (dat1 V q c).Φ 0 := by
  rw [show (dat1 V q c).Φ 0 = PhiS1 V c 0 (Nat.zero_le _) from rfl, PhiS1_zero V c 0 _ rfl]
  try exact Idealize.SL.BI.Entails.refl _

/-- After the last point the invariant gives that back: the accumulator's named contents are forgotten. -/
theorem hout1 (c : Dev nD) : (dat1 V q c).Φ (Fin.last cfg1.N) ⊢ Pipeline.ΦA spec1 c := by
  rw [show (dat1 V q c).Φ (Fin.last cfg1.N) = PhiS1 V c (Fin.last cfg1.N).val (Nat.le_of_lt_succ (Fin.last cfg1.N).isLt) from rfl,
    PhiS1_pos V c _ _ (by rw [Fin.val_last]; have : cfg1.N = 512 := N_1; omega), PhiA1_eq]
  iintro ⟨⟨HS, Hr⟩, Hg⟩
  isplitl [HS Hr]
  · isplitl [HS]
    · iexists _; iexact HS
    iexact Hr
  iexact Hg

end Cert.Kernel.Gen

end
-- ==== Proof.KernelFrame.lean ====
import proofs.«156333_j37684043055138_1_alg».proof.Proof.Gen.Kernel.Regions
import proofs.«156333_j37684043055138_1_alg».proof.Proof.KernelDat0
import proofs.«156333_j37684043055138_1_alg».proof.Proof.KernelDat1
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The two regions as segments of @main, and the frame

Region 0 reads ONE array (the adjacency matrix) through both of its input windows, so it holds that array at two half
shares; region 1's three arrays are distinct and held whole. -/

variable (m : (ℓ : Loc nD τ sig) → Buf (Elt F) ℓ) (ρ : Dev nD → PrngReg)

/-- Region 0's shares: the two input windows split their common array; the output's is full. -/
abbrev q0 : Fin cfg0.W → PosShare TreeShare := fun | ⟨0, _⟩ => fullShare.left | ⟨1, _⟩ => fullShare.right | ⟨_ + 2, _⟩ => fullShare
/-- Region 1's shares: full. -/
abbrev q1 : Fin cfg1.W → PosShare TreeShare := fun _ => fullShare

/-- The TensorCore's buffers when region 0 is entered, read at a reference. -/
abbrev E0 (c : Dev nD) (b : Ref sig .tc) : Buf (Elt F) ((c : Thread nD τ).loc b) := V7 m c b
/-- What region 0 leaves in its result array: its write-backs folded over the entry contents. -/
def res0 (c : Dev nD) : Buf (Elt F) ((c : Thread nD τ).loc main_v42) := (dat0 (E0 m) q0 c).arrAt 2 cfg0.N
/-- The buffers after region 0, -/
abbrev W8 (c : Dev nD) : Valuation τ sig (Elt F) := Function.update (V7 m c) main_v42 (res0 m c)
/-- after the host operations between the regions, -/
abbrev W9 (c : Dev nD) : Valuation τ sig (Elt F) := StableHlo.after hostOps1 (W8 m c)
/-- read at a reference: what region 1 is entered from. -/
abbrev E1 (c : Dev nD) (b : Ref sig .tc) : Buf (Elt F) ((c : Thread nD τ).loc b) := W9 m c b
/-- What region 1 leaves in its result array. -/
def res1 (c : Dev nD) : Buf (Elt F) ((c : Thread nD τ).loc main_v50) := (dat1 (E1 m) q1 c).arrAt 2 cfg1.N
/-- The buffers after region 1. -/
abbrev W10 (c : Dev nD) : Valuation τ sig (Elt F) := Function.update (W9 m c) main_v50 (res1 m c)

/-- What the regions leave, as the unknowns the generated valuations are written over. -/
def outsF : Outs (F := F) := fun J r c => if J = 8 then W8 m c r else W10 m c r

theorem outs8 (c : Dev nD) : outsF m 8 main_v42 c = res0 m c := by
  unfold outsF; rw [if_pos rfl]; exact Function.update_self ..
theorem V8_eq (c : Dev nD) : V8 m (outsF m) c = W8 m c := by
  show Function.update (V7 m c) main_v42 (outsF m 8 main_v42 c) = _; rw [outs8]
theorem V9_eq (c : Dev nD) : V9 m (outsF m) c = W9 m c := by
  show StableHlo.after hostOps1 (V8 m (outsF m) c) = _; rw [V8_eq]
theorem outs10 (c : Dev nD) : outsF m 10 main_v50 c = res1 m c := by
  unfold outsF; rw [if_neg (by decide)]; exact Function.update_self ..
theorem V10_eq (c : Dev nD) : V10 m (outsF m) c = W10 m c := by
  show Function.update (V9 m (outsF m) c) main_v50 (outsF m 10 main_v50 c) = _; rw [V9_eq, outs10]

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) q0 c
  | ⟨1, _⟩ => fun c => dat1 (E1 m) q1 c

abbrev Lz : GSem nD τ sig → Finset Unit := fun _ => ∅
abbrev lvz : GSem nD τ sig → Unit → ℕ := fun _ _ => 0
/-- What rides beside the buffers through every segment: the generator register at some state, nothing owed. -/
abbrev Rr (c : Dev nD) : sProp 𝕄 := iprop((∃ r, prngReg c r) ∗ ∃ W, owes (c : Thread nD τ) (0 : CellTallies nD τ sig Unit) W)

/-! ## Region 0's one array at two half shares -/

/-- A whole buffer read through its whole-buffer view is the buffer. -/
theorem whole_pt (c : Dev nD) (b : Ref sig .tc) (q : PosShare TreeShare) (f : Buf (Elt F) ((c : Thread nD τ).loc b)) :
    (((Memref.whole b).view.loc (c : Thread nD τ)) ↦[(Memref.whole b).view.set]{q} f : sProp 𝕄) = (((c : Thread nD τ).loc b) ↦{q} f) := by
  rw [(Memref.isWhole_whole b).set_eq_univ]

/-- The arrays of region 0 at contents `Fa`, window by window. -/
theorem arrays0_eq (c : Dev nD) (Fa : (w : Fin cfg0.W) → Buf (Elt F) ((cfg0.win w).arr.view.loc (c : Thread nD τ))) :
    ((pdats m 0 c).arrays Fa : sProp 𝕄)
      = iprop((((c : Thread nD τ).loc main_v41) ↦{fullShare.left} Fa 0) ∗ (((c : Thread nD τ).loc main_v41) ↦{fullShare.right} Fa 1)
          ∗ (((c : Thread nD τ).loc main_v42) ↦{fullShare} Fa 2)) := by
  unfold Dat.arrays
  rw [bigSep_W0]
  exact congrArg₂ _ (whole_pt c main_v41 fullShare.left (Fa 0)) (congrArg₂ _ (whole_pt c main_v41 fullShare.right (Fa 1)) (whole_pt c main_v42 fullShare (Fa 2)))

/-- The buffers behind region 0's arrays: the adjacency matrix and the result. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v41) ↦{fullShare} V main_v41) ∗ (((c : Thread nD τ).loc main_v42) ↦{fullShare} V main_v42)) := by
  unfold Pipeline.arrBufs
  rw [bigSep_eq_bigSepL_of_eq [main_v41, main_v42] (by decide) (by decide)]
  rfl

/-- ENTRY: the core's unscoped buffers at `V` are region 0's arrays at `V`'s contents — the adjacency matrix split in
    two halves — and the rest. -/
theorem split0 (c : Dev nD) (V : (b : Ref sig .tc) → Buf (Elt F) ((c : Thread nD τ).loc b))
    (Fa : (w : Fin cfg0.W) → Buf (Elt F) ((cfg0.win w).arr.view.loc (c : Thread nD τ)))
    (h0 : Fa 0 = V main_v41) (h1 : Fa 1 = V main_v41) (h2 : Fa 2 = V main_v42) :
    (unscopedBufs c V : sProp 𝕄) ⊢ iprop((pdats m 0 c).arrays Fa ∗ Pipeline.unscopedRest spec0 c V) := by
  rw [Pipeline.unscopedBufs_split₀ (Pipeline.pin (pcfgs (F := F)) adm) 0 winFacts₀0.arr_unscoped c V]
  show iprop((Pipeline.arrBufs (Ix := Unit) (Name := ℕ) (U := UR sig nD τ) (Lvl := ℕ) spec0 c V : sProp 𝕄) ∗ Pipeline.unscopedRest spec0 c V) ⊢ _
  rw [arrBufs0_eq, arrays0_eq, h0, h1, h2]
  iintro ⟨⟨Ha, Hb⟩, Hr⟩
  ihave Hs := (pointsTo_share (PosShare.mem_left_op_right fullShare)).1 $$ Ha
  icases Hs with ⟨Hl, Hrr⟩
  isplitr [Hr]
  · isplitl [Hl]; · iexact Hl
    isplitl [Hrr]; · iexact Hrr
    iexact Hb
  iexact Hr

/-- EXIT: the arrays at contents that agree on the shared array, and the rest, are the unscoped buffers at any
    valuation that has the arrays there and agrees with `V` off them. -/
theorem join0 (c : Dev nD) (V V' : (b : Ref sig .tc) → Buf (Elt F) ((c : Thread nD τ).loc b))
    (Fa : (w : Fin cfg0.W) → Buf (Elt F) ((cfg0.win w).arr.view.loc (c : Thread nD τ)))
    (h0 : Fa 0 = V' main_v41) (h1 : Fa 1 = V' main_v41) (h2 : Fa 2 = V' main_v42)
    (hrest : ∀ b, b ∉ Finset.univ.image (Pipeline.arrRef spec0) → V' b = V b) :
    iprop((pdats m 0 c).arrays Fa ∗ Pipeline.unscopedRest spec0 c V) ⊢ (unscopedBufs c V' : sProp 𝕄) := by
  rw [Pipeline.unscopedBufs_split₀ (Pipeline.pin (pcfgs (F := F)) adm) 0 winFacts₀0.arr_unscoped c V']
  show _ ⊢ iprop((Pipeline.arrBufs (Ix := Unit) (Name := ℕ) (U := UR sig nD τ) (Lvl := ℕ) spec0 c V' : sProp 𝕄) ∗ Pipeline.unscopedRest spec0 c V')
  rw [arrBufs0_eq, arrays0_eq, h0, h1, h2]
  refine sep_mono ?_ (Entails.of_eq ?_)
  · iintro ⟨Hl, Hrr, Hb⟩
    isplitl [Hl Hrr]
    · iapply (pointsTo_share (PosShare.mem_left_op_right fullShare)).2
      isplitl [Hl] <;> iassumption
    iexact Hb
  · unfold Pipeline.unscopedRest
    exact (bigSep_congr fun b hb => by rw [hrest b (Finset.mem_sdiff.mp hb).2]).symm

/-! ## The valuations after the regions, read off the entry contents -/

theorem W8_of (c : Dev nD) (r : Ref sig .tc) (h : r ∉ ([main_v42] : List (Ref sig .tc))) : W8 m c r = V7 m c r := by
  rw [← V8_eq]; exact V8_of m (outsF m) c r h
theorem W8_self (c : Dev nD) : W8 m c main_v42 = res0 m c := Function.update_self ..
theorem W10_of (c : Dev nD) (r : Ref sig .tc) (h : r ∉ ([main_v50] : List (Ref sig .tc))) : W10 m c r = W9 m c r := by
  rw [← V10_eq, ← V9_eq]; exact V10_of m (outsF m) c r h
theorem W10_self (c : Dev nD) : W10 m c main_v50 = res1 m c := Function.update_self ..

theorem pdats0_A (c : Dev nD) (w : Fin cfg0.W) : (pdats m 0 c).A w = E0 m c (Pipeline.arrRef spec0 w) := A_eq0 (E0 m) q0 c w
theorem pdats1_A (c : Dev nD) (w : Fin cfg1.W) : (pdats m 1 c).A w = E1 m c (Pipeline.arrRef spec1 w) := A_eq1 (E1 m) q1 c w

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0: entered from every unscoped buffer at the contents the host operations before it leave, left with the
    result array at what its write-backs leave and every other buffer as entered. The adjacency matrix is split into
    two half shares for the two input windows and joined again at the exit; the generator register goes into the
    invariant and comes back; nothing is owed; the kernel has no semaphore of its own. -/
def reg0 : Pipeline.RegionSeg (pcfgs (F := F)) adm (pdats m) () defs₀ Variants.none Lz lvz 0 where
  win := winFacts₀0
  block_pos := block_pos0
  stage_whole := stage_whole0
  K := PEmpty
  osem k := k.elim
  ho := Pipeline.OwnSemFacts.none _
  hbody c := (body_obligation0 (E0 m) q0 c).loose
  hwaits := Pipeline.hwaits_of_owed_zero _ _ _ _ Lz lvz 0 fun _ _ => rfl
  pre c := iprop(StableHlo.held (c : Thread nD τ) (Pipeline.ucRefs τ sig) (V7 m c) ∗ Rr c)
  post c := iprop(StableHlo.held (c : Thread nD τ) (Pipeline.ucRefs τ sig) (W8 m c) ∗ Rr c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := split0 m c (E0 m c) ((pdats m 0 c).arrAt · 0) (pdats0_A m c 0) (pdats0_A m c 1) (pdats0_A m c 2)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E0 m) q0 c)
    unfold Pipeline.ΦA
    iintro ⟨Hp, -, Hr⟩
    isplitl [Hr]; · iexact Hr
    iexact Hp
  hout c := by
    rw [Pipeline.ownSems0_none]
    refine BIBase.Entails.trans (hout0 (E0 m) q0 c) ?_
    unfold Pipeline.ΦA
    iintro ⟨Hr, Hp⟩
    isplitl [Hp]; · iexact Hp
    isplitr; · iempintro
    iexact Hr
  hexit c := by
    have hjoin := join0 m c (E0 m c) (fun b => W8 m c b) ((pdats m 0 c).arrAt · cfg0.N)
      ((((pdats m 0 c).arrAt_in 0 rfl _).trans (pdats0_A m c 0)).trans (W8_of m c main_v41 (by decide)).symm)
      ((((pdats m 0 c).arrAt_in 1 rfl _).trans (pdats0_A m c 1)).trans (W8_of m c main_v41 (by decide)).symm)
      (W8_self m c).symm
      (fun b hb => W8_of m c b (fun h => hb (by
        rcases List.mem_singleton.mp h with rfl
        exact Finset.mem_image.mpr ⟨2, Finset.mem_univ _, rfl⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: its three arrays are distinct buffers, held whole. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (E1 m) q1 c).loose
  hwaits := Pipeline.hwaits_of_owed_zero _ _ _ _ Lz lvz 1 fun _ _ => rfl
  pre c := iprop(StableHlo.held (c : Thread nD τ) (Pipeline.ucRefs τ sig) (W9 m c) ∗ Rr c)
  post c := iprop(StableHlo.held (c : Thread nD τ) (Pipeline.ucRefs τ sig) (W10 m c) ∗ Rr c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) (pdats1_A m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E1 m) q1 c)
    unfold Pipeline.ΦA
    iintro ⟨Hp, -, Hr⟩
    isplitl [Hr]; · iexact Hr
    iexact Hp
  hout c := by
    rw [Pipeline.ownSems0_none]
    refine BIBase.Entails.trans (hout1 (E1 m) q1 c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => W10 m c b) ((pdats m 1 c).arrAt · cfg1.N)
      (fun w => match w with
        | ⟨0, _⟩ => (((pdats m 1 c).arrAt_in 0 rfl _).trans (pdats1_A m c 0)).trans (W10_of m c main_v42 (by decide)).symm
        | ⟨1, _⟩ => (((pdats m 1 c).arrAt_in 1 rfl _).trans (pdats1_A m c 1)).trans (W10_of m c main_v41 (by decide)).symm
        | ⟨2, _⟩ => (W10_self m c).symm)
      (fun b hb => W10_of m c b (fun h => hb (by
        rcases List.mem_singleton.mp h with rfl
        exact Finset.mem_image.mpr ⟨2, Finset.mem_univ _, rfl⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The chain between the segments -/

theorem hpost0 (c : Dev nD) : (reg0 m).post c ⊢ iprop(StableHlo.held (c : Thread nD τ) (Pipeline.ucRefs τ sig) (V8 m (outsF m) c) ∗ Rr c) := by
  rw [V8_eq]; exact .rfl
theorem hpre1 (c : Dev nD) : iprop(StableHlo.held (c : Thread nD τ) (Pipeline.ucRefs τ sig) (V9 m (outsF m) c) ∗ Rr c) ⊢ (reg1 m).pre c := by
  rw [V9_eq]; exact .rfl
theorem hpost1 (c : Dev nD) : (reg1 m).post c ⊢ iprop(StableHlo.held (c : Thread nD τ) (Pipeline.ucRefs τ sig) (V10 m (outsF m) c) ∗ Rr c) := by
  rw [V10_eq]; exact .rfl

/-! ## The frame -/

/-- The launch element: the pipeline library's at the staging cells. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core, beside its buffers, makes the riding state. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lz lvz)
    ⊢ (|={Set.univ}=> bigSep Finset.univ (fun c : Dev nD => Rr (F := F) c) : sProp 𝕄) := by
  refine Pipeline.initEach Lz lvz fun c => ?_
  iintro ⟨⟨-, HO, -, Hp, -⟩, -⟩
  imodintro
  isplitl [Hp]; · iexists _; iexact Hp
  iexists ∅; iexact HO

/-- THE FRAME: from any memory with zero counters every weakly fair execution of @main terminates, nothing faulting,
    and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond m emb₁ () Variants.none Lz lvz (fun _ _ => rfl) ρ (outsF m) (pdats m) 0 (fun _ => iprop(emp))
    (initOf (Pipeline.cells cfgs cellOf_inj) (Pipeline.launchToks cfgs cellOf_inj)) hu₀
    (fun _ c => Rr c) (hE0 ρ) (fun c => by iintro ⟨-, HO⟩; iexact HO)
    (reg0 m) (fun c => .rfl) (hpost0 m)
    (reg1 m) (hpre1 m) (hpost1 m)

/-- The launch: each core's unscoped buffers are held at the launch contents, and what else the launch deals makes the
    riding state, whatever that is. -/
theorem hinit_of (R : Dev nD → sProp 𝕄)
    (hR : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lz lvz)
      ⊢ (|={Set.univ}=> bigSep Finset.univ R : sProp 𝕄)) :
    iprop((bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lz lvz)
      ⊢ (|={Set.univ}=> bigSep Finset.univ (fun c : Dev nD => iprop(StableHlo.held (c : Thread nD τ) (Pipeline.ucRefs τ sig) (V0 m c) ∗ R c)) : sProp 𝕄) := by
  have hsplit : (bigSep Finset.univ fun c : Dev nD => iprop(unscopedBufs c (fun b => m ((c.tc : Thread nD τ).loc b)) ∗ unscopedSems0 c
        ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
          : sProp 𝕄) := by
    rw [← bigSep_sep']
    exact bigSep_mono fun c _ => by rw [← Pipeline.unscopedBufs_held (Ix := Unit) (Name := ℕ) (U := UR sig nD τ) (Lvl := ℕ) c (V0 m c)]; exact BI.Entails.refl _
  iintro ⟨H, Hla⟩
  ihave H' := hsplit $$ H
  icases H' with ⟨Hh, Hr⟩
  imod hR $$ [Hr Hla] with HE
  · isplitl [Hr]; · iexact Hr
    iexact Hla
  imodintro
  rw [bigSep_sep']
  isplitl [Hh]; · iexact Hh
  iexact HE

/-! ## The run with every unscoped buffer read back -/

set_option backward.isDefEq.respectTransparency.types false in
/-- From any memory with zero counters every weakly fair execution of @main terminates, nothing faulting, and every
    unscoped buffer of every core ends at the last valuation: the launch contents, then each host stretch's operations,
    then what each region leaves in its result array. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V11 m (outsF m) c b) := by
  refine Pipeline.θ_run_regions_kit_dev (pcfgs (F := F)) adm (pdats m) () cellOf_inj emb₁ defs₀ Variants.none Lz lvz m ρ main
    (segs m (outsF m) Variants.none Lz lvz (fun _ c => Rr c) () (pdats m) (reg0 m) (reg1 m))
    (fun c Q => by
      rewrite [main_chain c, Pipeline.Seg.run_eq_chain,
        show (segs m (outsF m) Variants.none Lz lvz (fun _ c => Rr c) () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide) 0 (fun _ _ => rfl) (fun _ => iprop(emp))
    (initOf (Pipeline.cells cfgs cellOf_inj) (Pipeline.launchToks cfgs cellOf_inj)) hu₀
    (T₀ := fun c => iprop(StableHlo.held (c : Thread nD τ) (Pipeline.ucRefs τ sig) (V0 m c) ∗ Rr c))
    (Tₙ := fun c => StableHlo.held (c : Thread nD τ) (Pipeline.ucRefs τ sig) (V11 m (outsF m) c))
    (hch := fun c => ⟨.rfl, .rfl, .rfl, .rfl, .rfl, .rfl, .rfl, .rfl, hpost0 m c, hpre1 m c, hpost1 m c,
      sep_mono .rfl (by iintro ⟨-, HO⟩; iexact HO)⟩)
    (hinit := hinit_of m ρ (fun c => Rr c) (hE0 ρ)) (QY := fun c s => ∀ b ∈ Pipeline.ucRefs τ sig, s.mem (((c : Thread nD τ)).1, b) = V11 m (outsF m) c b)
    (hfin := fun c s' => ?_) (hQ := fun _ h => h)
  · unfold StableHlo.held
    iintro ⟨Hh, HSI⟩
    imodintro
    iapply (pointsTo_read_all (Pipeline.ucRefs τ sig) (fun b => (((c : Thread nD τ)).1, b)) (V11 m (outsF m) c) s')
    isplitl [Hh] <;> iassumption

end Cert.Kernel.Gen

end
-- ==== Proof.KernelIdealConds0.lean ====
import proofs.«156333_j37684043055138_1_alg».proof.Proof.Gen.KernelIdeal.Launch
import proofs.«156333_j37684043055138_1_alg».proof.Proof.Gen.KernelIdeal.Skeleton
import proofs.«156333_j37684043055138_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0: the branch conditions over the grid, and where the output window is idle

The grid is 8 × 8 × 8; the last coordinate counts the tiles of the contracted axis.  The accumulator is reset at
tile 0 and the output block is stored at tile 7. -/

/-- The first conditional's condition, from the grid coordinates: the tile counter is 0. -/
abbrev cond0_0 (i : grid0.Coords) : Prop := (Scalar.cmpi .ne (Scalar.extui (Scalar.cmpi .eq (BitVec.ofNat 32 (i 2).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional's condition: the tile counter is 7. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from tile 7 the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At tile 7 it is live. -/
theorem liveAt0_2 : ∀ t : Fin cfg0.N, cond0_1 (grid0.coords t) → cfg0.idle 2 (grid0.coords t) = false := by decide +kernel

/-- The windows' current staging memrefs at a point, as the pipeline passes them, and their wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S1024x1024 .f32 := Memref.whole cc0_scratch0
/-- Views through which the output block's and the accumulator's contents are stated. -/
abbrev VO0 : View sig .tc .vmem S1024x1024 .bf16 := (Memref.whole cc0_stg2_0 : Memref sig .tc .vmem S1024x1024 .bf16).view
abbrev VS0 : View sig .tc .vmem S1024x1024 .f32 := scM0.view

end Cert.KernelIdeal.Gen

end
-- ==== Proof.KernelIdealRunA0.lean ====
import proofs.«156333_j37684043055138_1_alg».proof.Proof.KernelIdealConds0
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Tile 0: the accumulator, at anything, is overwritten with zeros, loaded again, the product of the two input blocks is
    added and the sum stored back; the output block's buffer is handed back untouched.  The pieces the accumulator ends
    with are found by running the body. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 x1 : Vec F S1024x1024 .bf16) :
    { LS : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__bool_matmul_kernel i arg3 harg3 arg4 harg4 arg5 harg5 arg6 harg6) K } := by
  refine ⟨?_, fun xi E K => ?run⟩
  case run =>
    simp only [cc0__bool_matmul_kernel_eq_skeleton]; unfold cc0__bool_matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Gen

end
-- ==== Proof.KernelIdealRunB0.lean ====
import proofs.«156333_j37684043055138_1_alg».proof.Proof.KernelIdealConds0
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle tile (neither 0 nor 7): the accumulator's contents `xs` are loaded, the product of the two input blocks is
    added, and the sum is stored back; the output block's buffer is handed back untouched.  The pieces the accumulator
    ends with are found by running the body. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 x1 : Vec F S1024x1024 .bf16) (xs : Vec F S1024x1024 .f32) :
    { LS : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__bool_matmul_kernel i arg3 harg3 arg4 harg4 arg5 harg5 arg6 harg6) K } := by
  refine ⟨?_, fun xi E K => ?run⟩
  case run =>
    simp only [cc0__bool_matmul_kernel_eq_skeleton]; unfold cc0__bool_matmul_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Gen

end
-- ==== Proof.KernelIdealRunC0.lean ====
import proofs.«156333_j37684043055138_1_alg».proof.Proof.KernelIdealConds0
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Tile 7: the accumulator's contents `xs` are loaded, the product of the two input blocks is added and the sum stored
    back; then the accumulator is loaded once more and its positivity, as a 0/1 value, is stored into the output block's
    buffer.  The pieces the output block and the accumulator end with are found by running the body. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 x1 : Vec F S1024x1024 .bf16) (xs : Vec F S1024x1024 .f32) :
    Σ' (L2 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc0__bool_matmul_kernel i arg3 harg3 arg4 harg4 arg5 harg5 arg6 harg6) K } := by
  refine ⟨?_, ?_, fun E K => ?run⟩
  case run =>
    simp only [cc0__bool_matmul_kernel_eq_skeleton]; unfold cc0__bool_matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.KernelIdeal.Gen

end
-- ==== Proof.KernelIdealDat0.lean ====
import proofs.«156333_j37684043055138_1_alg».proof.Proof.KernelIdealRunA0
import proofs.«156333_j37684043055138_1_alg».proof.Proof.KernelIdealRunB0
import proofs.«156333_j37684043055138_1_alg».proof.Proof.KernelIdealRunC0
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what the accumulator and the output block hold point by point, the proof data, the body obligation

Stated at a parameter `V`: the TensorCore's buffer contents when the region is entered. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point (it is fetched, or its index has not
    moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- Tile 0's pieces cover the accumulator. -/
theorem scover0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 x1 : Vec F S1024x1024 .bf16) (y : S1024x1024.Idx) :
    ∃ pc ∈ (kernelRun0_A c i arg3 harg3 arg4 harg4 arg5 harg5 arg6 harg6 hc0 hc1 x0 x1).1, y ∈ pc.1.set :=
  View.cover_of_tiledL (kernelRun0_A c i arg3 harg3 arg4 harg4 arg5 harg5 arg6 harg6 hc0 hc1 x0 x1).1 S1024x1024.size (by sl_kernel_rfl) y
/-- What tile 0 leaves in the accumulator. -/
def sout0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 x1 : Vec F S1024x1024 .bf16) : Vec F S1024x1024 .f32 :=
  VS0.read (Elt F) (VS0.writes (Elt F) VS0.junk (kernelRun0_A c i arg3 harg3 arg4 harg4 arg5 harg5 arg6 harg6 hc0 hc1 x0 x1).1)

/-- A middle tile's pieces cover the accumulator. -/
theorem scover0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 x1 : Vec F S1024x1024 .bf16) (xs : Vec F S1024x1024 .f32) (y : S1024x1024.Idx) :
    ∃ pc ∈ (kernelRun0_B c i arg3 harg3 arg4 harg4 arg5 harg5 arg6 harg6 hc0 hc1 x0 x1 xs).1, y ∈ pc.1.set :=
  View.cover_of_tiledL (kernelRun0_B c i arg3 harg3 arg4 harg4 arg5 harg5 arg6 harg6 hc0 hc1 x0 x1 xs).1 S1024x1024.size (by sl_kernel_rfl) y
/-- What a middle tile leaves in the accumulator. -/
def sout0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 x1 : Vec F S1024x1024 .bf16) (xs : Vec F S1024x1024 .f32) : Vec F S1024x1024 .f32 :=
  VS0.read (Elt F) (VS0.writes (Elt F) VS0.junk (kernelRun0_B c i arg3 harg3 arg4 harg4 arg5 harg5 arg6 harg6 hc0 hc1 x0 x1 xs).1)

/-- Tile 7's pieces cover the output block, -/
theorem cover0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 x1 : Vec F S1024x1024 .bf16) (xs : Vec F S1024x1024 .f32) (y : S1024x1024.Idx) :
    ∃ pc ∈ (kernelRun0_C c i arg3 harg3 arg4 harg4 arg5 harg5 arg6 harg6 hc0 hc1 x0 x1 xs).1, y ∈ pc.1.set :=
  View.cover_of_tiledL (kernelRun0_C c i arg3 harg3 arg4 harg4 arg5 harg5 arg6 harg6 hc0 hc1 x0 x1 xs).1 S1024x1024.size (by sl_kernel_rfl) y
/-- what it leaves there, -/
def out0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 x1 : Vec F S1024x1024 .bf16) (xs : Vec F S1024x1024 .f32) : Vec F S1024x1024 .bf16 :=
  VO0.read (Elt F) (VO0.writes (Elt F) VO0.junk (kernelRun0_C c i arg3 harg3 arg4 harg4 arg5 harg5 arg6 harg6 hc0 hc1 x0 x1 xs).1)
/-- and its pieces cover the accumulator, -/
theorem scover0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 x1 : Vec F S1024x1024 .bf16) (xs : Vec F S1024x1024 .f32) (y : S1024x1024.Idx) :
    ∃ pc ∈ (kernelRun0_C c i arg3 harg3 arg4 harg4 arg5 harg5 arg6 harg6 hc0 hc1 x0 x1 xs).2.1, y ∈ pc.1.set :=
  View.cover_of_tiledL (kernelRun0_C c i arg3 harg3 arg4 harg4 arg5 harg5 arg6 harg6 hc0 hc1 x0 x1 xs).2.1 S1024x1024.size (by sl_kernel_rfl) y
/-- where it leaves this. -/
def sout0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 x1 : Vec F S1024x1024 .bf16) (xs : Vec F S1024x1024 .f32) : Vec F S1024x1024 .f32 :=
  VS0.read (Elt F) (VS0.writes (Elt F) VS0.junk (kernelRun0_C c i arg3 harg3 arg4 harg4 arg5 harg5 arg6 harg6 hc0 hc1 x0 x1 xs).2.1)

/-- Contents nothing consults: the output block's buffer at the points that do not store it. -/
def idleOut0 : Vec F S1024x1024 .bf16 := VO0.read (Elt F) VO0.junk

/-! ## The accumulation -/

/-- What the output block's staging buffer and the accumulator hold after the body at position `n`: at tile 0 the
    accumulator is started afresh from the point's two input blocks; at a later tile it is what the point before left,
    plus the product of this point's blocks; at tile 7 the output block is the positivity of that. -/
def outsAt0 (c : Dev nD) : (n : ℕ) → n < cfg0.N → Vec F S1024x1024 .bf16 × Vec F S1024x1024 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (idleOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (idleOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at a point of tile 0. -/
theorem outsAt0_A (c : Dev nD) (t : Fin cfg0.N) (h0 : t.val % 8 = 0) (h1 : ¬t.val % 8 = 7) :
    outsAt0 V c t.val t.isLt = (idleOut0, sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of a middle tile: over what the point before left. -/
theorem outsAt0_B (c : Dev nD) (t : Fin cfg0.N) (h0 : ¬t.val % 8 = 0) (h1 : ¬t.val % 8 = 7) :
    outsAt0 V c t.val t.isLt = (idleOut0, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of tile 7: over what the point before left. -/
theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The core's scoped buffers that are neither a staging buffer of this call nor its accumulator, at some contents
    each: carried unopened. -/
abbrev rest0 (c : Dev nD) : sProp 𝕄 :=
  Pipeline.scopedRestBut (Ix := Unit) (Name := ℕ) (U := UR sig nD τ) (Lvl := ℕ) (Val := Elt F) spec0 c [cc0_scratch0]

/-- What the launch hands the region, with the accumulator singled out: it at some contents, the other scoped
    buffers, the generator register. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA
  rw [Pipeline.scopedRest_split_of_list (win := spec0) (c := c) [cc0_scratch0] (by decide) (by decide)]
  simp only [scM0, owns_whole, bigSepL_singleton]; try rfl

/-- The region invariant before position `n`: before the first point what the launch hands over; afterwards the
    accumulator at what the point before left in it, the other scoped buffers and the generator register. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 c) ∗ (∃ r, prngReg c r)) := by
  cases n with
  | zero => exact absurd rfl hz
  | succ n => rfl

/-! ## The proof data -/

/-- The proof data of this pipeline on core `c`: the arrays as the region finds them; after the body each input's
    buffer at its block and the output's at `outsAt0`; the invariant `PhiS0`; nothing owed; the shares `q`. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q := q
  owed _ := 0

variable (q : Fin cfg0.W → PosShare TreeShare)

theorem A_eq0 (c : Dev nD) (w : Fin cfg0.W) : (dat0 V q c).A w = V c (Pipeline.arrRef spec0 w) := by
  dsimp only [dat0]
theorem PhiS0_castSucc (c : Dev nD) (t : Fin cfg0.N) :
    (dat0 V q c).Φ t.castSucc = PhiS0 V c t.val (Nat.le_of_lt t.isLt) := by
  dsimp only [dat0]; simp only [Fin.coe_castSucc]
theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = (outsAt0 V c t.val t.isLt).1 := by dsimp only [dat0]
theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d

/-! ## The body obligation -/

def bodyPre0 (c : Dev nD) (t : Fin cfg0.N) : sProp 𝕄 :=
  iprop((dat0 V q c).Φ t.castSucc ∗ (dat0 V q c).owesAt () t.castSucc
    ∗ (∃ d, owns (c : Thread nD τ) (ms0_0 t) fullShare ((dat0 V q c).before 0 t d))
    ∗ (∃ d, owns (c : Thread nD τ) (ms0_1 t) fullShare ((dat0 V q c).before 1 t d))
    ∗ (∃ d, owns (c : Thread nD τ) (ms0_2 t) fullShare ((dat0 V q c).before 2 t d)))

def bodyPost0 (c : Dev nD) (t : Fin cfg0.N) : sProp 𝕄 :=
  iprop((dat0 V q c).Φ t.succ ∗ (dat0 V q c).owesAt () t.succ
    ∗ (dat0 V q c).leavesExact 0 t
    ∗ (dat0 V q c).leavesExact 1 t
    ∗ (dat0 V q c).leavesExact 2 t)

set_option maxHeartbeats 4800000 in
/-- The body at any point: the inputs' buffers hold their blocks; the tile counter says which case the point is in;
    the invariant hands the body the accumulator at what the point before left (at anything before the first point)
    and takes it back at this point's contents; at tile 7 the output block's buffer is left at the positivity of the
    accumulator, elsewhere it is handed back untouched; the core owes nothing throughout. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1]
  rw [show (dat0 V q c).owesAt () t.succ = (dat0 V q c).owesAt () t.castSucc from rfl]
  rw [show (dat0 V q c).Φ t.succ = PhiS0 V c (t.val + 1) t.isLt from rfl, PhiS0_succ]
  have hN : t.val < 512 := lt_of_lt_of_eq t.isLt (show cfg0.N = 512 from N_0)
  rw [show (dat0 V q c).leavesExact 0 t = owns (c : Thread nD τ) (ms0_0 t) fullShare ((dat0 V q c).after 0 t) from by
    unfold Dat.leavesExact; rw [liveAt0_0 t], after0_0]
  rw [show (dat0 V q c).leavesExact 1 t = owns (c : Thread nD τ) (ms0_1 t) fullShare ((dat0 V q c).after 1 t) from by
    unfold Dat.leavesExact; rw [liveAt0_1 t], after0_1]
  by_cases h0 : t.val % 8 = 0
  · have h1 : ¬t.val % 8 = 7 := by omega
    rw [Dat.leavesExact_idle (dat0 V q c) 2 t (idleAt0_2 t (fun h => h1 ((hcond0_1 t).mp h))) (noFlush0_2 t (fun h => h1 ((hcond0_1 t).mp h)))]
    rw [outsAt0_A V c t h0 h1]
    unfold sout0_A; (try dsimp only)
    by_cases hz : t.val = 0
    · rw [PhiS0_castSucc V q c t, PhiS0_zero V c _ _ hz, PhiA0_eq]
      iintro ⟨⟨⟨HS, Hr⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (scover0_A c _ _ _ _ _ _ _ _ _ _ _ _ _)
          iexact Hr
        iexact Hg
      isplitl [Ho]; · iexact Ho
      isplitl [H0]; · iexact H0
      isplitl [H1]; · iexact H1
      iexists _; iexact H2
    · rw [PhiS0_castSucc V q c t, PhiS0_pos V c _ _ hz]
      iintro ⟨⟨⟨HS, Hr⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (scover0_A c _ _ _ _ _ _ _ _ _ _ _ _ _)
          iexact Hr
        iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dat0 V q c).leavesExact 2 t = owns (c : Thread nD τ) (ms0_2 t) fullShare ((dat0 V q c).after 2 t) from by
        unfold Dat.leavesExact; rw [liveAt0_2 t ((hcond0_1 t).mpr h1)], after0_2]
      rw [outsAt0_C V c t h0 h1]
      unfold out0_C sout0_C; (try dsimp only)
      rw [PhiS0_castSucc V q c t, PhiS0_pos V c _ _ hz]
      iintro ⟨⟨⟨HS, Hr⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS Hr]
        · isplitl [HS]
          · unfold owns; iexists _; isplitr
            swap; · iexact HS
            ipureintro; exact View.read_writes_of_cover _ _ _ _ _ (scover0_C c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V q c) 2 t (idleAt0_2 t (fun h => h1 ((hcond0_1 t).mp h))) (noFlush0_2 t (fun h => h1 ((hcond0_1 t).mp h)))]
      rw [outsAt0_B V c t h0 h1]
      unfold sout0_B; (try dsimp only)
      rw [PhiS0_castSucc V q c t, PhiS0_pos V c _ _ hz]
      iintro ⟨⟨⟨HS, Hr⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (scover0_B c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V q c) (defs₀ (F := F)) Variants.none () Set.univ := fun t => by
  rw [bigSep_W0, bigSep_W0]
  exact sound_body0 V q c t

/-- What the launch hands the region is the invariant before the first point. -/
theorem hin0 (c : Dev nD) : Pipeline.ΦA spec0 c ⊢ (dat0 V q c).Φ 0 := by
  rw [show (dat0 V q c).Φ 0 = PhiS0 V c 0 (Nat.zero_le _) from rfl, PhiS0_zero V c 0 _ rfl]
  try exact Idealize.SL.BI.Entails.refl _

/-- After the last point the invariant gives that back: the accumulator's named contents are forgotten. -/
theorem hout0 (c : Dev nD) : (dat0 V q c).Φ (Fin.last cfg0.N) ⊢ Pipeline.ΦA spec0 c := by
  rw [show (dat0 V q c).Φ (Fin.last cfg0.N) = PhiS0 V c (Fin.last cfg0.N).val (Nat.le_of_lt_succ (Fin.last cfg0.N).isLt) from rfl,
    PhiS0_pos V c _ _ (by rw [Fin.val_last]; have : cfg0.N = 512 := N_0; omega), PhiA0_eq]
  iintro ⟨⟨HS, Hr⟩, Hg⟩
  isplitl [HS Hr]
  · isplitl [HS]
    · iexists _; iexact HS
    iexact Hr
  iexact Hg

end Cert.KernelIdeal.Gen

end
-- ==== Proof.KernelIdealConds1.lean ====
import proofs.«156333_j37684043055138_1_alg».proof.Proof.Gen.KernelIdeal.Launch
import proofs.«156333_j37684043055138_1_alg».proof.Proof.Gen.KernelIdeal.Skeleton
import proofs.«156333_j37684043055138_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 1: the branch conditions over the grid, and where the output window is idle

The grid is 8 × 8 × 8; the last coordinate counts the tiles of the contracted axis.  The accumulator is reset at
tile 0 and the output block is stored at tile 7. -/

/-- The first conditional's condition, from the grid coordinates: the tile counter is 0. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition: the tile counter is 7. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from tile 7 the output window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At tile 7 it is live. -/
theorem liveAt1_2 : ∀ t : Fin cfg1.N, cond1_1 (grid1.coords t) → cfg1.idle 2 (grid1.coords t) = false := by decide +kernel

/-- The windows' current staging memrefs at a point, as the pipeline passes them, and their wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S1024x1024 .f32 := Memref.whole cc1_scratch0
/-- Views through which the output block's and the accumulator's contents are stated. -/
abbrev VO1 : View sig .tc .vmem S1024x1024 .bf16 := (Memref.whole cc1_stg2_0 : Memref sig .tc .vmem S1024x1024 .bf16).view
abbrev VS1 : View sig .tc .vmem S1024x1024 .f32 := scM1.view

end Cert.KernelIdeal.Gen

end
-- ==== Proof.KernelIdealRunA1.lean ====
import proofs.«156333_j37684043055138_1_alg».proof.Proof.KernelIdealConds1
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Tile 0: the accumulator, at anything, is overwritten with zeros, loaded again, the product of the two input blocks is
    added and the sum stored back; the output block's buffer is handed back untouched.  The pieces the accumulator ends
    with are found by running the body. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 x1 : Vec F S1024x1024 .bf16) :
    { LS : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__bool_matmul_kernel i arg3 harg3 arg4 harg4 arg5 harg5 arg6 harg6) K } := by
  refine ⟨?_, fun xi E K => ?run⟩
  case run =>
    simp only [cc1__bool_matmul_kernel_eq_skeleton]; unfold cc1__bool_matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Gen

end
-- ==== Proof.KernelIdealRunB1.lean ====
import proofs.«156333_j37684043055138_1_alg».proof.Proof.KernelIdealConds1
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle tile (neither 0 nor 7): the accumulator's contents `xs` are loaded, the product of the two input blocks is
    added, and the sum is stored back; the output block's buffer is handed back untouched.  The pieces the accumulator
    ends with are found by running the body. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : ¬cond1_1 i)
    (x0 x1 : Vec F S1024x1024 .bf16) (xs : Vec F S1024x1024 .f32) :
    { LS : List (View.Piece (Elt F) S1024x1024 .f32) //
      ∀ (xi : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__bool_matmul_kernel i arg3 harg3 arg4 harg4 arg5 harg5 arg6 harg6) K } := by
  refine ⟨?_, fun xi E K => ?run⟩
  case run =>
    simp only [cc1__bool_matmul_kernel_eq_skeleton]; unfold cc1__bool_matmul_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Gen

end
-- ==== Proof.KernelIdealRunC1.lean ====
import proofs.«156333_j37684043055138_1_alg».proof.Proof.KernelIdealConds1
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Tile 7: the accumulator's contents `xs` are loaded, the product of the two input blocks is added and the sum stored
    back; then the accumulator is loaded once more and its positivity, as a 0/1 value, is stored into the output block's
    buffer.  The pieces the output block and the accumulator end with are found by running the body. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 x1 : Vec F S1024x1024 .bf16) (xs : Vec F S1024x1024 .f32) :
    Σ' (L2 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc1__bool_matmul_kernel i arg3 harg3 arg4 harg4 arg5 harg5 arg6 harg6) K } := by
  refine ⟨?_, ?_, fun E K => ?run⟩
  case run =>
    simp only [cc1__bool_matmul_kernel_eq_skeleton]; unfold cc1__bool_matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.KernelIdeal.Gen

end
-- ==== Proof.KernelIdealDat1.lean ====
import proofs.«156333_j37684043055138_1_alg».proof.Proof.KernelIdealRunA1
import proofs.«156333_j37684043055138_1_alg».proof.Proof.KernelIdealRunB1
import proofs.«156333_j37684043055138_1_alg».proof.Proof.KernelIdealRunC1
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: what the accumulator and the output block hold point by point, the proof data, the body obligation

Stated at a parameter `V`: the TensorCore's buffer contents when the region is entered. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point (it is fetched, or its index has not
    moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Tile 0's pieces cover the accumulator. -/
theorem scover1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 x1 : Vec F S1024x1024 .bf16) (y : S1024x1024.Idx) :
    ∃ pc ∈ (kernelRun1_A c i arg3 harg3 arg4 harg4 arg5 harg5 arg6 harg6 hc0 hc1 x0 x1).1, y ∈ pc.1.set :=
  View.cover_of_tiledL (kernelRun1_A c i arg3 harg3 arg4 harg4 arg5 harg5 arg6 harg6 hc0 hc1 x0 x1).1 S1024x1024.size (by sl_kernel_rfl) y
/-- What tile 0 leaves in the accumulator. -/
def sout1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 x1 : Vec F S1024x1024 .bf16) : Vec F S1024x1024 .f32 :=
  VS1.read (Elt F) (VS1.writes (Elt F) VS1.junk (kernelRun1_A c i arg3 harg3 arg4 harg4 arg5 harg5 arg6 harg6 hc0 hc1 x0 x1).1)

/-- A middle tile's pieces cover the accumulator. -/
theorem scover1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : ¬cond1_1 i)
    (x0 x1 : Vec F S1024x1024 .bf16) (xs : Vec F S1024x1024 .f32) (y : S1024x1024.Idx) :
    ∃ pc ∈ (kernelRun1_B c i arg3 harg3 arg4 harg4 arg5 harg5 arg6 harg6 hc0 hc1 x0 x1 xs).1, y ∈ pc.1.set :=
  View.cover_of_tiledL (kernelRun1_B c i arg3 harg3 arg4 harg4 arg5 harg5 arg6 harg6 hc0 hc1 x0 x1 xs).1 S1024x1024.size (by sl_kernel_rfl) y
/-- What a middle tile leaves in the accumulator. -/
def sout1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : ¬cond1_1 i)
    (x0 x1 : Vec F S1024x1024 .bf16) (xs : Vec F S1024x1024 .f32) : Vec F S1024x1024 .f32 :=
  VS1.read (Elt F) (VS1.writes (Elt F) VS1.junk (kernelRun1_B c i arg3 harg3 arg4 harg4 arg5 harg5 arg6 harg6 hc0 hc1 x0 x1 xs).1)

/-- Tile 7's pieces cover the output block, -/
theorem cover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 x1 : Vec F S1024x1024 .bf16) (xs : Vec F S1024x1024 .f32) (y : S1024x1024.Idx) :
    ∃ pc ∈ (kernelRun1_C c i arg3 harg3 arg4 harg4 arg5 harg5 arg6 harg6 hc0 hc1 x0 x1 xs).1, y ∈ pc.1.set :=
  View.cover_of_tiledL (kernelRun1_C c i arg3 harg3 arg4 harg4 arg5 harg5 arg6 harg6 hc0 hc1 x0 x1 xs).1 S1024x1024.size (by sl_kernel_rfl) y
/-- what it leaves there, -/
def out1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 x1 : Vec F S1024x1024 .bf16) (xs : Vec F S1024x1024 .f32) : Vec F S1024x1024 .bf16 :=
  VO1.read (Elt F) (VO1.writes (Elt F) VO1.junk (kernelRun1_C c i arg3 harg3 arg4 harg4 arg5 harg5 arg6 harg6 hc0 hc1 x0 x1 xs).1)
/-- and its pieces cover the accumulator, -/
theorem scover1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 x1 : Vec F S1024x1024 .bf16) (xs : Vec F S1024x1024 .f32) (y : S1024x1024.Idx) :
    ∃ pc ∈ (kernelRun1_C c i arg3 harg3 arg4 harg4 arg5 harg5 arg6 harg6 hc0 hc1 x0 x1 xs).2.1, y ∈ pc.1.set :=
  View.cover_of_tiledL (kernelRun1_C c i arg3 harg3 arg4 harg4 arg5 harg5 arg6 harg6 hc0 hc1 x0 x1 xs).2.1 S1024x1024.size (by sl_kernel_rfl) y
/-- where it leaves this. -/
def sout1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 x1 : Vec F S1024x1024 .bf16) (xs : Vec F S1024x1024 .f32) : Vec F S1024x1024 .f32 :=
  VS1.read (Elt F) (VS1.writes (Elt F) VS1.junk (kernelRun1_C c i arg3 harg3 arg4 harg4 arg5 harg5 arg6 harg6 hc0 hc1 x0 x1 xs).2.1)

/-- Contents nothing consults: the output block's buffer at the points that do not store it. -/
def idleOut1 : Vec F S1024x1024 .bf16 := VO1.read (Elt F) VO1.junk

/-! ## The accumulation -/

/-- What the output block's staging buffer and the accumulator hold after the body at position `n`: at tile 0 the
    accumulator is started afresh from the point's two input blocks; at a later tile it is what the point before left,
    plus the product of this point's blocks; at tile 7 the output block is the positivity of that. -/
def outsAt1 (c : Dev nD) : (n : ℕ) → n < cfg1.N → Vec F S1024x1024 .bf16 × Vec F S1024x1024 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (idleOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point of tile 0. -/
theorem outsAt1_A (c : Dev nD) (t : Fin cfg1.N) (h0 : t.val % 8 = 0) (h1 : ¬t.val % 8 = 7) :
    outsAt1 V c t.val t.isLt = (idleOut1, sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of a middle tile: over what the point before left. -/
theorem outsAt1_B (c : Dev nD) (t : Fin cfg1.N) (h0 : ¬t.val % 8 = 0) (h1 : ¬t.val % 8 = 7) :
    outsAt1 V c t.val t.isLt = (idleOut1, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of tile 7: over what the point before left. -/
theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The core's scoped buffers that are neither a staging buffer of this call nor its accumulator, at some contents
    each: carried unopened. -/
abbrev rest1 (c : Dev nD) : sProp 𝕄 :=
  Pipeline.scopedRestBut (Ix := Unit) (Name := ℕ) (U := UR sig nD τ) (Lvl := ℕ) (Val := Elt F) spec1 c [cc1_scratch0]

/-- What the launch hands the region, with the accumulator singled out: it at some contents, the other scoped
    buffers, the generator register. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA
  rw [Pipeline.scopedRest_split_of_list (win := spec1) (c := c) [cc1_scratch0] (by decide) (by decide)]
  simp only [scM1, owns_whole, bigSepL_singleton]; try rfl

/-- The region invariant before position `n`: before the first point what the launch hands over; afterwards the
    accumulator at what the point before left in it, the other scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 c) ∗ (∃ r, prngReg c r)) := by
  cases n with
  | zero => exact absurd rfl hz
  | succ n => rfl

/-! ## The proof data -/

/-- The proof data of this pipeline on core `c`: the arrays as the region finds them; after the body each input's
    buffer at its block and the output's at `outsAt1`; the invariant `PhiS1`; nothing owed; the shares `q`. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q := q
  owed _ := 0

variable (q : Fin cfg1.W → PosShare TreeShare)

theorem A_eq1 (c : Dev nD) (w : Fin cfg1.W) : (dat1 V q c).A w = V c (Pipeline.arrRef spec1 w) := by
  dsimp only [dat1]
theorem PhiS1_castSucc (c : Dev nD) (t : Fin cfg1.N) :
    (dat1 V q c).Φ t.castSucc = PhiS1 V c t.val (Nat.le_of_lt t.isLt) := by
  dsimp only [dat1]; simp only [Fin.coe_castSucc]
theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = (outsAt1 V c t.val t.isLt).1 := by dsimp only [dat1]
theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d

/-! ## The body obligation -/

def bodyPre1 (c : Dev nD) (t : Fin cfg1.N) : sProp 𝕄 :=
  iprop((dat1 V q c).Φ t.castSucc ∗ (dat1 V q c).owesAt () t.castSucc
    ∗ (∃ d, owns (c : Thread nD τ) (ms1_0 t) fullShare ((dat1 V q c).before 0 t d))
    ∗ (∃ d, owns (c : Thread nD τ) (ms1_1 t) fullShare ((dat1 V q c).before 1 t d))
    ∗ (∃ d, owns (c : Thread nD τ) (ms1_2 t) fullShare ((dat1 V q c).before 2 t d)))

def bodyPost1 (c : Dev nD) (t : Fin cfg1.N) : sProp 𝕄 :=
  iprop((dat1 V q c).Φ t.succ ∗ (dat1 V q c).owesAt () t.succ
    ∗ (dat1 V q c).leavesExact 0 t
    ∗ (dat1 V q c).leavesExact 1 t
    ∗ (dat1 V q c).leavesExact 2 t)

set_option maxHeartbeats 4800000 in
/-- The body at any point: the inputs' buffers hold their blocks; the tile counter says which case the point is in;
    the invariant hands the body the accumulator at what the point before left (at anything before the first point)
    and takes it back at this point's contents; at tile 7 the output block's buffer is left at the positivity of the
    accumulator, elsewhere it is handed back untouched; the core owes nothing throughout. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1]
  rw [show (dat1 V q c).owesAt () t.succ = (dat1 V q c).owesAt () t.castSucc from rfl]
  rw [show (dat1 V q c).Φ t.succ = PhiS1 V c (t.val + 1) t.isLt from rfl, PhiS1_succ]
  have hN : t.val < 512 := lt_of_lt_of_eq t.isLt (show cfg1.N = 512 from N_1)
  rw [show (dat1 V q c).leavesExact 0 t = owns (c : Thread nD τ) (ms1_0 t) fullShare ((dat1 V q c).after 0 t) from by
    unfold Dat.leavesExact; rw [liveAt1_0 t], after1_0]
  rw [show (dat1 V q c).leavesExact 1 t = owns (c : Thread nD τ) (ms1_1 t) fullShare ((dat1 V q c).after 1 t) from by
    unfold Dat.leavesExact; rw [liveAt1_1 t], after1_1]
  by_cases h0 : t.val % 8 = 0
  · have h1 : ¬t.val % 8 = 7 := by omega
    rw [Dat.leavesExact_idle (dat1 V q c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V q c t, PhiS1_zero V c _ _ hz, PhiA1_eq]
      iintro ⟨⟨⟨HS, Hr⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (scover1_A c _ _ _ _ _ _ _ _ _ _ _ _ _)
          iexact Hr
        iexact Hg
      isplitl [Ho]; · iexact Ho
      isplitl [H0]; · iexact H0
      isplitl [H1]; · iexact H1
      iexists _; iexact H2
    · rw [PhiS1_castSucc V q c t, PhiS1_pos V c _ _ hz]
      iintro ⟨⟨⟨HS, Hr⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (scover1_A c _ _ _ _ _ _ _ _ _ _ _ _ _)
          iexact Hr
        iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dat1 V q c).leavesExact 2 t = owns (c : Thread nD τ) (ms1_2 t) fullShare ((dat1 V q c).after 2 t) from by
        unfold Dat.leavesExact; rw [liveAt1_2 t ((hcond1_1 t).mpr h1)], after1_2]
      rw [outsAt1_C V c t h0 h1]
      unfold out1_C sout1_C; (try dsimp only)
      rw [PhiS1_castSucc V q c t, PhiS1_pos V c _ _ hz]
      iintro ⟨⟨⟨HS, Hr⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS Hr]
        · isplitl [HS]
          · unfold owns; iexists _; isplitr
            swap; · iexact HS
            ipureintro; exact View.read_writes_of_cover _ _ _ _ _ (scover1_C c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V q c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V q c t, PhiS1_pos V c _ _ hz]
      iintro ⟨⟨⟨HS, Hr⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro; exact View.read_writes_of_cover _ _ _ _ _ (scover1_B c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V q c) (defs₀ (F := F)) Variants.none () Set.univ := fun t => by
  rw [bigSep_W1, bigSep_W1]
  exact sound_body1 V q c t

/-- What the launch hands the region is the invariant before the first point. -/
theorem hin1 (c : Dev nD) : Pipeline.ΦA spec1 c ⊢ (dat1 V q c).Φ 0 := by
  rw [show (dat1 V q c).Φ 0 = PhiS1 V c 0 (Nat.zero_le _) from rfl, PhiS1_zero V c 0 _ rfl]
  try exact Idealize.SL.BI.Entails.refl _

/-- After the last point the invariant gives that back: the accumulator's named contents are forgotten. -/
theorem hout1 (c : Dev nD) : (dat1 V q c).Φ (Fin.last cfg1.N) ⊢ Pipeline.ΦA spec1 c := by
  rw [show (dat1 V q c).Φ (Fin.last cfg1.N) = PhiS1 V c (Fin.last cfg1.N).val (Nat.le_of_lt_succ (Fin.last cfg1.N).isLt) from rfl,
    PhiS1_pos V c _ _ (by rw [Fin.val_last]; have : cfg1.N = 512 := N_1; omega), PhiA1_eq]
  iintro ⟨⟨HS, Hr⟩, Hg⟩
  isplitl [HS Hr]
  · isplitl [HS]
    · iexists _; iexact HS
    iexact Hr
  iexact Hg

end Cert.KernelIdeal.Gen

end
-- ==== Proof.KernelIdealFrame.lean ====
import proofs.«156333_j37684043055138_1_alg».proof.Proof.Gen.KernelIdeal.Regions
import proofs.«156333_j37684043055138_1_alg».proof.Proof.KernelIdealDat0
import proofs.«156333_j37684043055138_1_alg».proof.Proof.KernelIdealDat1
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The two regions as segments of @main, and the frame

Region 0 reads ONE array (the adjacency matrix) through both of its input windows, so it holds that array at two half
shares; region 1's three arrays are distinct and held whole. -/

variable (m : (ℓ : Loc nD τ sig) → Buf (Elt F) ℓ) (ρ : Dev nD → PrngReg)

/-- Region 0's shares: the two input windows split their common array; the output's is full. -/
abbrev q0 : Fin cfg0.W → PosShare TreeShare := fun | ⟨0, _⟩ => fullShare.left | ⟨1, _⟩ => fullShare.right | ⟨_ + 2, _⟩ => fullShare
/-- Region 1's shares: full. -/
abbrev q1 : Fin cfg1.W → PosShare TreeShare := fun _ => fullShare

/-- The TensorCore's buffers when region 0 is entered, read at a reference. -/
abbrev E0 (c : Dev nD) (b : Ref sig .tc) : Buf (Elt F) ((c : Thread nD τ).loc b) := V7 m c b
/-- What region 0 leaves in its result array: its write-backs folded over the entry contents. -/
def res0 (c : Dev nD) : Buf (Elt F) ((c : Thread nD τ).loc main_v42) := (dat0 (E0 m) q0 c).arrAt 2 cfg0.N
/-- The buffers after region 0, -/
abbrev W8 (c : Dev nD) : Valuation τ sig (Elt F) := Function.update (V7 m c) main_v42 (res0 m c)
/-- after the host operations between the regions, -/
abbrev W9 (c : Dev nD) : Valuation τ sig (Elt F) := StableHlo.after hostOps1 (W8 m c)
/-- read at a reference: what region 1 is entered from. -/
abbrev E1 (c : Dev nD) (b : Ref sig .tc) : Buf (Elt F) ((c : Thread nD τ).loc b) := W9 m c b
/-- What region 1 leaves in its result array. -/
def res1 (c : Dev nD) : Buf (Elt F) ((c : Thread nD τ).loc main_v50) := (dat1 (E1 m) q1 c).arrAt 2 cfg1.N
/-- The buffers after region 1. -/
abbrev W10 (c : Dev nD) : Valuation τ sig (Elt F) := Function.update (W9 m c) main_v50 (res1 m c)

/-- What the regions leave, as the unknowns the generated valuations are written over. -/
def outsF : Outs (F := F) := fun J r c => if J = 8 then W8 m c r else W10 m c r

theorem outs8 (c : Dev nD) : outsF m 8 main_v42 c = res0 m c := by
  unfold outsF; rw [if_pos rfl]; exact Function.update_self ..
theorem V8_eq (c : Dev nD) : V8 m (outsF m) c = W8 m c := by
  show Function.update (V7 m c) main_v42 (outsF m 8 main_v42 c) = _; rw [outs8]
theorem V9_eq (c : Dev nD) : V9 m (outsF m) c = W9 m c := by
  show StableHlo.after hostOps1 (V8 m (outsF m) c) = _; rw [V8_eq]
theorem outs10 (c : Dev nD) : outsF m 10 main_v50 c = res1 m c := by
  unfold outsF; rw [if_neg (by decide)]; exact Function.update_self ..
theorem V10_eq (c : Dev nD) : V10 m (outsF m) c = W10 m c := by
  show Function.update (V9 m (outsF m) c) main_v50 (outsF m 10 main_v50 c) = _; rw [V9_eq, outs10]

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) q0 c
  | ⟨1, _⟩ => fun c => dat1 (E1 m) q1 c

abbrev Lz : GSem nD τ sig → Finset Unit := fun _ => ∅
abbrev lvz : GSem nD τ sig → Unit → ℕ := fun _ _ => 0
/-- What rides beside the buffers through every segment: the generator register at some state, nothing owed. -/
abbrev Rr (c : Dev nD) : sProp 𝕄 := iprop((∃ r, prngReg c r) ∗ ∃ W, owes (c : Thread nD τ) (0 : CellTallies nD τ sig Unit) W)

/-! ## Region 0's one array at two half shares -/

/-- A whole buffer read through its whole-buffer view is the buffer. -/
theorem whole_pt (c : Dev nD) (b : Ref sig .tc) (q : PosShare TreeShare) (f : Buf (Elt F) ((c : Thread nD τ).loc b)) :
    (((Memref.whole b).view.loc (c : Thread nD τ)) ↦[(Memref.whole b).view.set]{q} f : sProp 𝕄) = (((c : Thread nD τ).loc b) ↦{q} f) := by
  rw [(Memref.isWhole_whole b).set_eq_univ]

/-- The arrays of region 0 at contents `Fa`, window by window. -/
theorem arrays0_eq (c : Dev nD) (Fa : (w : Fin cfg0.W) → Buf (Elt F) ((cfg0.win w).arr.view.loc (c : Thread nD τ))) :
    ((pdats m 0 c).arrays Fa : sProp 𝕄)
      = iprop((((c : Thread nD τ).loc main_v41) ↦{fullShare.left} Fa 0) ∗ (((c : Thread nD τ).loc main_v41) ↦{fullShare.right} Fa 1)
          ∗ (((c : Thread nD τ).loc main_v42) ↦{fullShare} Fa 2)) := by
  unfold Dat.arrays
  rw [bigSep_W0]
  exact congrArg₂ _ (whole_pt c main_v41 fullShare.left (Fa 0)) (congrArg₂ _ (whole_pt c main_v41 fullShare.right (Fa 1)) (whole_pt c main_v42 fullShare (Fa 2)))

/-- The buffers behind region 0's arrays: the adjacency matrix and the result. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v41) ↦{fullShare} V main_v41) ∗ (((c : Thread nD τ).loc main_v42) ↦{fullShare} V main_v42)) := by
  unfold Pipeline.arrBufs
  rw [bigSep_eq_bigSepL_of_eq [main_v41, main_v42] (by decide) (by decide)]
  rfl

/-- ENTRY: the core's unscoped buffers at `V` are region 0's arrays at `V`'s contents — the adjacency matrix split in
    two halves — and the rest. -/
theorem split0 (c : Dev nD) (V : (b : Ref sig .tc) → Buf (Elt F) ((c : Thread nD τ).loc b))
    (Fa : (w : Fin cfg0.W) → Buf (Elt F) ((cfg0.win w).arr.view.loc (c : Thread nD τ)))
    (h0 : Fa 0 = V main_v41) (h1 : Fa 1 = V main_v41) (h2 : Fa 2 = V main_v42) :
    (unscopedBufs c V : sProp 𝕄) ⊢ iprop((pdats m 0 c).arrays Fa ∗ Pipeline.unscopedRest spec0 c V) := by
  rw [Pipeline.unscopedBufs_split₀ (Pipeline.pin (pcfgs (F := F)) adm) 0 winFacts₀0.arr_unscoped c V]
  show iprop((Pipeline.arrBufs (Ix := Unit) (Name := ℕ) (U := UR sig nD τ) (Lvl := ℕ) spec0 c V : sProp 𝕄) ∗ Pipeline.unscopedRest spec0 c V) ⊢ _
  rw [arrBufs0_eq, arrays0_eq, h0, h1, h2]
  iintro ⟨⟨Ha, Hb⟩, Hr⟩
  ihave Hs := (pointsTo_share (PosShare.mem_left_op_right fullShare)).1 $$ Ha
  icases Hs with ⟨Hl, Hrr⟩
  isplitr [Hr]
  · isplitl [Hl]; · iexact Hl
    isplitl [Hrr]; · iexact Hrr
    iexact Hb
  iexact Hr

/-- EXIT: the arrays at contents that agree on the shared array, and the rest, are the unscoped buffers at any
    valuation that has the arrays there and agrees with `V` off them. -/
theorem join0 (c : Dev nD) (V V' : (b : Ref sig .tc) → Buf (Elt F) ((c : Thread nD τ).loc b))
    (Fa : (w : Fin cfg0.W) → Buf (Elt F) ((cfg0.win w).arr.view.loc (c : Thread nD τ)))
    (h0 : Fa 0 = V' main_v41) (h1 : Fa 1 = V' main_v41) (h2 : Fa 2 = V' main_v42)
    (hrest : ∀ b, b ∉ Finset.univ.image (Pipeline.arrRef spec0) → V' b = V b) :
    iprop((pdats m 0 c).arrays Fa ∗ Pipeline.unscopedRest spec0 c V) ⊢ (unscopedBufs c V' : sProp 𝕄) := by
  rw [Pipeline.unscopedBufs_split₀ (Pipeline.pin (pcfgs (F := F)) adm) 0 winFacts₀0.arr_unscoped c V']
  show _ ⊢ iprop((Pipeline.arrBufs (Ix := Unit) (Name := ℕ) (U := UR sig nD τ) (Lvl := ℕ) spec0 c V' : sProp 𝕄) ∗ Pipeline.unscopedRest spec0 c V')
  rw [arrBufs0_eq, arrays0_eq, h0, h1, h2]
  refine sep_mono ?_ (Entails.of_eq ?_)
  · iintro ⟨Hl, Hrr, Hb⟩
    isplitl [Hl Hrr]
    · iapply (pointsTo_share (PosShare.mem_left_op_right fullShare)).2
      isplitl [Hl] <;> iassumption
    iexact Hb
  · unfold Pipeline.unscopedRest
    exact (bigSep_congr fun b hb => by rw [hrest b (Finset.mem_sdiff.mp hb).2]).symm

/-! ## The valuations after the regions, read off the entry contents -/

theorem W8_of (c : Dev nD) (r : Ref sig .tc) (h : r ∉ ([main_v42] : List (Ref sig .tc))) : W8 m c r = V7 m c r := by
  rw [← V8_eq]; exact V8_of m (outsF m) c r h
theorem W8_self (c : Dev nD) : W8 m c main_v42 = res0 m c := Function.update_self ..
theorem W10_of (c : Dev nD) (r : Ref sig .tc) (h : r ∉ ([main_v50] : List (Ref sig .tc))) : W10 m c r = W9 m c r := by
  rw [← V10_eq, ← V9_eq]; exact V10_of m (outsF m) c r h
theorem W10_self (c : Dev nD) : W10 m c main_v50 = res1 m c := Function.update_self ..

theorem pdats0_A (c : Dev nD) (w : Fin cfg0.W) : (pdats m 0 c).A w = E0 m c (Pipeline.arrRef spec0 w) := A_eq0 (E0 m) q0 c w
theorem pdats1_A (c : Dev nD) (w : Fin cfg1.W) : (pdats m 1 c).A w = E1 m c (Pipeline.arrRef spec1 w) := A_eq1 (E1 m) q1 c w

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0: entered from every unscoped buffer at the contents the host operations before it leave, left with the
    result array at what its write-backs leave and every other buffer as entered. The adjacency matrix is split into
    two half shares for the two input windows and joined again at the exit; the generator register goes into the
    invariant and comes back; nothing is owed; the kernel has no semaphore of its own. -/
def reg0 : Pipeline.RegionSeg (pcfgs (F := F)) adm (pdats m) () defs₀ Variants.none Lz lvz 0 where
  win := winFacts₀0
  block_pos := block_pos0
  stage_whole := stage_whole0
  K := PEmpty
  osem k := k.elim
  ho := Pipeline.OwnSemFacts.none _
  hbody c := (body_obligation0 (E0 m) q0 c).loose
  hwaits := Pipeline.hwaits_of_owed_zero _ _ _ _ Lz lvz 0 fun _ _ => rfl
  pre c := iprop(StableHlo.held (c : Thread nD τ) (Pipeline.ucRefs τ sig) (V7 m c) ∗ Rr c)
  post c := iprop(StableHlo.held (c : Thread nD τ) (Pipeline.ucRefs τ sig) (W8 m c) ∗ Rr c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := split0 m c (E0 m c) ((pdats m 0 c).arrAt · 0) (pdats0_A m c 0) (pdats0_A m c 1) (pdats0_A m c 2)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E0 m) q0 c)
    unfold Pipeline.ΦA
    iintro ⟨Hp, -, Hr⟩
    isplitl [Hr]; · iexact Hr
    iexact Hp
  hout c := by
    rw [Pipeline.ownSems0_none]
    refine BIBase.Entails.trans (hout0 (E0 m) q0 c) ?_
    unfold Pipeline.ΦA
    iintro ⟨Hr, Hp⟩
    isplitl [Hp]; · iexact Hp
    isplitr; · iempintro
    iexact Hr
  hexit c := by
    have hjoin := join0 m c (E0 m c) (fun b => W8 m c b) ((pdats m 0 c).arrAt · cfg0.N)
      ((((pdats m 0 c).arrAt_in 0 rfl _).trans (pdats0_A m c 0)).trans (W8_of m c main_v41 (by decide)).symm)
      ((((pdats m 0 c).arrAt_in 1 rfl _).trans (pdats0_A m c 1)).trans (W8_of m c main_v41 (by decide)).symm)
      (W8_self m c).symm
      (fun b hb => W8_of m c b (fun h => hb (by
        rcases List.mem_singleton.mp h with rfl
        exact Finset.mem_image.mpr ⟨2, Finset.mem_univ _, rfl⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: its three arrays are distinct buffers, held whole. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (E1 m) q1 c).loose
  hwaits := Pipeline.hwaits_of_owed_zero _ _ _ _ Lz lvz 1 fun _ _ => rfl
  pre c := iprop(StableHlo.held (c : Thread nD τ) (Pipeline.ucRefs τ sig) (W9 m c) ∗ Rr c)
  post c := iprop(StableHlo.held (c : Thread nD τ) (Pipeline.ucRefs τ sig) (W10 m c) ∗ Rr c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) (pdats1_A m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E1 m) q1 c)
    unfold Pipeline.ΦA
    iintro ⟨Hp, -, Hr⟩
    isplitl [Hr]; · iexact Hr
    iexact Hp
  hout c := by
    rw [Pipeline.ownSems0_none]
    refine BIBase.Entails.trans (hout1 (E1 m) q1 c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => W10 m c b) ((pdats m 1 c).arrAt · cfg1.N)
      (fun w => match w with
        | ⟨0, _⟩ => (((pdats m 1 c).arrAt_in 0 rfl _).trans (pdats1_A m c 0)).trans (W10_of m c main_v42 (by decide)).symm
        | ⟨1, _⟩ => (((pdats m 1 c).arrAt_in 1 rfl _).trans (pdats1_A m c 1)).trans (W10_of m c main_v41 (by decide)).symm
        | ⟨2, _⟩ => (W10_self m c).symm)
      (fun b hb => W10_of m c b (fun h => hb (by
        rcases List.mem_singleton.mp h with rfl
        exact Finset.mem_image.mpr ⟨2, Finset.mem_univ _, rfl⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The chain between the segments -/

theorem hpost0 (c : Dev nD) : (reg0 m).post c ⊢ iprop(StableHlo.held (c : Thread nD τ) (Pipeline.ucRefs τ sig) (V8 m (outsF m) c) ∗ Rr c) := by
  rw [V8_eq]; exact .rfl
theorem hpre1 (c : Dev nD) : iprop(StableHlo.held (c : Thread nD τ) (Pipeline.ucRefs τ sig) (V9 m (outsF m) c) ∗ Rr c) ⊢ (reg1 m).pre c := by
  rw [V9_eq]; exact .rfl
theorem hpost1 (c : Dev nD) : (reg1 m).post c ⊢ iprop(StableHlo.held (c : Thread nD τ) (Pipeline.ucRefs τ sig) (V10 m (outsF m) c) ∗ Rr c) := by
  rw [V10_eq]; exact .rfl

/-! ## The frame -/

/-- The launch element: the pipeline library's at the staging cells. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core, beside its buffers, makes the riding state. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lz lvz)
    ⊢ (|={Set.univ}=> bigSep Finset.univ (fun c : Dev nD => Rr (F := F) c) : sProp 𝕄) := by
  refine Pipeline.initEach Lz lvz fun c => ?_
  iintro ⟨⟨-, HO, -, Hp, -⟩, -⟩
  imodintro
  isplitl [Hp]; · iexists _; iexact Hp
  iexists ∅; iexact HO

/-- THE FRAME: from any memory with zero counters every weakly fair execution of @main terminates, nothing faulting,
    and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond m emb₁ () Variants.none Lz lvz (fun _ _ => rfl) ρ (outsF m) (pdats m) 0 (fun _ => iprop(emp))
    (initOf (Pipeline.cells cfgs cellOf_inj) (Pipeline.launchToks cfgs cellOf_inj)) hu₀
    (fun _ c => Rr c) (hE0 ρ) (fun c => by iintro ⟨-, HO⟩; iexact HO)
    (reg0 m) (fun c => .rfl) (hpost0 m)
    (reg1 m) (hpre1 m) (hpost1 m)

/-- The launch: each core's unscoped buffers are held at the launch contents, and what else the launch deals makes the
    riding state, whatever that is. -/
theorem hinit_of (R : Dev nD → sProp 𝕄)
    (hR : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lz lvz)
      ⊢ (|={Set.univ}=> bigSep Finset.univ R : sProp 𝕄)) :
    iprop((bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lz lvz)
      ⊢ (|={Set.univ}=> bigSep Finset.univ (fun c : Dev nD => iprop(StableHlo.held (c : Thread nD τ) (Pipeline.ucRefs τ sig) (V0 m c) ∗ R c)) : sProp 𝕄) := by
  have hsplit : (bigSep Finset.univ fun c : Dev nD => iprop(unscopedBufs c (fun b => m ((c.tc : Thread nD τ).loc b)) ∗ unscopedSems0 c
        ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
          : sProp 𝕄) := by
    rw [← bigSep_sep']
    exact bigSep_mono fun c _ => by rw [← Pipeline.unscopedBufs_held (Ix := Unit) (Name := ℕ) (U := UR sig nD τ) (Lvl := ℕ) c (V0 m c)]; exact BI.Entails.refl _
  iintro ⟨H, Hla⟩
  ihave H' := hsplit $$ H
  icases H' with ⟨Hh, Hr⟩
  imod hR $$ [Hr Hla] with HE
  · isplitl [Hr]; · iexact Hr
    iexact Hla
  imodintro
  rw [bigSep_sep']
  isplitl [Hh]; · iexact Hh
  iexact HE

/-! ## The run with every unscoped buffer read back -/

set_option backward.isDefEq.respectTransparency.types false in
/-- From any memory with zero counters every weakly fair execution of @main terminates, nothing faulting, and every
    unscoped buffer of every core ends at the last valuation: the launch contents, then each host stretch's operations,
    then what each region leaves in its result array. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V11 m (outsF m) c b) := by
  refine Pipeline.θ_run_regions_kit_dev (pcfgs (F := F)) adm (pdats m) () cellOf_inj emb₁ defs₀ Variants.none Lz lvz m ρ main
    (segs m (outsF m) Variants.none Lz lvz (fun _ c => Rr c) () (pdats m) (reg0 m) (reg1 m))
    (fun c Q => by
      rewrite [main_chain c, Pipeline.Seg.run_eq_chain,
        show (segs m (outsF m) Variants.none Lz lvz (fun _ c => Rr c) () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide) 0 (fun _ _ => rfl) (fun _ => iprop(emp))
    (initOf (Pipeline.cells cfgs cellOf_inj) (Pipeline.launchToks cfgs cellOf_inj)) hu₀
    (T₀ := fun c => iprop(StableHlo.held (c : Thread nD τ) (Pipeline.ucRefs τ sig) (V0 m c) ∗ Rr c))
    (Tₙ := fun c => StableHlo.held (c : Thread nD τ) (Pipeline.ucRefs τ sig) (V11 m (outsF m) c))
    (hch := fun c => ⟨.rfl, .rfl, .rfl, .rfl, .rfl, .rfl, .rfl, .rfl, hpost0 m c, hpre1 m c, hpost1 m c,
      sep_mono .rfl (by iintro ⟨-, HO⟩; iexact HO)⟩)
    (hinit := hinit_of m ρ (fun c => Rr c) (hE0 ρ)) (QY := fun c s => ∀ b ∈ Pipeline.ucRefs τ sig, s.mem (((c : Thread nD τ)).1, b) = V11 m (outsF m) c b)
    (hfin := fun c s' => ?_) (hQ := fun _ h => h)
  · unfold StableHlo.held
    iintro ⟨Hh, HSI⟩
    imodintro
    iapply (pointsTo_read_all (Pipeline.ucRefs τ sig) (fun b => (((c : Thread nD τ)).1, b)) (V11 m (outsF m) c) s')
    isplitl [Hh] <;> iassumption

end Cert.KernelIdeal.Gen

end
-- ==== Proof.BoolMM.lean ====
/-
  The boolean matrix product, as one function of two 8192×8192 arrays of extended reals.

  Entry (r, c) is 1 when the running total of the eight tiles of width 1024 along the contracted axis,
  taken in order from zero, is positive, and 0 otherwise.  A tile's contribution at (r, c) is
  ∑_{l < 1024} x[r, 1024·k + l] · y[1024·k + l, c].
-/
import Idealize.ShloMosaic.PureOps.Ideal
import Idealize.ShloMosaic.Lib.ValueIdx

noncomputable section

namespace Cert.BoolMM

open Idealize.ShloMosaic Idealize.ShloMosaic.ValueIdx

/-- The square shape both operands and the result have. -/
abbrev SQ : Shape := ⟨2, ![8192, 8192]⟩

/-- Tile `k`'s contribution to entry (r, c): the products along columns 1024·k … 1024·k + 1023 of row `r` of `x`
    against the same rows of column `c` of `y`, summed. -/
def tile (x y : SQ.Idx → EReal) (r c : Fin 8192) (k : Fin 8) : EReal :=
  ∑ l : Fin 1024, x (ix2 r (⟨1024 * k.val + l.val, by omega⟩ : Fin 8192)) * y (ix2 (⟨1024 * k.val + l.val, by omega⟩ : Fin 8192) c)

/-- The running total after tiles 0 … n, each added on the right of what was there, the first onto zero. -/
def total (x y : SQ.Idx → EReal) (r c : Fin 8192) : ℕ → EReal
  | 0 => 0 + tile x y r c 0
  | n + 1 => total x y r c n + tile x y r c ⟨(n + 1) % 8, Nat.mod_lt _ (by decide)⟩

/-- Entry (r, c) of the boolean product: 1 when the total over all eight tiles is positive, else 0. -/
def entry (x y : SQ.Idx → EReal) (r c : Fin 8192) : EReal :=
  if 0 < total x y r c 7 then 1 else 0

/-- The boolean product as an array. -/
def boolMM (x y : SQ.Idx → EReal) : SQ.Idx → EReal :=
  fun i => entry x y ⟨(i 0).val, (i 0).isLt⟩ ⟨(i 1).val, (i 1).isLt⟩

end Cert.BoolMM

end
-- ==== Proof.LibTiles.lean ====
/-
  A running total taken tile by tile is the total.

  Let f be a function on the natural numbers with values in a commutative additive monoid (the extended reals are one),
  and B a tile width.  Start from 0 + (the sum of f over the first tile) and, tile after tile, add the sum of f over
  the next B arguments: after tile k the running total is the sum of f over the first (k + 1) · B naturals.  Only
  0 + x = x and the associativity of addition are used, so nothing needs to be finite.
  A function given on `Fin n` is carried to the naturals by extending it with zero; with (k + 1) · B = n the running
  total of the extension is the sum over `Fin n`, and the sum over `Fin (T · B)` is the double sum over tiles and
  places in a tile.  The two tilings used are spelt out: 32 tiles of width 1024 and 4 tiles of width 2048.
-/
import Idealize.ShloMosaic.PureOps.Ideal

noncomputable section

namespace Cert.Lib.Tiles

open scoped BigOperators

variable {M : Type*} [AddCommMonoid M]

/-- The running total after tile `k`: tile 0 is added to zero, every later tile to the total so far. -/
def runTot (f : ℕ → M) (B : ℕ) : ℕ → M
  | 0 => 0 + ∑ j : Fin B, f (0 * B + j.val)
  | k + 1 => runTot f B k + ∑ j : Fin B, f ((k + 1) * B + j.val)

theorem runTot_zero (f : ℕ → M) (B : ℕ) : runTot f B 0 = 0 + ∑ j : Fin B, f (0 * B + j.val) := rfl

theorem runTot_succ (f : ℕ → M) (B k : ℕ) :
    runTot f B (k + 1) = runTot f B k + ∑ j : Fin B, f ((k + 1) * B + j.val) := rfl

/-- After tile `k` the running total is the sum over the first `(k + 1) · B` naturals. -/
theorem runTot_eq (f : ℕ → M) (B : ℕ) : ∀ k : ℕ, runTot f B k = ∑ j ∈ Finset.range ((k + 1) * B), f j
  | 0 => by
    rw [runTot_zero, zero_add, Nat.zero_add, Nat.one_mul, Finset.sum_range]
    exact Finset.sum_congr rfl fun j _ => by rw [Nat.zero_mul, Nat.zero_add]
  | k + 1 => by
    rw [runTot_succ, runTot_eq f B k, Nat.succ_mul (k + 1) B, Finset.sum_range_add,
      Finset.sum_range (fun x => f ((k + 1) * B + x))]

/-- A function on `Fin n` extended by zero to all naturals. -/
def ext {n : ℕ} (g : Fin n → M) (j : ℕ) : M := if h : j < n then g ⟨j, h⟩ else 0

theorem ext_of_lt {n : ℕ} (g : Fin n → M) {j : ℕ} (h : j < n) : ext g j = g ⟨j, h⟩ := dif_pos h

/-- The sum over `Fin n` is the sum of the extension over the first `n` naturals. -/
theorem sum_ext {n : ℕ} (g : Fin n → M) : ∑ j ∈ Finset.range n, ext g j = ∑ j : Fin n, g j := by
  rw [Finset.sum_range]
  exact Finset.sum_congr rfl fun j _ => ext_of_lt g j.isLt

/-- With `(k + 1) · B = n`, the running total of the extension after tile `k` is the sum over `Fin n`. -/
theorem runTot_ext {n : ℕ} (g : Fin n → M) (B k : ℕ) (h : (k + 1) * B = n) :
    runTot (ext g) B k = ∑ j : Fin n, g j := by
  rw [runTot_eq, h, sum_ext]

/-- The sum of `f` over `T` consecutive tiles of width `B` is its sum over the first `T · B` naturals. -/
theorem sum_tiles (f : ℕ → M) (B : ℕ) :
    ∀ T : ℕ, ∑ s ∈ Finset.range T, ∑ k : Fin B, f (s * B + k.val) = ∑ j ∈ Finset.range (T * B), f j
  | 0 => by simp
  | T + 1 => by
    rw [Finset.sum_range_succ, sum_tiles f B T, Nat.succ_mul, Finset.sum_range_add,
      Finset.sum_range (fun x => f (T * B + x))]

/-- The sum over `Fin (T · B)` is the double sum over the tile and the place in the tile. -/
theorem sum_fin_tiles (T B : ℕ) (g : Fin (T * B) → M) :
    ∑ j : Fin (T * B), g j = ∑ s : Fin T, ∑ k : Fin B, ext g (s.val * B + k.val) := by
  rw [← sum_ext g, ← Finset.sum_range (fun s => ∑ k : Fin B, ext g (s * B + k.val))]
  exact (sum_tiles (ext g) B T).symm

/-- 32 tiles of width 1024: the running total after the last tile is the sum over all 32768 places. -/
theorem runTot_32x1024 (g : Fin 32768 → M) : runTot (ext g) 1024 31 = ∑ j : Fin 32768, g j :=
  runTot_ext g 1024 31 (by norm_num)

/-- 4 tiles of width 2048: the running total after the last tile is the sum over all 8192 places. -/
theorem runTot_4x2048 (g : Fin 8192 → M) : runTot (ext g) 2048 3 = ∑ j : Fin 8192, g j :=
  runTot_ext g 2048 3 (by norm_num)

/-- Place `j` of tile `s` among 32 tiles of width 1024, read from the extension. -/
theorem ext_32x1024 (g : Fin 32768 → M) (s : Fin 32) (j : Fin 1024) :
    ext g (s.val * 1024 + j.val) = g ⟨s.val * 1024 + j.val, by have := s.isLt; have := j.isLt; omega⟩ :=
  ext_of_lt g _

/-- Place `j` of tile `s` among 4 tiles of width 2048, read from the extension. -/
theorem ext_4x2048 (g : Fin 8192 → M) (s : Fin 4) (j : Fin 2048) :
    ext g (s.val * 2048 + j.val) = g ⟨s.val * 2048 + j.val, by have := s.isLt; have := j.isLt; omega⟩ :=
  ext_of_lt g _

end Cert.Lib.Tiles

end
-- ==== Proof.BoolMMLaw.lean ====
/-
  The running total over the eight tiles is the sum over the whole contracted axis.

  Entry (r, c)'s total adds, from zero and in order, the eight tile sums of the products x[r, k] · y[k, c] over
  k = 1024·t … 1024·t + 1023.  The extended reals are a commutative additive monoid and 0 + a = a, so the eight
  consecutive blocks of 1024 regroup into the one sum over all 8192 places.  Nothing needs to be finite.
-/
import proofs.«156333_j37684043055138_1_alg».proof.Proof.BoolMM
import proofs.«156333_j37684043055138_1_alg».proof.Proof.LibTiles
import Idealize.ShloMosaic.PureOps.Ideal.Laws

noncomputable section

namespace Cert.BoolMM

open Idealize.ShloMosaic Idealize.ShloMosaic.ValueIdx Cert.Lib.Tiles
open scoped BigOperators

/-- The product at place `k` of the contracted axis for entry (r, c). -/
def term (x y : SQ.Idx → EReal) (r c : Fin 8192) (k : Fin 8192) : EReal := x (ix2 r k) * y (ix2 k c)

theorem total_zero (x y : SQ.Idx → EReal) (r c : Fin 8192) : total x y r c 0 = 0 + tile x y r c 0 := rfl

theorem total_succ (x y : SQ.Idx → EReal) (r c : Fin 8192) (n : ℕ) :
    total x y r c (n + 1) = total x y r c n + tile x y r c ⟨(n + 1) % 8, Nat.mod_lt _ (by decide)⟩ := rfl

/-- Tile `k` is the sum of the products over the `k`-th block of 1024 places. -/
theorem tile_eq (x y : SQ.Idx → EReal) (r c : Fin 8192) (k : Fin 8) :
    tile x y r c k = ∑ j : Fin 1024, ext (term x y r c) (k.val * 1024 + j.val) := by
  unfold tile
  refine Finset.sum_congr rfl fun l _ => ?_
  have hk := k.isLt
  have hl := l.isLt
  rw [ext_of_lt (term x y r c) (by omega : k.val * 1024 + l.val < 8192)]
  exact congrArg (term x y r c) (Fin.ext (by show 1024 * k.val + l.val = k.val * 1024 + l.val; omega))

/-- The running total after tile `n` is the block-by-block running total of the products. -/
theorem total_eq_runTot (x y : SQ.Idx → EReal) (r c : Fin 8192) :
    ∀ n : ℕ, n < 8 → total x y r c n = runTot (ext (term x y r c)) 1024 n
  | 0, _ => by
    rw [total_zero, runTot_zero, tile_eq]
    rfl
  | n + 1, h => by
    rw [total_succ, runTot_succ, total_eq_runTot x y r c n (by omega), tile_eq]
    have hm : (n + 1) % 8 = n + 1 := Nat.mod_eq_of_lt h
    simp only [hm]

/-- The total over all eight tiles is the sum over the whole contracted axis. -/
theorem total_eq_sum (x y : SQ.Idx → EReal) (r c : Fin 8192) :
    total x y r c 7 = ∑ k : Fin 8192, x (ix2 r k) * y (ix2 k c) := by
  rw [total_eq_runTot x y r c 7 (by norm_num), runTot_ext (term x y r c) 1024 7 (by norm_num)]
  rfl

/-- Comparing with zero and converting the one-bit answer, at the extended reals, is the 0/1 indicator of positivity. -/
theorem uitofp_cmp_pos (s : EReal) :
    (FloatOps.uitofp (F := Ideal) .f32
        (FloatOps.cmpf (F := Ideal) (φ := .f32) .ogt s (FloatOps.ofBits (F := Ideal) .f32 0x00000000#32)) : EReal)
      = if 0 < s then 1 else 0 := by
  show (((Ideal.cmp .ogt s (Ideal.ofBits .f32 0x00000000#32)).toNat : ℝ) : EReal) = _
  rw [Ideal.ofBits_zero_f32]
  unfold Ideal.cmp
  by_cases h : 0 < s <;> simp [h]

/-- An entry of the boolean product is the converted bit of "the sum over the contracted axis is above zero". -/
theorem entry_eq_bit (x y : SQ.Idx → EReal) (r c : Fin 8192) :
    entry x y r c = (FloatOps.uitofp (F := Ideal) .f32
        (FloatOps.cmpf (F := Ideal) (φ := .f32) .ogt (∑ k : Fin 8192, x (ix2 r k) * y (ix2 k c))
          (FloatOps.ofBits (F := Ideal) .f32 0x00000000#32)) : EReal) := by
  rw [uitofp_cmp_pos, entry, total_eq_sum]

end Cert.BoolMM

end
-- ==== Proof.KIPayload.lean ====
/-
  The kernel's three payloads read at an entry, over the extended reals.

  One grid step works on 1024×1024 tiles.  The first payload is the accumulator's initial value, zero everywhere.  The
  second adds to the accumulator at (p, q) the products a[p, l] · b[l, q] summed over the 1024 places l of the tile: the
  matrix unit's product into a zero accumulator is exactly that sum, and the reshapes to the same shape change nothing.
  The third compares the accumulator with zero, widens the one-bit answer to 32 bits, reads it as a signed integer and
  converts it: 1 where the accumulator is above zero and 0 elsewhere (the narrowing to the shorter format is the identity
  on extended reals).
-/
import proofs.«156333_j37684043055138_1_alg».proof.Proof.Gen.KernelIdeal.Skeleton
import proofs.«156333_j37684043055138_1_alg».proof.Proof.BoolMMLaw
import Idealize.ShloMosaic.Lib.Pipeline.Value
import Idealize.ShloMosaic.Lib.ValueIdx
import Idealize.ShloMosaic.Lib.KernelVsHost
import Idealize.ShloMosaic.PureOps.Ideal.Laws

noncomputable section

namespace Cert.KernelIdeal.PayValue

open Cert.KernelIdeal Cert.KernelIdeal.Gen Idealize.ShloMosaic Idealize.ShloMosaic.ValueIdx
open scoped BigOperators

/-- The left operand's row coordinate in the contraction is the output's row. -/
theorem lhs_row (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl

/-- The right operand's column coordinate in the contraction is the output's column. -/
theorem rhs_col (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- A 1024×1024 product into a zero accumulator, read at (p, q): the sum over the contracted axis. -/
theorem matmul_zero_at (a b : FVec Ideal S1024x1024 .bf16) (p q : Fin 1024) :
    FloatOps.matmul dot_S1024x1024_S1024x1024_S1024x1024_1_0_0_1_n_n none a b (constant (F := Ideal) S1024x1024 .f32 0x00000000#32) (ix2 p q)
      = ∑ l : Fin 1024, a (ix2 p l) * b (ix2 l q) := by
  rw [Ideal.matmul_constant_zero_apply, ← Equiv.sum_comp (contrEquiv1 dot_S1024x1024_S1024x1024_S1024x1024_1_0_0_1_n_n 1024 rfl rfl).symm]
  refine Finset.sum_congr rfl fun l _ => ?_
  have hk := contrEquiv1_symm_val dot_S1024x1024_S1024x1024_S1024x1024_1_0_0_1_n_n 1024 rfl rfl l
  have el : dot_S1024x1024_S1024x1024_S1024x1024_1_0_0_1_n_n.lhsIdx (ix2 p q) ((contrEquiv1 dot_S1024x1024_S1024x1024_S1024x1024_1_0_0_1_n_n 1024 rfl rfl).symm l) = ix2 p l := funext fun d => Fin.ext (by
    match d with
    | ⟨0, _⟩ => exact lhs_row _ _
    | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 p q) ((contrEquiv1 dot_S1024x1024_S1024x1024_S1024x1024_1_0_0_1_n_n 1024 rfl rfl).symm l) = ix2 l q := funext fun d => Fin.ext (by
    match d with
    | ⟨0, _⟩ => exact (dot_S1024x1024_S1024x1024_S1024x1024_1_0_0_1_n_n.rhsIdx_val_of_single rfl _ _).trans hk
    | ⟨1, _⟩ => exact rhs_col _ _)
  rw [el, er]

/-- Compare with zero, widen the bit to 32 bits, read it signed, convert: the 0/1 indicator of positivity. -/
theorem bit_of_pos (s : EReal) :
    ((((Ideal.cmp .ogt s (Ideal.ofBits .f32 0x00000000#32)).setWidth 32).toInt : ℝ) : EReal) = if 0 < s then 1 else 0 := by
  rw [Ideal.ofBits_zero_f32, toInt_setWidth_bit]
  unfold Ideal.cmp
  by_cases h : 0 < s <;> simp [h]

/-- Payload 1 of function 0: the accumulator's initial value is zero everywhere. -/
theorem k0_pay1_at (p q : Fin 1024) : k0_pay1 (F := Ideal) (ix2 p q) = 0 := by
  unfold k0_pay1
  simp only [shapeCast_self]
  show Ideal.ofBits .f32 0x00000000#32 = 0
  exact Ideal.ofBits_zero_f32

/-- Payload 2 of function 0: the accumulator plus this step's tile of products. -/
theorem k0_pay2_at (xs : Vec Ideal S1024x1024 .f32) (a b : Vec Ideal S1024x1024 .bf16) (p q : Fin 1024) :
    k0_pay2 (F := Ideal) xs a b (ix2 p q) = xs (ix2 p q) + ∑ l : Fin 1024, a (ix2 p l) * b (ix2 l q) := by
  unfold k0_pay2
  simp only [shapeCast_self]
  rw [addf_apply]
  simp only [matmul]
  rw [matmul_zero_at]

/-- Payload 3 of function 0: 1 where the accumulator is above zero, 0 elsewhere. -/
theorem k0_pay3_at (acc : Vec Ideal S1024x1024 .f32) (p q : Fin 1024) :
    k0_pay3 (F := Ideal) acc (ix2 p q) = if 0 < acc (ix2 p q) then 1 else 0 := by
  unfold k0_pay3
  exact bit_of_pos (acc (ix2 p q))

/-- Payload 1 of function 1: the accumulator's initial value is zero everywhere. -/
theorem k1_pay1_at (p q : Fin 1024) : k1_pay1 (F := Ideal) (ix2 p q) = 0 := by
  unfold k1_pay1
  simp only [shapeCast_self]
  show Ideal.ofBits .f32 0x00000000#32 = 0
  exact Ideal.ofBits_zero_f32

/-- Payload 2 of function 1: the accumulator plus this step's tile of products. -/
theorem k1_pay2_at (xs : Vec Ideal S1024x1024 .f32) (a b : Vec Ideal S1024x1024 .bf16) (p q : Fin 1024) :
    k1_pay2 (F := Ideal) xs a b (ix2 p q) = xs (ix2 p q) + ∑ l : Fin 1024, a (ix2 p l) * b (ix2 l q) := by
  unfold k1_pay2
  simp only [shapeCast_self]
  rw [addf_apply]
  simp only [matmul]
  rw [matmul_zero_at]

/-- Payload 3 of function 1: 1 where the accumulator is above zero, 0 elsewhere. -/
theorem k1_pay3_at (acc : Vec Ideal S1024x1024 .f32) (p q : Fin 1024) :
    k1_pay3 (F := Ideal) acc (ix2 p q) = if 0 < acc (ix2 p q) then 1 else 0 := by
  unfold k1_pay3
  exact bit_of_pos (acc (ix2 p q))

end Cert.KernelIdeal.PayValue

end
-- ==== Proof.KIValue0.lean ====
/-
  Region 0's value: after the region its output array is the boolean product of its two operand arrays.

  The grid point t = (i·8 + j)·8 + k reads block (i, k) of the left operand and block (k, j) of the right one.  What each
  of the three cases of a point leaves in the accumulator and in the output block is one payload of the blocks and of
  what the accumulator held; so by induction on the point the accumulator after t holds at (p, q) the running total over
  tiles 0 … k of entry (1024·i + p, 1024·j + q), and at k = 7 the output block holds the positivity of the total over all
  eight tiles, which is the entry of the boolean product.  The 64 points with k = 7 write their blocks back, and entry
  (r, s) of the array lies in the block of the point (r / 1024, s / 1024, 7).
-/
import proofs.«156333_j37684043055138_1_alg».proof.Proof.KernelIdealDat0
import proofs.«156333_j37684043055138_1_alg».proof.Proof.KIPayload
import proofs.«156333_j37684043055138_1_alg».proof.Proof.BoolMMLaw
import Idealize.ShloMosaic.Lib.Pipeline.Value
import Idealize.ShloMosaic.Lib.ValueIdx
import Idealize.ShloMosaic.Lib.Tactic

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.Sem
open Idealize.ShloMosaic.Pipeline (Dat Cfg Window)
open scoped BigOperators

/-! # Region 0: the output array after the region is the boolean product of its two operand arrays

The accumulator after the point (i, j, k) holds, at (p, q), the running total over tiles 0 … k of entry
(1024·i + p, 1024·j + q); at tile 7 the output block is the positivity of that total; the 64 blocks written back
at the points of tile 7 cover the output array. -/

section pieces

variable {F : FTy → Type} [FloatOps F]

/-- The zero offsets, however spelt. -/
theorem hz0 : (![0, 0] : Fin 2 → Nat) = fun _ => 0 := funext fun a => by fin_cases a <;> rfl

/-- Tile 0 leaves in the accumulator the product of its two blocks added onto the zeros it first stores there. -/
theorem sout0_A_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 x1 : Vec F S1024x1024 .bf16) :
    sout0_A c i arg3 harg3 arg4 harg4 arg5 harg5 arg6 harg6 hc0 hc1 x0 x1 = k0_pay2 k0_pay1 x0 x1 := by
  unfold sout0_A
  rw [View.read_writes_eq_canon _ _ _ (scover0_A c i arg3 harg3 arg4 harg4 arg5 harg5 arg6 harg6 hc0 hc1 x0 x1)]
  unfold kernelRun0_A
  dsimp only
  sl_unfold_words
  rw [View.canon_cons_unit_zero (S := S1024x1024) hz0, View.readCov_unit_zero (S := S1024x1024) _ hz0]
  simp only [View.readAt_eq_ld, harg3.read_unread, harg4.read_unread, View.ld_unit_zero (S := S1024x1024) hz0]

/-- A middle tile leaves in the accumulator the product of its two blocks added onto what the accumulator held. -/
theorem sout0_B_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : ¬cond0_1 i)
    (x0 x1 : Vec F S1024x1024 .bf16) (xs : Vec F S1024x1024 .f32) :
    sout0_B c i arg3 harg3 arg4 harg4 arg5 harg5 arg6 harg6 hc0 hc1 x0 x1 xs = k0_pay2 xs x0 x1 := by
  unfold sout0_B
  rw [View.read_writes_eq_canon _ _ _ (scover0_B c i arg3 harg3 arg4 harg4 arg5 harg5 arg6 harg6 hc0 hc1 x0 x1 xs)]
  unfold kernelRun0_B
  dsimp only
  rw [View.canon_unit_zero (S := S1024x1024) hz0]
  simp only [View.readAt_eq_ld, harg3.read_unread, harg4.read_unread, harg6.read_unread, View.ld_unit_zero (S := S1024x1024) hz0]

/-- Tile 7 leaves the same in the accumulator, -/
theorem sout0_C_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 x1 : Vec F S1024x1024 .bf16) (xs : Vec F S1024x1024 .f32) :
    sout0_C c i arg3 harg3 arg4 harg4 arg5 harg5 arg6 harg6 hc0 hc1 x0 x1 xs = k0_pay2 xs x0 x1 := by
  unfold sout0_C
  rw [View.read_writes_eq_canon _ _ _ (scover0_C c i arg3 harg3 arg4 harg4 arg5 harg5 arg6 harg6 hc0 hc1 x0 x1 xs)]
  unfold kernelRun0_C
  dsimp only
  sl_unfold_words
  rw [View.canon_unit_zero (S := S1024x1024) hz0]
  simp only [View.readAt_eq_ld, harg3.read_unread, harg4.read_unread, harg6.read_unread, View.ld_unit_zero (S := S1024x1024) hz0]

/-- and in the output block the positivity of that sum. -/
theorem out0_C_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 x1 : Vec F S1024x1024 .bf16) (xs : Vec F S1024x1024 .f32) :
    out0_C c i arg3 harg3 arg4 harg4 arg5 harg5 arg6 harg6 hc0 hc1 x0 x1 xs = k0_pay3 (k0_pay2 xs x0 x1) := by
  unfold out0_C
  rw [View.read_writes_eq_canon _ _ _ (cover0_C c i arg3 harg3 arg4 harg4 arg5 harg5 arg6 harg6 hc0 hc1 x0 x1 xs)]
  unfold kernelRun0_C
  dsimp only
  sl_unfold_words
  rw [View.canon_unit_zero (S := S1024x1024) hz0, View.readCov_unit_zero (S := S1024x1024) _ hz0]
  simp only [View.readAt_eq_ld, harg3.read_unread, harg4.read_unread, harg6.read_unread, View.ld_unit_zero (S := S1024x1024) hz0]

/-- Where the two input windows' and the output window's blocks sit at point `t`. -/
theorem idx_facts0 : ∀ t : Fin cfg0.N,
    win0_0.index t (0 : Fin 2) = t.val / 64 ∧ win0_0.index t (1 : Fin 2) = t.val % 8
    ∧ win0_1.index t (0 : Fin 2) = t.val % 8 ∧ win0_1.index t (1 : Fin 2) = t.val / 8 % 8
    ∧ win0_2.index t (0 : Fin 2) = t.val / 64 ∧ win0_2.index t (1 : Fin 2) = t.val / 8 % 8 :=
  (by decide +kernel : ∀ t : Fin grid0.N, _)

variable (V : (c : Dev nD) → (b : Ref sig .tc) → Buf (Elt F) ((c : Thread nD τ).loc b))

/-- The left operand's block at point `t`, at (p, l): the operand at row 1024·(t / 64) + p, column 1024·(t % 8) + l. -/
theorem iblk0_0_at (c : Dev nD) (t : Fin cfg0.N) (p l : Fin 1024) (r k : Fin 8192)
    (hr : r.val = 1024 * (t.val / 64) + p.val) (hk : k.val = 1024 * (t.val % 8) + l.val) :
    (iblk0 V c 0 t : Vec F S1024x1024 .bf16) (ix2 p l) = (V c main_v41 : S8192x8192.Idx → Elt F .bf16) (ix2 r k) := by
  obtain ⟨e0, e1, -, -, -, -⟩ := idx_facts0 t
  unfold iblk0
  rw [View.read_apply]
  show V c main_v41 _ = V c main_v41 _
  congr 1
  funext a
  apply Fin.ext
  match a with
  | ⟨0, _⟩ => show win0_0.index t 0 * 1024 + 1 * p.val = r.val; rw [e0, hr]; omega
  | ⟨1, _⟩ => show win0_0.index t 1 * 1024 + 1 * l.val = k.val; rw [e1, hk]; omega

/-- The right operand's block at point `t`, at (l, q): the operand at row 1024·(t % 8) + l, column 1024·(t / 8 % 8) + q. -/
theorem iblk0_1_at (c : Dev nD) (t : Fin cfg0.N) (l q : Fin 1024) (k s : Fin 8192)
    (hk : k.val = 1024 * (t.val % 8) + l.val) (hs : s.val = 1024 * (t.val / 8 % 8) + q.val) :
    (iblk0 V c 1 t : Vec F S1024x1024 .bf16) (ix2 l q) = (V c main_v41 : S8192x8192.Idx → Elt F .bf16) (ix2 k s) := by
  obtain ⟨-, -, e0, e1, -, -⟩ := idx_facts0 t
  unfold iblk0
  rw [View.read_apply]
  show V c main_v41 _ = V c main_v41 _
  congr 1
  funext a
  apply Fin.ext
  match a with
  | ⟨0, _⟩ => show win0_1.index t 0 * 1024 + 1 * l.val = k.val; rw [e0, hk]; omega
  | ⟨1, _⟩ => show win0_1.index t 1 * 1024 + 1 * q.val = s.val; rw [e1, hs]; omega

end pieces

section value

variable (V : (c : Dev nD) → (b : Ref sig .tc) → Buf (Elt Ideal) ((c : Thread nD τ).loc b))

/-- The products of row `p` of one block against column `q` of another, summed over their 1024 places, are tile `k` of
    entry (r, s) when the blocks hold columns, respectively rows, 1024·k … 1024·k + 1023 of row `r` and column `s`. -/
theorem tile_of_blocks0 (x y : S8192x8192.Idx → EReal) (a b : Vec Ideal S1024x1024 .bf16) (p q : Fin 1024) (r s : Fin 8192) (k : Fin 8)
    (ha : ∀ l : Fin 1024, a (ix2 p l) = x (ix2 r (⟨1024 * k.val + l.val, by omega⟩ : Fin 8192)))
    (hb : ∀ l : Fin 1024, b (ix2 l q) = y (ix2 (⟨1024 * k.val + l.val, by omega⟩ : Fin 8192) s)) :
    ∑ l : Fin 1024, a (ix2 p l) * b (ix2 l q) = Cert.BoolMM.tile x y r s k := by
  unfold Cert.BoolMM.tile
  refine Finset.sum_congr rfl fun l _ => ?_
  rw [ha l, hb l]

/-- One point's products at (p, q), summed over the 1024 places of its two blocks, are the tile of the point's
    position along the contracted axis, for the entry (r, s) the accumulator's (p, q) stands for. -/
theorem tile_at0 (c : Dev nD) (t : Fin cfg0.N) (p q : Fin 1024) (r s : Fin 8192) (k : Fin 8)
    (hr : r.val = 1024 * (t.val / 64) + p.val) (hs : s.val = 1024 * (t.val / 8 % 8) + q.val) (hk : k.val = t.val % 8) :
    ∑ l : Fin 1024, (fun (a b : Vec Ideal S1024x1024 .bf16) => a (ix2 p l) * b (ix2 l q)) (iblk0 V c 0 t) (iblk0 V c 1 t)
      = Cert.BoolMM.tile (V c main_v41) (V c main_v41) r s k :=
  tile_of_blocks0 (V c main_v41) (V c main_v41) (iblk0 V c 0 t) (iblk0 V c 1 t) p q r s k
    (fun l => iblk0_0_at V c t p l r ⟨1024 * k.val + l.val, by omega⟩ hr (by show 1024 * k.val + l.val = _; rw [hk]))
    (fun l => iblk0_1_at V c t l q ⟨1024 * k.val + l.val, by omega⟩ s (by show 1024 * k.val + l.val = _; rw [hk]) hs)

/-- The accumulator after point `n`, at (p, q): the running total, over the tiles up to the point's, of the entry
    (r, s) of the product that (p, q) stands for in the point's output block. -/
theorem acc_eq0 (c : Dev nD) (p q : Fin 1024) :
    ∀ (n : ℕ) (h : n < cfg0.N) (r s : Fin 8192), r.val = 1024 * (n / 64) + p.val → s.val = 1024 * (n / 8 % 8) + q.val →
      ((outsAt0 (F := Ideal) V c n h).2 (ix2 p q) : EReal) = Cert.BoolMM.total (V c main_v41) (V c main_v41) r s (n % 8) := by
  intro n
  induction n using Nat.strong_induction_on with
  | _ n ih =>
    intro h r s hr hs
    by_cases h0 : n % 8 = 0
    · have h1 : ¬n % 8 = 7 := by omega
      rw [outsAt0_A V c ⟨n, h⟩ h0 h1]
      dsimp only
      refine (congrFun (sout0_A_eq (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0 (Memref.isWhole_whole _) _ _ (iblk0 V c 0 ⟨n, h⟩) (iblk0 V c 1 ⟨n, h⟩)) (ix2 p q)).trans ?_
      refine (PayValue.k0_pay2_at (k0_pay1 (F := Ideal)) (iblk0 V c 0 ⟨n, h⟩) (iblk0 V c 1 ⟨n, h⟩) p q).trans ?_
      rw [h0, Cert.BoolMM.total_zero]
      exact congrArg₂ (· + ·) (PayValue.k0_pay1_at p q) (tile_at0 V c ⟨n, h⟩ p q r s 0 hr hs (by show (0 : ℕ) = n % 8; omega))
    · obtain ⟨m, rfl⟩ : ∃ m, n = m + 1 := ⟨n - 1, by omega⟩
      have e8 : (m + 1) % 8 = m % 8 + 1 := by omega
      have ihm := ih m (Nat.lt_succ_self m) (Nat.lt_of_succ_lt h) r s (by omega) (by omega)
      by_cases h1 : (m + 1) % 8 = 7
      · rw [outsAt0_C V c ⟨m + 1, h⟩ h0 h1]
        dsimp only
        refine (congrFun (sout0_C_eq (F := Ideal) c (grid0.coords ⟨m + 1, h⟩) (ms0_0 ⟨m + 1, h⟩) (hs0_0 ⟨m + 1, h⟩) (ms0_1 ⟨m + 1, h⟩) (hs0_1 ⟨m + 1, h⟩) (ms0_2 ⟨m + 1, h⟩) (hs0_2 ⟨m + 1, h⟩) scM0 (Memref.isWhole_whole _) _ _ (iblk0 V c 0 ⟨m + 1, h⟩) (iblk0 V c 1 ⟨m + 1, h⟩) (outsAt0 V c m (Nat.lt_of_succ_lt h)).2) (ix2 p q)).trans ?_
        refine (PayValue.k0_pay2_at (outsAt0 V c m (Nat.lt_of_succ_lt h)).2 (iblk0 V c 0 ⟨m + 1, h⟩) (iblk0 V c 1 ⟨m + 1, h⟩) p q).trans ?_
        rw [e8, Cert.BoolMM.total_succ]
        exact congrArg₂ (· + ·) ihm (tile_at0 V c ⟨m + 1, h⟩ p q r s ⟨(m % 8 + 1) % 8, Nat.mod_lt _ (by decide)⟩ hr hs (by show (m % 8 + 1) % 8 = (m + 1) % 8; omega))
      · rw [outsAt0_B V c ⟨m + 1, h⟩ h0 h1]
        dsimp only
        refine (congrFun (sout0_B_eq (F := Ideal) c (grid0.coords ⟨m + 1, h⟩) (ms0_0 ⟨m + 1, h⟩) (hs0_0 ⟨m + 1, h⟩) (ms0_1 ⟨m + 1, h⟩) (hs0_1 ⟨m + 1, h⟩) (ms0_2 ⟨m + 1, h⟩) (hs0_2 ⟨m + 1, h⟩) scM0 (Memref.isWhole_whole _) _ _ (iblk0 V c 0 ⟨m + 1, h⟩) (iblk0 V c 1 ⟨m + 1, h⟩) (outsAt0 V c m (Nat.lt_of_succ_lt h)).2) (ix2 p q)).trans ?_
        refine (PayValue.k0_pay2_at (outsAt0 V c m (Nat.lt_of_succ_lt h)).2 (iblk0 V c 0 ⟨m + 1, h⟩) (iblk0 V c 1 ⟨m + 1, h⟩) p q).trans ?_
        rw [e8, Cert.BoolMM.total_succ]
        exact congrArg₂ (· + ·) ihm (tile_at0 V c ⟨m + 1, h⟩ p q r s ⟨(m % 8 + 1) % 8, Nat.mod_lt _ (by decide)⟩ hr hs (by show (m % 8 + 1) % 8 = (m + 1) % 8; omega))

/-- At a point of tile 7 the output block holds, at (p, q), the entry (r, s) of the boolean product. -/
theorem out_eq0 (c : Dev nD) (t : Fin cfg0.N) (h7 : t.val % 8 = 7) (p q : Fin 1024) (r s : Fin 8192)
    (hr : r.val = 1024 * (t.val / 64) + p.val) (hs : s.val = 1024 * (t.val / 8 % 8) + q.val) :
    ((outsAt0 (F := Ideal) V c t.val t.isLt).1 (ix2 p q) : EReal) = Cert.BoolMM.entry (V c main_v41) (V c main_v41) r s := by
  have h0 : ¬t.val % 8 = 0 := by omega
  have hacc := acc_eq0 V c p q t.val t.isLt r s hr hs
  rw [outsAt0_C V c t h0 h7] at hacc ⊢
  dsimp only at hacc ⊢
  refine (congrFun (out0_C_eq (F := Ideal) c (grid0.coords t) (ms0_0 t) (hs0_0 t) (ms0_1 t) (hs0_1 t) (ms0_2 t) (hs0_2 t) scM0 (Memref.isWhole_whole _) _ _ (iblk0 V c 0 t) (iblk0 V c 1 t) (outsAt0 V c (t.val - 1) (Nat.lt_of_le_of_lt (Nat.sub_le _ _) t.isLt)).2) (ix2 p q)).trans ?_
  refine (PayValue.k0_pay3_at _ p q).trans ?_
  rw [← sout0_C_eq (F := Ideal) c (grid0.coords t) (ms0_0 t) (hs0_0 t) (ms0_1 t) (hs0_1 t) (ms0_2 t) (hs0_2 t) scM0 (Memref.isWhole_whole _) (fun h => h0 ((hcond0_0 t).mp h)) ((hcond0_1 t).mpr h7) (iblk0 V c 0 t) (iblk0 V c 1 t) (outsAt0 V c (t.val - 1) (Nat.lt_of_le_of_lt (Nat.sub_le _ _) t.isLt)).2]
  unfold Cert.BoolMM.entry
  rw [hacc, h7]

/-! ## From the blocks to the array -/

section final

variable (q : Fin cfg0.W → PosShare TreeShare)

/-- What a point of tile 7 writes back is its block of the boolean product of the operand arrays. -/
theorem flushed_eq0 (c : Dev nD) (t : Fin cfg0.N) (hf : (cfg0.win 2).flush t = true) :
    (dat0 (F := Ideal) V q c).flushed 2 t
      = ((cfg0.win 2).blk t).view.read (Elt Ideal) (Cert.BoolMM.boolMM (V c main_v41) (V c main_v41)) := by
  have h7 : t.val % 8 = 7 := (flush0_2 t).mp hf
  have hN : t.val < 512 := lt_of_lt_of_eq t.isLt (show cfg0.N = 512 from N_0)
  obtain ⟨-, -, -, -, e4, e5⟩ := idx_facts0 t
  show (cfg0.win 2).cut (grid0.coords t) ((dat0 V q c).after 2 t) = _
  rw [after0_2]
  funext j
  have hp : (j 0).val < 1024 := (j 0).isLt
  have hq : (j 1).val < 1024 := (j 1).isLt
  have ej : (cfg0.win 2).xinj (grid0.coords t) j = ix2 (⟨(j 0).val, hp⟩ : Fin 1024) (⟨(j 1).val, hq⟩ : Fin 1024) :=
    funext fun a => by match a with | ⟨0, _⟩ => rfl | ⟨1, _⟩ => rfl
  show (outsAt0 V c t.val t.isLt).1 ((cfg0.win 2).xinj (grid0.coords t) j)
    = Cert.BoolMM.boolMM (V c main_v41) (V c main_v41) (((cfg0.win 2).blk t).view.emb j)
  rw [ej]
  unfold Cert.BoolMM.boolMM
  exact out_eq0 V c t h7 ⟨(j 0).val, hp⟩ ⟨(j 1).val, hq⟩ _ _
    (by show win0_2.index t (0 : Fin 2) * 1024 + 1 * (j 0).val = 1024 * (t.val / 64) + (j 0).val; rw [e4]; omega)
    (by show win0_2.index t (1 : Fin 2) * 1024 + 1 * (j 1).val = 1024 * (t.val / 8 % 8) + (j 1).val; rw [e5]; omega)

/-- An entry of the output array is in point `t`'s block iff each coordinate is in the block's range on its axis. -/
theorem mem_blk0 (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v42).slice (win0_2.rect t)).set ↔ _
  rw [View.set_slice_whole, Rect.mem_set_unit]
  exact Iff.rfl

/-- Entry (r, s) of the output array is written back by the point (r / 1024, s / 1024, 7). -/
theorem cover0 (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  have hN : cfg0.N = 512 := N_0
  obtain ⟨t, ht⟩ : ∃ t : Fin cfg0.N, t.val = ((i 0).val / 1024 * 8 + (i 1).val / 1024) * 8 + 7 :=
    ⟨⟨((i 0).val / 1024 * 8 + (i 1).val / 1024) * 8 + 7, lt_of_lt_of_eq (by omega) hN.symm⟩, rfl⟩
  obtain ⟨-, -, -, -, e4, e5⟩ := idx_facts0 t
  refine ⟨t, (flush0_2 t).mpr (by rw [ht]; omega), ?_⟩
  rw [mem_blk0]
  intro a
  match a with
  | ⟨0, _⟩ =>
    show win0_2.index t (0 : Fin 2) * 1024 ≤ (i 0).val ∧ (i 0).val < win0_2.index t (0 : Fin 2) * 1024 + 1024
    rw [e4, ht]; omega
  | ⟨1, _⟩ =>
    show win0_2.index t (1 : Fin 2) * 1024 ≤ (i 1).val ∧ (i 1).val < win0_2.index t (1 : Fin 2) * 1024 + 1024
    rw [e5, ht]; omega

/-- After region 0 its output array holds the boolean product of its two operand arrays as the region finds them. -/
theorem res_eq0 (c : Dev nD) :
    (dat0 (F := Ideal) V q c).arrAt 2 cfg0.N = Cert.BoolMM.boolMM (V c main_v41) (V c main_v41) :=
  (dat0 (F := Ideal) V q c).arrAt_eq_of_cover 2 (Cert.BoolMM.boolMM (V c main_v41) (V c main_v41))
    (fun t hf => flushed_eq0 V q c t hf) cover0

end final

end value

end Cert.KernelIdeal.Gen

end
-- ==== Proof.KIValue1.lean ====
/-
  Region 1's value: after the region its output array is the boolean product of its two operand arrays.

  The grid point t = (i·8 + j)·8 + k reads block (i, k) of the left operand and block (k, j) of the right one.  What each
  of the three cases of a point leaves in the accumulator and in the output block is one payload of the blocks and of
  what the accumulator held; so by induction on the point the accumulator after t holds at (p, q) the running total over
  tiles 0 … k of entry (1024·i + p, 1024·j + q), and at k = 7 the output block holds the positivity of the total over all
  eight tiles, which is the entry of the boolean product.  The 64 points with k = 7 write their blocks back, and entry
  (r, s) of the array lies in the block of the point (r / 1024, s / 1024, 7).
-/
import proofs.«156333_j37684043055138_1_alg».proof.Proof.KernelIdealDat1
import proofs.«156333_j37684043055138_1_alg».proof.Proof.KIPayload
import proofs.«156333_j37684043055138_1_alg».proof.Proof.BoolMMLaw
import Idealize.ShloMosaic.Lib.Pipeline.Value
import Idealize.ShloMosaic.Lib.ValueIdx
import Idealize.ShloMosaic.Lib.Tactic

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.Sem
open Idealize.ShloMosaic.Pipeline (Dat Cfg Window)
open scoped BigOperators

/-! # Region 1: the output array after the region is the boolean product of its two operand arrays

The accumulator after the point (i, j, k) holds, at (p, q), the running total over tiles 0 … k of entry
(1024·i + p, 1024·j + q); at tile 7 the output block is the positivity of that total; the 64 blocks written back
at the points of tile 7 cover the output array. -/

section pieces

variable {F : FTy → Type} [FloatOps F]

/-- The zero offsets, however spelt. -/
theorem hz1 : (![0, 0] : Fin 2 → Nat) = fun _ => 0 := funext fun a => by fin_cases a <;> rfl

/-- Tile 0 leaves in the accumulator the product of its two blocks added onto the zeros it first stores there. -/
theorem sout1_A_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : cond1_0 i) (hc1 : ¬cond1_1 i)
    (x0 x1 : Vec F S1024x1024 .bf16) :
    sout1_A c i arg3 harg3 arg4 harg4 arg5 harg5 arg6 harg6 hc0 hc1 x0 x1 = k1_pay2 k1_pay1 x0 x1 := by
  unfold sout1_A
  rw [View.read_writes_eq_canon _ _ _ (scover1_A c i arg3 harg3 arg4 harg4 arg5 harg5 arg6 harg6 hc0 hc1 x0 x1)]
  unfold kernelRun1_A
  dsimp only
  sl_unfold_words
  rw [View.canon_cons_unit_zero (S := S1024x1024) hz1, View.readCov_unit_zero (S := S1024x1024) _ hz1]
  simp only [View.readAt_eq_ld, harg3.read_unread, harg4.read_unread, View.ld_unit_zero (S := S1024x1024) hz1]

/-- A middle tile leaves in the accumulator the product of its two blocks added onto what the accumulator held. -/
theorem sout1_B_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : ¬cond1_1 i)
    (x0 x1 : Vec F S1024x1024 .bf16) (xs : Vec F S1024x1024 .f32) :
    sout1_B c i arg3 harg3 arg4 harg4 arg5 harg5 arg6 harg6 hc0 hc1 x0 x1 xs = k1_pay2 xs x0 x1 := by
  unfold sout1_B
  rw [View.read_writes_eq_canon _ _ _ (scover1_B c i arg3 harg3 arg4 harg4 arg5 harg5 arg6 harg6 hc0 hc1 x0 x1 xs)]
  unfold kernelRun1_B
  dsimp only
  rw [View.canon_unit_zero (S := S1024x1024) hz1]
  simp only [View.readAt_eq_ld, harg3.read_unread, harg4.read_unread, harg6.read_unread, View.ld_unit_zero (S := S1024x1024) hz1]

/-- Tile 7 leaves the same in the accumulator, -/
theorem sout1_C_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 x1 : Vec F S1024x1024 .bf16) (xs : Vec F S1024x1024 .f32) :
    sout1_C c i arg3 harg3 arg4 harg4 arg5 harg5 arg6 harg6 hc0 hc1 x0 x1 xs = k1_pay2 xs x0 x1 := by
  unfold sout1_C
  rw [View.read_writes_eq_canon _ _ _ (scover1_C c i arg3 harg3 arg4 harg4 arg5 harg5 arg6 harg6 hc0 hc1 x0 x1 xs)]
  unfold kernelRun1_C
  dsimp only
  sl_unfold_words
  rw [View.canon_unit_zero (S := S1024x1024) hz1]
  simp only [View.readAt_eq_ld, harg3.read_unread, harg4.read_unread, harg6.read_unread, View.ld_unit_zero (S := S1024x1024) hz1]

/-- and in the output block the positivity of that sum. -/
theorem out1_C_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond1_0 i) (hc1 : cond1_1 i)
    (x0 x1 : Vec F S1024x1024 .bf16) (xs : Vec F S1024x1024 .f32) :
    out1_C c i arg3 harg3 arg4 harg4 arg5 harg5 arg6 harg6 hc0 hc1 x0 x1 xs = k1_pay3 (k1_pay2 xs x0 x1) := by
  unfold out1_C
  rw [View.read_writes_eq_canon _ _ _ (cover1_C c i arg3 harg3 arg4 harg4 arg5 harg5 arg6 harg6 hc0 hc1 x0 x1 xs)]
  unfold kernelRun1_C
  dsimp only
  sl_unfold_words
  rw [View.canon_unit_zero (S := S1024x1024) hz1, View.readCov_unit_zero (S := S1024x1024) _ hz1]
  simp only [View.readAt_eq_ld, harg3.read_unread, harg4.read_unread, harg6.read_unread, View.ld_unit_zero (S := S1024x1024) hz1]

/-- Where the two input windows' and the output window's blocks sit at point `t`. -/
theorem idx_facts1 : ∀ t : Fin cfg1.N,
    win1_0.index t (0 : Fin 2) = t.val / 64 ∧ win1_0.index t (1 : Fin 2) = t.val % 8
    ∧ win1_1.index t (0 : Fin 2) = t.val % 8 ∧ win1_1.index t (1 : Fin 2) = t.val / 8 % 8
    ∧ win1_2.index t (0 : Fin 2) = t.val / 64 ∧ win1_2.index t (1 : Fin 2) = t.val / 8 % 8 :=
  (by decide +kernel : ∀ t : Fin grid1.N, _)

variable (V : (c : Dev nD) → (b : Ref sig .tc) → Buf (Elt F) ((c : Thread nD τ).loc b))

/-- The left operand's block at point `t`, at (p, l): the operand at row 1024·(t / 64) + p, column 1024·(t % 8) + l. -/
theorem iblk1_0_at (c : Dev nD) (t : Fin cfg1.N) (p l : Fin 1024) (r k : Fin 8192)
    (hr : r.val = 1024 * (t.val / 64) + p.val) (hk : k.val = 1024 * (t.val % 8) + l.val) :
    (iblk1 V c 0 t : Vec F S1024x1024 .bf16) (ix2 p l) = (V c main_v42 : S8192x8192.Idx → Elt F .bf16) (ix2 r k) := by
  obtain ⟨e0, e1, -, -, -, -⟩ := idx_facts1 t
  unfold iblk1
  rw [View.read_apply]
  show V c main_v42 _ = V c main_v42 _
  congr 1
  funext a
  apply Fin.ext
  match a with
  | ⟨0, _⟩ => show win1_0.index t 0 * 1024 + 1 * p.val = r.val; rw [e0, hr]; omega
  | ⟨1, _⟩ => show win1_0.index t 1 * 1024 + 1 * l.val = k.val; rw [e1, hk]; omega

/-- The right operand's block at point `t`, at (l, q): the operand at row 1024·(t % 8) + l, column 1024·(t / 8 % 8) + q. -/
theorem iblk1_1_at (c : Dev nD) (t : Fin cfg1.N) (l q : Fin 1024) (k s : Fin 8192)
    (hk : k.val = 1024 * (t.val % 8) + l.val) (hs : s.val = 1024 * (t.val / 8 % 8) + q.val) :
    (iblk1 V c 1 t : Vec F S1024x1024 .bf16) (ix2 l q) = (V c main_v41 : S8192x8192.Idx → Elt F .bf16) (ix2 k s) := by
  obtain ⟨-, -, e0, e1, -, -⟩ := idx_facts1 t
  unfold iblk1
  rw [View.read_apply]
  show V c main_v41 _ = V c main_v41 _
  congr 1
  funext a
  apply Fin.ext
  match a with
  | ⟨0, _⟩ => show win1_1.index t 0 * 1024 + 1 * l.val = k.val; rw [e0, hk]; omega
  | ⟨1, _⟩ => show win1_1.index t 1 * 1024 + 1 * q.val = s.val; rw [e1, hs]; omega

end pieces

section value

variable (V : (c : Dev nD) → (b : Ref sig .tc) → Buf (Elt Ideal) ((c : Thread nD τ).loc b))

/-- The products of row `p` of one block against column `q` of another, summed over their 1024 places, are tile `k` of
    entry (r, s) when the blocks hold columns, respectively rows, 1024·k … 1024·k + 1023 of row `r` and column `s`. -/
theorem tile_of_blocks1 (x y : S8192x8192.Idx → EReal) (a b : Vec Ideal S1024x1024 .bf16) (p q : Fin 1024) (r s : Fin 8192) (k : Fin 8)
    (ha : ∀ l : Fin 1024, a (ix2 p l) = x (ix2 r (⟨1024 * k.val + l.val, by omega⟩ : Fin 8192)))
    (hb : ∀ l : Fin 1024, b (ix2 l q) = y (ix2 (⟨1024 * k.val + l.val, by omega⟩ : Fin 8192) s)) :
    ∑ l : Fin 1024, a (ix2 p l) * b (ix2 l q) = Cert.BoolMM.tile x y r s k := by
  unfold Cert.BoolMM.tile
  refine Finset.sum_congr rfl fun l _ => ?_
  rw [ha l, hb l]

/-- One point's products at (p, q), summed over the 1024 places of its two blocks, are the tile of the point's
    position along the contracted axis, for the entry (r, s) the accumulator's (p, q) stands for. -/
theorem tile_at1 (c : Dev nD) (t : Fin cfg1.N) (p q : Fin 1024) (r s : Fin 8192) (k : Fin 8)
    (hr : r.val = 1024 * (t.val / 64) + p.val) (hs : s.val = 1024 * (t.val / 8 % 8) + q.val) (hk : k.val = t.val % 8) :
    ∑ l : Fin 1024, (fun (a b : Vec Ideal S1024x1024 .bf16) => a (ix2 p l) * b (ix2 l q)) (iblk1 V c 0 t) (iblk1 V c 1 t)
      = Cert.BoolMM.tile (V c main_v42) (V c main_v41) r s k :=
  tile_of_blocks1 (V c main_v42) (V c main_v41) (iblk1 V c 0 t) (iblk1 V c 1 t) p q r s k
    (fun l => iblk1_0_at V c t p l r ⟨1024 * k.val + l.val, by omega⟩ hr (by show 1024 * k.val + l.val = _; rw [hk]))
    (fun l => iblk1_1_at V c t l q ⟨1024 * k.val + l.val, by omega⟩ s (by show 1024 * k.val + l.val = _; rw [hk]) hs)

/-- The accumulator after point `n`, at (p, q): the running total, over the tiles up to the point's, of the entry
    (r, s) of the product that (p, q) stands for in the point's output block. -/
theorem acc_eq1 (c : Dev nD) (p q : Fin 1024) :
    ∀ (n : ℕ) (h : n < cfg1.N) (r s : Fin 8192), r.val = 1024 * (n / 64) + p.val → s.val = 1024 * (n / 8 % 8) + q.val →
      ((outsAt1 (F := Ideal) V c n h).2 (ix2 p q) : EReal) = Cert.BoolMM.total (V c main_v42) (V c main_v41) r s (n % 8) := by
  intro n
  induction n using Nat.strong_induction_on with
  | _ n ih =>
    intro h r s hr hs
    by_cases h0 : n % 8 = 0
    · have h1 : ¬n % 8 = 7 := by omega
      rw [outsAt1_A V c ⟨n, h⟩ h0 h1]
      dsimp only
      refine (congrFun (sout1_A_eq (F := Ideal) c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) scM1 (Memref.isWhole_whole _) _ _ (iblk1 V c 0 ⟨n, h⟩) (iblk1 V c 1 ⟨n, h⟩)) (ix2 p q)).trans ?_
      refine (PayValue.k1_pay2_at (k1_pay1 (F := Ideal)) (iblk1 V c 0 ⟨n, h⟩) (iblk1 V c 1 ⟨n, h⟩) p q).trans ?_
      rw [h0, Cert.BoolMM.total_zero]
      exact congrArg₂ (· + ·) (PayValue.k1_pay1_at p q) (tile_at1 V c ⟨n, h⟩ p q r s 0 hr hs (by show (0 : ℕ) = n % 8; omega))
    · obtain ⟨m, rfl⟩ : ∃ m, n = m + 1 := ⟨n - 1, by omega⟩
      have e8 : (m + 1) % 8 = m % 8 + 1 := by omega
      have ihm := ih m (Nat.lt_succ_self m) (Nat.lt_of_succ_lt h) r s (by omega) (by omega)
      by_cases h1 : (m + 1) % 8 = 7
      · rw [outsAt1_C V c ⟨m + 1, h⟩ h0 h1]
        dsimp only
        refine (congrFun (sout1_C_eq (F := Ideal) c (grid1.coords ⟨m + 1, h⟩) (ms1_0 ⟨m + 1, h⟩) (hs1_0 ⟨m + 1, h⟩) (ms1_1 ⟨m + 1, h⟩) (hs1_1 ⟨m + 1, h⟩) (ms1_2 ⟨m + 1, h⟩) (hs1_2 ⟨m + 1, h⟩) scM1 (Memref.isWhole_whole _) _ _ (iblk1 V c 0 ⟨m + 1, h⟩) (iblk1 V c 1 ⟨m + 1, h⟩) (outsAt1 V c m (Nat.lt_of_succ_lt h)).2) (ix2 p q)).trans ?_
        refine (PayValue.k1_pay2_at (outsAt1 V c m (Nat.lt_of_succ_lt h)).2 (iblk1 V c 0 ⟨m + 1, h⟩) (iblk1 V c 1 ⟨m + 1, h⟩) p q).trans ?_
        rw [e8, Cert.BoolMM.total_succ]
        exact congrArg₂ (· + ·) ihm (tile_at1 V c ⟨m + 1, h⟩ p q r s ⟨(m % 8 + 1) % 8, Nat.mod_lt _ (by decide)⟩ hr hs (by show (m % 8 + 1) % 8 = (m + 1) % 8; omega))
      · rw [outsAt1_B V c ⟨m + 1, h⟩ h0 h1]
        dsimp only
        refine (congrFun (sout1_B_eq (F := Ideal) c (grid1.coords ⟨m + 1, h⟩) (ms1_0 ⟨m + 1, h⟩) (hs1_0 ⟨m + 1, h⟩) (ms1_1 ⟨m + 1, h⟩) (hs1_1 ⟨m + 1, h⟩) (ms1_2 ⟨m + 1, h⟩) (hs1_2 ⟨m + 1, h⟩) scM1 (Memref.isWhole_whole _) _ _ (iblk1 V c 0 ⟨m + 1, h⟩) (iblk1 V c 1 ⟨m + 1, h⟩) (outsAt1 V c m (Nat.lt_of_succ_lt h)).2) (ix2 p q)).trans ?_
        refine (PayValue.k1_pay2_at (outsAt1 V c m (Nat.lt_of_succ_lt h)).2 (iblk1 V c 0 ⟨m + 1, h⟩) (iblk1 V c 1 ⟨m + 1, h⟩) p q).trans ?_
        rw [e8, Cert.BoolMM.total_succ]
        exact congrArg₂ (· + ·) ihm (tile_at1 V c ⟨m + 1, h⟩ p q r s ⟨(m % 8 + 1) % 8, Nat.mod_lt _ (by decide)⟩ hr hs (by show (m % 8 + 1) % 8 = (m + 1) % 8; omega))

/-- At a point of tile 7 the output block holds, at (p, q), the entry (r, s) of the boolean product. -/
theorem out_eq1 (c : Dev nD) (t : Fin cfg1.N) (h7 : t.val % 8 = 7) (p q : Fin 1024) (r s : Fin 8192)
    (hr : r.val = 1024 * (t.val / 64) + p.val) (hs : s.val = 1024 * (t.val / 8 % 8) + q.val) :
    ((outsAt1 (F := Ideal) V c t.val t.isLt).1 (ix2 p q) : EReal) = Cert.BoolMM.entry (V c main_v42) (V c main_v41) r s := by
  have h0 : ¬t.val % 8 = 0 := by omega
  have hacc := acc_eq1 V c p q t.val t.isLt r s hr hs
  rw [outsAt1_C V c t h0 h7] at hacc ⊢
  dsimp only at hacc ⊢
  refine (congrFun (out1_C_eq (F := Ideal) c (grid1.coords t) (ms1_0 t) (hs1_0 t) (ms1_1 t) (hs1_1 t) (ms1_2 t) (hs1_2 t) scM1 (Memref.isWhole_whole _) _ _ (iblk1 V c 0 t) (iblk1 V c 1 t) (outsAt1 V c (t.val - 1) (Nat.lt_of_le_of_lt (Nat.sub_le _ _) t.isLt)).2) (ix2 p q)).trans ?_
  refine (PayValue.k1_pay3_at _ p q).trans ?_
  rw [← sout1_C_eq (F := Ideal) c (grid1.coords t) (ms1_0 t) (hs1_0 t) (ms1_1 t) (hs1_1 t) (ms1_2 t) (hs1_2 t) scM1 (Memref.isWhole_whole _) (fun h => h0 ((hcond1_0 t).mp h)) ((hcond1_1 t).mpr h7) (iblk1 V c 0 t) (iblk1 V c 1 t) (outsAt1 V c (t.val - 1) (Nat.lt_of_le_of_lt (Nat.sub_le _ _) t.isLt)).2]
  unfold Cert.BoolMM.entry
  rw [hacc, h7]

/-! ## From the blocks to the array -/

section final

variable (q : Fin cfg1.W → PosShare TreeShare)

/-- What a point of tile 7 writes back is its block of the boolean product of the operand arrays. -/
theorem flushed_eq1 (c : Dev nD) (t : Fin cfg1.N) (hf : (cfg1.win 2).flush t = true) :
    (dat1 (F := Ideal) V q c).flushed 2 t
      = ((cfg1.win 2).blk t).view.read (Elt Ideal) (Cert.BoolMM.boolMM (V c main_v42) (V c main_v41)) := by
  have h7 : t.val % 8 = 7 := (flush1_2 t).mp hf
  have hN : t.val < 512 := lt_of_lt_of_eq t.isLt (show cfg1.N = 512 from N_1)
  obtain ⟨-, -, -, -, e4, e5⟩ := idx_facts1 t
  show (cfg1.win 2).cut (grid1.coords t) ((dat1 V q c).after 2 t) = _
  rw [after1_2]
  funext j
  have hp : (j 0).val < 1024 := (j 0).isLt
  have hq : (j 1).val < 1024 := (j 1).isLt
  have ej : (cfg1.win 2).xinj (grid1.coords t) j = ix2 (⟨(j 0).val, hp⟩ : Fin 1024) (⟨(j 1).val, hq⟩ : Fin 1024) :=
    funext fun a => by match a with | ⟨0, _⟩ => rfl | ⟨1, _⟩ => rfl
  show (outsAt1 V c t.val t.isLt).1 ((cfg1.win 2).xinj (grid1.coords t) j)
    = Cert.BoolMM.boolMM (V c main_v42) (V c main_v41) (((cfg1.win 2).blk t).view.emb j)
  rw [ej]
  unfold Cert.BoolMM.boolMM
  exact out_eq1 V c t h7 ⟨(j 0).val, hp⟩ ⟨(j 1).val, hq⟩ _ _
    (by show win1_2.index t (0 : Fin 2) * 1024 + 1 * (j 0).val = 1024 * (t.val / 64) + (j 0).val; rw [e4]; omega)
    (by show win1_2.index t (1 : Fin 2) * 1024 + 1 * (j 1).val = 1024 * (t.val / 8 % 8) + (j 1).val; rw [e5]; omega)

/-- An entry of the output array is in point `t`'s block iff each coordinate is in the block's range on its axis. -/
theorem mem_blk1 (t : Fin cfg1.N) (i : S8192x8192.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v50).slice (win1_2.rect t)).set ↔ _
  rw [View.set_slice_whole, Rect.mem_set_unit]
  exact Iff.rfl

/-- Entry (r, s) of the output array is written back by the point (r / 1024, s / 1024, 7). -/
theorem cover1 (i : S8192x8192.Idx) : ∃ t : Fin cfg1.N, (cfg1.win 2).flush t = true ∧ i ∈ ((cfg1.win 2).blk t).view.set := by
  have hi0 : (i 0).val < 8192 := (i 0).isLt
  have hi1 : (i 1).val < 8192 := (i 1).isLt
  have hN : cfg1.N = 512 := N_1
  obtain ⟨t, ht⟩ : ∃ t : Fin cfg1.N, t.val = ((i 0).val / 1024 * 8 + (i 1).val / 1024) * 8 + 7 :=
    ⟨⟨((i 0).val / 1024 * 8 + (i 1).val / 1024) * 8 + 7, lt_of_lt_of_eq (by omega) hN.symm⟩, rfl⟩
  obtain ⟨-, -, -, -, e4, e5⟩ := idx_facts1 t
  refine ⟨t, (flush1_2 t).mpr (by rw [ht]; omega), ?_⟩
  rw [mem_blk1]
  intro a
  match a with
  | ⟨0, _⟩ =>
    show win1_2.index t (0 : Fin 2) * 1024 ≤ (i 0).val ∧ (i 0).val < win1_2.index t (0 : Fin 2) * 1024 + 1024
    rw [e4, ht]; omega
  | ⟨1, _⟩ =>
    show win1_2.index t (1 : Fin 2) * 1024 ≤ (i 1).val ∧ (i 1).val < win1_2.index t (1 : Fin 2) * 1024 + 1024
    rw [e5, ht]; omega

/-- After region 1 its output array holds the boolean product of its two operand arrays as the region finds them. -/
theorem res_eq1 (c : Dev nD) :
    (dat1 (F := Ideal) V q c).arrAt 2 cfg1.N = Cert.BoolMM.boolMM (V c main_v42) (V c main_v41) :=
  (dat1 (F := Ideal) V q c).arrAt_eq_of_cover 2 (Cert.BoolMM.boolMM (V c main_v42) (V c main_v41))
    (fun t hf => flushed_eq1 V q c t hf) cover1

end final

end value

end Cert.KernelIdeal.Gen

end
-- ==== Proof.KIHost.lean ====
/-
  The host side of the kernel program against the reference's stage values, over the extended reals.

  Between and after its two kernel regions the program runs the same host operations as the reference: each stage
  adds to what is there e^w times the product of a boolean power with the running vector.  Read off the buffers, the
  stage after the first region leaves x + e^{-4}·(P₂·y) and y plus that; the stage after the second leaves the sum of
  the three terms.  With the reference's own values put in for x, y, P₂ and P₃ the last is the reference's result.
-/
import proofs.«156333_j37684043055138_1_alg».proof.Proof.Gen.KernelIdeal.Regions
import proofs.«156333_j37684043055138_1_alg».proof.Proof.RefReadP
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo

/-- One weighted propagation term: e^w, broadcast down the column, times the product of the 8192×8192 array `P` with
    the column `v`. -/
def prop (w : BitVec 32) (P : FVec Ideal S8192x8192 .f32) (v : FVec Ideal S8192x1 .f32) : FVec Ideal S8192x1 .f32 :=
  mulf (broadcastInDim S8192x1 ![] bcast_S_S8192x1 (Host.exp (constant (F := Ideal) S_ .f32 w)))
    (Host.dotGeneral dot_S8192x8192_S8192x1_S8192x1_1_0_0_1_n_n none P v)

/-- After the stage that follows the first region, `main_v48` holds x + e^{-4}·(P·y): x, y the contents of
    `main_v23`, `main_v24` and P the widened contents of `main_v42`. -/
theorem after1_v48 (W : Valuation τ sig (Elt Ideal)) :
    (StableHlo.after (hostOps1 (F := Ideal)) W (Proc.devRef .tc main_v48) : FVec Ideal S8192x1 .f32)
      = addf (W main_v23 : FVec Ideal S8192x1 .f32) (prop 0xC0800000#32 (extf .f32 (W main_v42 : FVec Ideal S8192x8192 .bf16) bitsLt_bf16_f32) (W main_v24 : FVec Ideal S8192x1 .f32)) := by
  after_results
  rfl

/-- … and `main_v49` holds y plus that. -/
theorem after1_v49 (W : Valuation τ sig (Elt Ideal)) :
    (StableHlo.after (hostOps1 (F := Ideal)) W (Proc.devRef .tc main_v49) : FVec Ideal S8192x1 .f32)
      = addf (W main_v24 : FVec Ideal S8192x1 .f32) (addf (W main_v23 : FVec Ideal S8192x1 .f32) (prop 0xC0800000#32 (extf .f32 (W main_v42 : FVec Ideal S8192x8192 .bf16) bitsLt_bf16_f32) (W main_v24 : FVec Ideal S8192x1 .f32))) := by
  after_results
  rfl

/-- After the stage that follows the second region, `main_v57` holds u + (t + e^{-6}·(P·u)): t, u the contents of
    `main_v48`, `main_v49` and P the widened contents of `main_v50`. -/
theorem after2_v57 (W : Valuation τ sig (Elt Ideal)) :
    (StableHlo.after (hostOps2 (F := Ideal)) W (Proc.devRef .tc main_v57) : FVec Ideal S8192x1 .f32)
      = addf (W main_v49 : FVec Ideal S8192x1 .f32) (addf (W main_v48 : FVec Ideal S8192x1 .f32) (prop 0xC0C00000#32 (extf .f32 (W main_v50 : FVec Ideal S8192x8192 .bf16) bitsLt_bf16_f32) (W main_v49 : FVec Ideal S8192x1 .f32))) := by
  after_results
  rfl

/-- The closing equation: the three-term sum over the reference's own stage values is the reference's result. -/
theorem close_v60 (x0 : (⟨Cert.ReferenceIdeal.S8192x128, .f32⟩ : BufTy).Contents (Elt Ideal)) (x1 x2 x3 : (⟨Cert.ReferenceIdeal.S128x128, .f32⟩ : BufTy).Contents (Elt Ideal)) (x4 : (⟨Cert.ReferenceIdeal.S128x1, .f32⟩ : BufTy).Contents (Elt Ideal)) (x5 : (⟨Cert.ReferenceIdeal.S2x131072, .i32⟩ : BufTy).Contents (Elt Ideal)) :
    addf (addf (Cert.ReferenceIdeal.ReadP.val_main_v24 (F := Ideal) x0 x1 x2 x3 x4 x5 : FVec Ideal S8192x1 .f32) (addf (Cert.ReferenceIdeal.ReadP.val_main_v23 (F := Ideal) x0 x1 x2 x3 x4 x5 : FVec Ideal S8192x1 .f32) (prop 0xC0800000#32 (Cert.ReferenceIdeal.ReadP.val_main_v44 (F := Ideal) x5 : FVec Ideal S8192x8192 .f32) (Cert.ReferenceIdeal.ReadP.val_main_v24 (F := Ideal) x0 x1 x2 x3 x4 x5 : FVec Ideal S8192x1 .f32))))
      (addf (addf (Cert.ReferenceIdeal.ReadP.val_main_v23 (F := Ideal) x0 x1 x2 x3 x4 x5 : FVec Ideal S8192x1 .f32) (prop 0xC0800000#32 (Cert.ReferenceIdeal.ReadP.val_main_v44 (F := Ideal) x5 : FVec Ideal S8192x8192 .f32) (Cert.ReferenceIdeal.ReadP.val_main_v24 (F := Ideal) x0 x1 x2 x3 x4 x5 : FVec Ideal S8192x1 .f32)))
        (prop 0xC0C00000#32 (Cert.ReferenceIdeal.ReadP.val_main_v54 (F := Ideal) x5 : FVec Ideal S8192x8192 .f32) (addf (Cert.ReferenceIdeal.ReadP.val_main_v24 (F := Ideal) x0 x1 x2 x3 x4 x5 : FVec Ideal S8192x1 .f32) (addf (Cert.ReferenceIdeal.ReadP.val_main_v23 (F := Ideal) x0 x1 x2 x3 x4 x5 : FVec Ideal S8192x1 .f32) (prop 0xC0800000#32 (Cert.ReferenceIdeal.ReadP.val_main_v44 (F := Ideal) x5 : FVec Ideal S8192x8192 .f32) (Cert.ReferenceIdeal.ReadP.val_main_v24 (F := Ideal) x0 x1 x2 x3 x4 x5 : FVec Ideal S8192x1 .f32))))))
      = (Cert.ReferenceIdeal.ReadP.val_main_v60 (F := Ideal) x0 x1 x2 x3 x4 x5 : FVec Ideal S8192x1 .f32) := by
  unfold Cert.ReferenceIdeal.ReadP.val_main_v60 Cert.ReferenceIdeal.ReadP.val_main_v59 Cert.ReferenceIdeal.ReadP.val_main_v58
    Cert.ReferenceIdeal.ReadP.val_main_v57 Cert.ReferenceIdeal.ReadP.val_main_v56 Cert.ReferenceIdeal.ReadP.val_main_v55
    Cert.ReferenceIdeal.ReadP.val_main_cst_11 Cert.ReferenceIdeal.ReadP.val_main_v50 Cert.ReferenceIdeal.ReadP.val_main_v49
    Cert.ReferenceIdeal.ReadP.val_main_v48 Cert.ReferenceIdeal.ReadP.val_main_v47 Cert.ReferenceIdeal.ReadP.val_main_v46
    Cert.ReferenceIdeal.ReadP.val_main_v45 Cert.ReferenceIdeal.ReadP.val_main_cst_9 prop
  rfl

section Pre

variable (m : (ℓ : Loc nD τ sig) → Buf (Elt Ideal) ℓ) (c : Dev nD)

set_option maxRecDepth 8192 in
set_option maxHeartbeats 4000000 in
/-- Before the first region `main_v23` holds the reference's scattered sum of the launch arguments. -/
theorem pre_v23 :
    (V7 m c (Proc.devRef .tc main_v23) : FVec Ideal S8192x1 .f32)
      = (Cert.ReferenceIdeal.ReadP.val_main_v23 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) : FVec Ideal S8192x1 .f32) := by
  after_results_simp
  rfl

set_option maxRecDepth 8192 in
set_option maxHeartbeats 4000000 in
/-- Before the first region `main_v24` holds the reference's first-stage column. -/
theorem pre_v24 :
    (V7 m c (Proc.devRef .tc main_v24) : FVec Ideal S8192x1 .f32)
      = (Cert.ReferenceIdeal.ReadP.val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) : FVec Ideal S8192x1 .f32) := by
  after_results_simp
  rfl

set_option maxRecDepth 8192 in
set_option maxHeartbeats 4000000 in
/-- Before the first region `main_v41` holds the reference's adjacency array, narrowed to the shorter format. -/
theorem pre_v41 :
    (V7 m c (Proc.devRef .tc main_v41) : FVec Ideal S8192x8192 .bf16)
      = (truncf (F := Ideal) (s := S8192x8192) .bf16 (Cert.ReferenceIdeal.ReadP.val_main_v40 (F := Ideal) (m ((c.tc : Thread nD τ).loc main_arg5)) : FVec Ideal S8192x8192 .f32) bitsLt_bf16_f32 : FVec Ideal S8192x8192 .bf16) := by
  after_results_simp
  rfl

/-- Narrowing to the shorter format is the identity on extended reals. -/
theorem truncf_bf16_id {s : Shape} (X : FVec Ideal s .f32) (h : FTy.bits .bf16 < FTy.bits .f32) :
    (truncf (F := Ideal) .bf16 X h : s.Idx → EReal) = X := rfl

set_option maxRecDepth 8192 in
/-- So `main_v41` holds the adjacency array itself. -/
theorem pre_v41_id :
    (V7 m c (Proc.devRef .tc main_v41) : S8192x8192.Idx → EReal)
      = Cert.ReferenceIdeal.ReadP.val_main_v40 (F := Ideal) (m ((c.tc : Thread nD τ).loc main_arg5)) :=
  (pre_v41 m c).trans (truncf_bf16_id _ _)

end Pre

end Cert.KernelIdeal.HostValue

end
-- ==== Proof.RefBridge.lean ====
/-
  The reference's two boolean powers are the boolean matrix product.

  The reference forms P·A by one contraction over all 8192 places, compares the result with zero and converts the
  one-bit answer to a number.  Read at an entry (r, c) over the extended reals that is the converted bit of
  "∑_k x[r, k] · y[k, c] is above zero"; the eight-tile running total is the same sum regrouped, so the entry is the
  boolean product's.  The first power takes both operands to be the adjacency array, the second takes the first power
  on the left and the adjacency array on the right.
-/
import proofs.«156333_j37684043055138_1_alg».proof.Proof.BoolMMLaw
import proofs.«156333_j37684043055138_1_alg».proof.Proof.RefReadP

noncomputable section

namespace Cert.ReferenceIdeal.RefValue

open Cert.ReferenceIdeal Cert.ReferenceIdeal.ReadP Idealize.ShloMosaic Idealize.ShloMosaic.ValueIdx
open scoped BigOperators

/-- In the first product the left operand is read at row `i 0`, column `k`. -/
theorem lidx_v41_eq (i : S8192x8192.Idx) (k : Fin 8192) :
    lidx_main_v41 i k = ix2 (⟨(i 0).val, (i 0).isLt⟩ : Fin 8192) k :=
  funext fun a => by match a with | ⟨0, _⟩ => rfl | ⟨1, _⟩ => rfl

/-- In the first product the right operand is read at row `k`, column `i 1`. -/
theorem ridx_v41_eq (i : S8192x8192.Idx) (k : Fin 8192) :
    ridx_main_v41 i k = ix2 k (⟨(i 1).val, (i 1).isLt⟩ : Fin 8192) :=
  funext fun a => by match a with | ⟨0, _⟩ => rfl | ⟨1, _⟩ => rfl

/-- In the second product the left operand is read at row `i 0`, column `k`. -/
theorem lidx_v51_eq (i : S8192x8192.Idx) (k : Fin 8192) :
    lidx_main_v51 i k = ix2 (⟨(i 0).val, (i 0).isLt⟩ : Fin 8192) k :=
  funext fun a => by match a with | ⟨0, _⟩ => rfl | ⟨1, _⟩ => rfl

/-- In the second product the right operand is read at row `k`, column `i 1`. -/
theorem ridx_v51_eq (i : S8192x8192.Idx) (k : Fin 8192) :
    ridx_main_v51 i k = ix2 k (⟨(i 1).val, (i 1).isLt⟩ : Fin 8192) :=
  funext fun a => by match a with | ⟨0, _⟩ => rfl | ⟨1, _⟩ => rfl

/-- The reference's first boolean power: the adjacency array times itself, above zero, as 0/1. -/
theorem v44_eq (x5 : (⟨S2x131072, .i32⟩ : BufTy).Contents (Elt Ideal)) :
    val_main_v44 (F := Ideal) x5 = Cert.BoolMM.boolMM (val_main_v40 (F := Ideal) x5) (val_main_v40 (F := Ideal) x5) := by
  funext i
  rw [val_main_v44_apply, val_main_v43_apply, val_main_v41_apply, val_main_v42_apply, val_main_cst_8_apply]
  simp only [lidx_v41_eq, ridx_v41_eq]
  exact (Cert.BoolMM.entry_eq_bit _ _ _ _).symm

/-- The reference's second boolean power: the first power times the adjacency array, above zero, as 0/1. -/
theorem v54_eq (x5 : (⟨S2x131072, .i32⟩ : BufTy).Contents (Elt Ideal)) :
    val_main_v54 (F := Ideal) x5 = Cert.BoolMM.boolMM (val_main_v44 (F := Ideal) x5) (val_main_v40 (F := Ideal) x5) := by
  funext i
  rw [val_main_v54_apply, val_main_v53_apply, val_main_v51_apply, val_main_v52_apply, val_main_cst_10_apply]
  simp only [lidx_v51_eq, ridx_v51_eq]
  exact (Cert.BoolMM.entry_eq_bit _ _ _ _).symm

end Cert.ReferenceIdeal.RefValue

end
-- ==== Proof.Bridge.lean ====
/-
  The two programs end with equal results over the extended reals.

  Region 0 leaves in its result array the boolean product of the adjacency array with itself, which is the reference's
  second boolean power; region 1 leaves the boolean product of that with the adjacency array, the reference's third.
  The host operations between and after the regions are the reference's own, so the kernel program's result is the
  reference's result of the same arguments.
-/
import proofs.«156333_j37684043055138_1_alg».proof.Defs
import proofs.«156333_j37684043055138_1_alg».proof.Proof.KernelIdealFrame
import proofs.«156333_j37684043055138_1_alg».proof.Proof.KIValue0
import proofs.«156333_j37684043055138_1_alg».proof.Proof.KIValue1
import proofs.«156333_j37684043055138_1_alg».proof.Proof.KIHost
import proofs.«156333_j37684043055138_1_alg».proof.Proof.RefBridge
import proofs.«156333_j37684043055138_1_alg».proof.Proof.Gen.Pre_finite_inputs

noncomputable section

namespace Cert.Bridge

open Cert.KernelIdeal Cert.KernelIdeal.Gen Cert.KernelIdeal.HostValue
open Idealize.ShloMosaic Idealize.ShloMosaic.TcCoe Idealize.SL.Sem Idealize.ShloMosaic.StableHlo

section Value

variable (m : (ℓ : Loc nD τ sig) → Buf (Elt Ideal) ℓ) (c : Dev nD)

/-- Widening to the longer format is the identity on extended reals. -/
theorem extf_f32_id {s : Shape} (X : FVec Ideal s .bf16) (h : FTy.bits .bf16 < FTy.bits .f32) :
    (extf (F := Ideal) .f32 X h : s.Idx → EReal) = X := rfl

/-- The host operations between the regions write neither region 0's result nor the adjacency array. -/
theorem W9_of (r : Ref sig .tc) (h : r ∉ (hostOps1_W : List (Ref sig .tc))) : W9 m c r = W8 m c r := by
  rw [← V9_eq, ← V8_eq]; exact V9_of m (outsF m) c r h

/-- Region 0 leaves the reference's second boolean power. -/
theorem res0_val : (res0 (F := Ideal) m c : S8192x8192.Idx → EReal)
    = Cert.ReferenceIdeal.ReadP.val_main_v44 (F := Ideal) (m ((c.tc : Thread nD τ).loc main_arg5)) :=
  (res_eq0 (E0 m) q0 c).trans
    ((congrArg₂ Cert.BoolMM.boolMM (pre_v41_id m c) (pre_v41_id m c)).trans (Cert.ReferenceIdeal.RefValue.v44_eq _).symm)

/-- Region 1 is entered with region 0's result and the adjacency array in place. -/
theorem E1_v42 : (W9 m c main_v42 : S8192x8192.Idx → EReal)
    = Cert.ReferenceIdeal.ReadP.val_main_v44 (F := Ideal) (m ((c.tc : Thread nD τ).loc main_arg5)) :=
  ((W9_of m c main_v42 (by decide)).trans (W8_self m c)).trans (res0_val m c)
theorem E1_v41 : (W9 m c main_v41 : S8192x8192.Idx → EReal)
    = Cert.ReferenceIdeal.ReadP.val_main_v40 (F := Ideal) (m ((c.tc : Thread nD τ).loc main_arg5)) :=
  ((W9_of m c main_v41 (by decide)).trans (W8_of m c main_v41 (by decide))).trans (pre_v41_id m c)

/-- Region 1 leaves the reference's third boolean power. -/
theorem res1_val : (res1 (F := Ideal) m c : S8192x8192.Idx → EReal)
    = Cert.ReferenceIdeal.ReadP.val_main_v54 (F := Ideal) (m ((c.tc : Thread nD τ).loc main_arg5)) :=
  (res_eq1 (E1 m) q1 c).trans
    ((congrArg₂ Cert.BoolMM.boolMM (E1_v42 m c) (E1_v41 m c)).trans (Cert.ReferenceIdeal.RefValue.v54_eq _).symm)

/-- After the first stage: the reference's x + e^{-4}·(P₂·y), -/
theorem s48 : (W9 m c main_v48 : FVec Ideal S8192x1 .f32)
    = addf (Cert.ReferenceIdeal.ReadP.val_main_v23 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) : FVec Ideal S8192x1 .f32)
        (prop 0xC0800000#32 (Cert.ReferenceIdeal.ReadP.val_main_v44 (F := Ideal) (m ((c.tc : Thread nD τ).loc main_arg5)) : FVec Ideal S8192x8192 .f32)
          (Cert.ReferenceIdeal.ReadP.val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) : FVec Ideal S8192x1 .f32)) := by
  refine (after1_v48 (W8 m c)).trans ?_
  rw [W8_of m c main_v23 (by decide), W8_of m c main_v24 (by decide), W8_self m c, pre_v23 m c, pre_v24 m c]
  exact congrArg (fun P => addf _ (prop 0xC0800000#32 P _)) ((extf_f32_id _ _).trans (res0_val m c))

/-- and y plus that. -/
theorem s49 : (W9 m c main_v49 : FVec Ideal S8192x1 .f32)
    = addf (Cert.ReferenceIdeal.ReadP.val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) : FVec Ideal S8192x1 .f32)
        (addf (Cert.ReferenceIdeal.ReadP.val_main_v23 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) : FVec Ideal S8192x1 .f32)
          (prop 0xC0800000#32 (Cert.ReferenceIdeal.ReadP.val_main_v44 (F := Ideal) (m ((c.tc : Thread nD τ).loc main_arg5)) : FVec Ideal S8192x8192 .f32)
            (Cert.ReferenceIdeal.ReadP.val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) : FVec Ideal S8192x1 .f32))) := by
  refine (after1_v49 (W8 m c)).trans ?_
  rw [W8_of m c main_v23 (by decide), W8_of m c main_v24 (by decide), W8_self m c, pre_v23 m c, pre_v24 m c]
  exact congrArg (fun P => addf _ (addf _ (prop 0xC0800000#32 P _))) ((extf_f32_id _ _).trans (res0_val m c))

/-- The kernel program's result is the reference's result of the same arguments. -/
theorem kernel_value : (V11 m (outsF m) c (Proc.devRef .tc main_v57) : FVec Ideal S8192x1 .f32)
    = (Cert.ReferenceIdeal.ReadP.val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) : FVec Ideal S8192x1 .f32) := by
  have h10 : V11 m (outsF m) c = StableHlo.after hostOps2 (W10 m c) := by
    show StableHlo.after hostOps2 (V10 m (outsF m) c) = _; rw [V10_eq]
  rw [h10]
  refine (after2_v57 (W10 m c)).trans ?_
  rw [W10_of m c main_v49 (by decide), W10_of m c main_v48 (by decide), W10_self m c, s48 m c, s49 m c]
  refine Eq.trans ?_ (close_v60 _ _ _ _ _ _)
  exact congrArg (fun P => addf _ (addf _ (prop 0xC0C00000#32 P _))) ((extf_f32_id _ _).trans (res1_val m c))

end Value

/-- From memories agreeing on the arguments both programs run to the end, nothing faulting, the arguments unchanged,
    with equal results. -/
theorem algebraic : Cert.algebraic_KernelIdeal_ReferenceIdeal := by
  intro m ρ m' ρ' _ hagree
  refine ⟨fun c => V11 m (outsF m) c (Proc.devRef .tc main_v57), ?_, ?_⟩
  · refine (θ_run Cert.KernelIdeal.defs _ _).mono (fun r h c => ?_) (run_all (F := Ideal) m ρ)
    have hm := h c
    exact ⟨hm _ (mem_uc main_v57 (by decide)),
      (hm _ (mem_uc main_arg0 (by decide))).trans (V11_main_arg0 m (outsF m) c),
      (hm _ (mem_uc main_arg1 (by decide))).trans (V11_main_arg1 m (outsF m) c),
      (hm _ (mem_uc main_arg2 (by decide))).trans (V11_main_arg2 m (outsF m) c),
      (hm _ (mem_uc main_arg3 (by decide))).trans (V11_main_arg3 m (outsF m) c),
      (hm _ (mem_uc main_arg4 (by decide))).trans (V11_main_arg4 m (outsF m) c),
      (hm _ (mem_uc main_arg5 (by decide))).trans (V11_main_arg5 m (outsF m) c)⟩
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v60_eq, (hagree c).1, (hagree c).2.1, (hagree c).2.2.1, (hagree c).2.2.2.1, (hagree c).2.2.2.2.1, (hagree c).2.2.2.2.2]
    exact (kernel_value m c).symm

end Cert.Bridge

end
-- ==== Proof.lean ====
/-
  The proof of `Cert.Claim`.

  The kernel program computes, on the host, a small dense network's output `a` per node and its sum over incoming edges,
  builds the 0/1 adjacency matrix `A` of the edge list, and then twice takes the boolean matrix product
  `P ↦ (P·A > 0)` in a TensorCore kernel: a grid of 8 × 8 × 8 points, the last coordinate counting eight tiles of width
  1024 of the contracted axis; an accumulator block is zeroed at tile 0, gets the product of the two input blocks added at
  every tile, and at tile 7 its positivity is stored as the output block. The reference takes each boolean product by
  one matrix product over all 8192 columns, a comparison with zero and a conversion.

  Frames: each region is entered with the core's unscoped buffers at the contents the host operations before it leave;
  the region's body obligation is proved case by case (tile 0, a middle tile, tile 7), the accumulator carried through
  the region invariant; region 0 reads the adjacency matrix through both input windows and so holds it at two half
  shares. The reference's frame is its run with the result dropped.

  Equivalence over the extended reals: a change of float format is the identity, a block's accumulated total over the
  eight tiles is the sum over all 8192 columns (a sum regrouped: associativity and commutativity of addition, and
  0 + x = x; no finiteness is used), so each output block is the reference's boolean product restricted to the block,
  and the host operations after each region are the reference's, applied to equal operands.
-/
import proofs.«156333_j37684043055138_1_alg».proof.Defs
import proofs.«156333_j37684043055138_1_alg».proof.Proof.KernelFrame
import proofs.«156333_j37684043055138_1_alg».proof.Proof.KernelIdealFrame
import proofs.«156333_j37684043055138_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealization is the program's own text read at the extended reals. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, Cert.Bridge.algebraic⟩

end Cert.Proof

end
